-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v27)) (v1 : (c : Dev Cert.KernelIdeal.nD) → Buf (Elt Ideal) ((c.tc : Thread Cert.KernelIdeal.nD Cert.KernelIdeal.τ).loc Cert.KernelIdeal.main_v28)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27) = v0 c
          ∧ r.2.mem ((c.tc : Thread Cert.KernelIdeal.nD Cert.KernelIdeal.τ).loc Cert.KernelIdeal.main_v28) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v45) = v0 c
          ∧ r.2.mem ((c.tc : Thread Cert.ReferenceIdeal.nD Cert.ReferenceIdeal.τ).loc Cert.ReferenceIdeal.main_v46) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048 : Shape := ⟨2, ![8, 2048]⟩
abbrev S8x2048x2048 : Shape := ⟨3, ![8, 2048, 2048]⟩
abbrev S_ : Shape := ⟨0, ![]⟩

class Facts : Prop where
  bcast_S_S8x2048 : S_.BroadcastsInDim S8x2048 (![] : Fin 0 → Fin S8x2048.rank)
  reducesTo_S8x2048_S_d0_1 : S8x2048.ReducesTo [0, 1] S_
  h_S_ : 0 < S_.numel

variable [Facts]

def fn_part1 {F : FTy → Type} [FloatOps F] (main_v13 : IVec S_ 1) (main_v16 : IVec S8x2048 1) : IVec S_ 1 :=
  let main_c_5 : IVec S_ 1 := constantI S_ 1 1#1
  let main_v17 : IVec S_ 1 := (fun x v => Host.reduce IntOp.andi x v reducesTo_S8x2048_S_d0_1 h_S_) main_v16 main_c_5
  let main_v18 : IVec S_ 1 := andi main_v13 main_v17
  main_v18

def fn {F : FTy → Type} [FloatOps F] (main_arg0 : FVec F S8x2048 .f32) (main_arg1 : FVec F S8x2048 .f32) (main_arg2 : FVec F S8x2048 .f32) (main_arg3 : IVec S8x2048x2048 1) (main_arg4 : FVec F S8x2048 .f32) : IVec S_ 1 :=
  let main_v0 : FVec F S8x2048 .f32 := Host.absf main_arg0
  let main_cst : FVec F S_ .f32 := constant S_ .f32 0x7F800000#32
  let main_v1 : FVec F S8x2048 .f32 := broadcastInDim S8x2048 ![] bcast_S_S8x2048 main_cst
  let main_v2 : IVec S8x2048 1 := cmpf .olt main_v0 main_v1
  let main_c : IVec S_ 1 := constantI S_ 1 1#1
  let main_v3 : IVec S_ 1 := (fun x v => Host.reduce IntOp.andi x v reducesTo_S8x2048_S_d0_1 h_S_) main_v2 main_c
  let main_v4 : FVec F S8x2048 .f32 := Host.absf main_arg1
  let main_cst_0 : FVec F S_ .f32 := constant S_ .f32 0x7F800000#32
  let main_v5 : FVec F S8x2048 .f32 := broadcastInDim S8x2048 ![] bcast_S_S8x2048 main_cst_0
  let main_v6 : IVec S8x2048 1 := cmpf .olt main_v4 main_v5
  let main_c_1 : IVec S_ 1 := constantI S_ 1 1#1
  let main_v7 : IVec S_ 1 := (fun x v => Host.reduce IntOp.andi x v reducesTo_S8x2048_S_d0_1 h_S_) main_v6 main_c_1
  let main_v8 : IVec S_ 1 := andi main_v3 main_v7
  let main_v9 : FVec F S8x2048 .f32 := Host.absf main_arg2
  let main_cst_2 : FVec F S_ .f32 := constant S_ .f32 0x7F800000#32
  let main_v10 : FVec F S8x2048 .f32 := broadcastInDim S8x2048 ![] bcast_S_S8x2048 main_cst_2
  let main_v11 : IVec S8x2048 1 := cmpf .olt main_v9 main_v10
  let main_c_3 : IVec S_ 1 := constantI S_ 1 1#1
  let main_v12 : IVec S_ 1 := (fun x v => Host.reduce IntOp.andi x v reducesTo_S8x2048_S_d0_1 h_S_) main_v11 main_c_3
  let main_v13 : IVec S_ 1 := andi main_v8 main_v12
  let main_v14 : FVec F S8x2048 .f32 := Host.absf main_arg4
  let main_cst_4 : FVec F S_ .f32 := constant S_ .f32 0x7F800000#32
  let main_v15 : FVec F S8x2048 .f32 := broadcastInDim S8x2048 ![] bcast_S_S8x2048 main_cst_4
  let main_v16 : IVec S8x2048 1 := cmpf .olt main_v14 main_v15
  fn_part1 (F := F) main_v13 main_v16
-- ==== Kernel.lean ====
abbrev S8x2048 : Shape := ⟨2, ![8, 2048]⟩
abbrev S8x2048x2048 : Shape := ⟨3, ![8, 2048, 2048]⟩
abbrev S_ : Shape := ⟨0, ![]⟩
abbrev S1x1 : Shape := ⟨2, ![1, 1]⟩
abbrev S8x256x256 : Shape := ⟨3, ![8, 256, 256]⟩
abbrev S8x256 : Shape := ⟨2, ![8, 256]⟩
abbrev S8x256x1 : Shape := ⟨3, ![8, 256, 1]⟩
abbrev S8x1x256 : Shape := ⟨3, ![8, 1, 256]⟩
abbrev S256x256 : Shape := ⟨2, ![256, 256]⟩
abbrev S1x256x256 : Shape := ⟨3, ![1, 256, 256]⟩
abbrev S1x8x256x256 : Shape := ⟨4, ![1, 8, 256, 256]⟩
abbrev S1 : Shape := ⟨1, ![1]⟩
abbrev S1x1x1x1 : Shape := ⟨4, ![1, 1, 1, 1]⟩

abbrev nBuf : Space → Nat
  | .hbm => 58
  | .vmem => 8
  | .smem => 0
  | _ => 0

abbrev bufTy : (tb : Table) → Fin (tcTables nBuf tb) → BufTy
  | .hbm, ⟨0, _⟩ => ⟨S8x2048, .f32⟩
  | .hbm, ⟨1, _⟩ => ⟨S8x2048, .f32⟩
  | .hbm, ⟨2, _⟩ => ⟨S8x2048, .f32⟩
  | .hbm, ⟨3, _⟩ => ⟨S8x2048x2048, .i1⟩
  | .hbm, ⟨4, _⟩ => ⟨S8x2048, .f32⟩
  | .hbm, ⟨5, _⟩ => ⟨S8x2048, .f32⟩
  | .hbm, ⟨6, _⟩ => ⟨S8x2048, .f32⟩
  | .hbm, ⟨7, _⟩ => ⟨S_, .f32⟩
  | .hbm, ⟨8, _⟩ => ⟨S8x2048, .f32⟩
  | .hbm, ⟨9, _⟩ => ⟨S8x2048, .f32⟩
  | .hbm, ⟨10, _⟩ => ⟨S_, .f32⟩
  | .hbm, ⟨11, _⟩ => ⟨S8x2048, .f32⟩
  | .hbm, ⟨12, _⟩ => ⟨S8x2048, .f32⟩
  | .hbm, ⟨13, _⟩ => ⟨S8x2048, .f32⟩
  | .hbm, ⟨14, _⟩ => ⟨S_, .f32⟩
  | .hbm, ⟨15, _⟩ => ⟨S8x2048, .f32⟩
  | .hbm, ⟨16, _⟩ => ⟨S8x2048, .f32⟩
  | .hbm, ⟨17, _⟩ => ⟨S8x2048, .f32⟩
  | .hbm, ⟨18, _⟩ => ⟨S8x2048, .f32⟩
  | .hbm, ⟨19, _⟩ => ⟨S8x2048, .i1⟩
  | .hbm, ⟨20, _⟩ => ⟨S8x2048, .f32⟩
  | .hbm, ⟨21, _⟩ => ⟨S8x2048, .f32⟩
  | .hbm, ⟨22, _⟩ => ⟨S8x2048, .f32⟩
  | .hbm, ⟨23, _⟩ => ⟨S8x2048, .f32⟩
  | .hbm, ⟨24, _⟩ => ⟨S8x2048, .f32⟩
  | .hbm, ⟨25, _⟩ => ⟨S8x2048, .f32⟩
  | .hbm, ⟨26, _⟩ => ⟨S8x2048, .f32⟩
  | .hbm, ⟨27, _⟩ => ⟨S8x2048, .f32⟩
  | .hbm, ⟨28, _⟩ => ⟨S8x2048, .f32⟩
  | .hbm, ⟨29, _⟩ => ⟨S8x2048, .f32⟩
  | .hbm, ⟨30, _⟩ => ⟨S8x2048, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S8x2048, .f32⟩
  | .hbm, ⟨37, _⟩ => ⟨S8x2048, .f32⟩
  | .hbm, ⟨38, _⟩ => ⟨S_, .f32⟩
  | .hbm, ⟨39, _⟩ => ⟨S8x2048, .f32⟩
  | .hbm, ⟨40, _⟩ => ⟨S8x2048, .f32⟩
  | .hbm, ⟨41, _⟩ => ⟨S_, .f32⟩
  | .hbm, ⟨42, _⟩ => ⟨S8x2048, .f32⟩
  | .hbm, ⟨43, _⟩ => ⟨S8x2048, .f32⟩
  | .hbm, ⟨44, _⟩ => ⟨S8x2048x2048, .i32⟩
  | .hbm, ⟨45, _⟩ => ⟨S1x1, .f32⟩
  | .hbm, ⟨46, _⟩ => ⟨S1x1, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .i1⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S_, .f32⟩
  | .local _ .vmem, ⟨0, _⟩ => ⟨S8x256x256, .i32⟩
  | .local _ .vmem, ⟨1, _⟩ => ⟨S8x256x256, .i32⟩
  | .local _ .vmem, ⟨2, _⟩ => ⟨S8x256, .f32⟩
  | .local _ .vmem, ⟨3, _⟩ => ⟨S8x256, .f32⟩
  | .local _ .vmem, ⟨4, _⟩ => ⟨S8x256, .f32⟩
  | .local _ .vmem, ⟨5, _⟩ => ⟨S8x256, .f32⟩
  | .local _ .vmem, ⟨6, _⟩ => ⟨S1x1, .f32⟩
  | .local _ .vmem, ⟨7, _⟩ => ⟨S1x1, .f32⟩
  | _, _ => ⟨S8x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_call1_cst : Ref sig .tc := ⟨.hbm, 14, rfl⟩
abbrev main_call1_v0 : Ref sig .tc := ⟨.hbm, 15, rfl⟩
abbrev main_call1_v1 : Ref sig .tc := ⟨.hbm, 16, rfl⟩
abbrev main_call1_v2 : Ref sig .tc := ⟨.hbm, 17, rfl⟩
abbrev main_call1_v3 : Ref sig .tc := ⟨.hbm, 18, rfl⟩
abbrev main_call1_v4 : Ref sig .tc := ⟨.hbm, 19, rfl⟩
abbrev main_call1_v5 : Ref sig .tc := ⟨.hbm, 20, rfl⟩
abbrev main_call1_v6 : Ref sig .tc := ⟨.hbm, 21, rfl⟩
abbrev main_call1_v7 : Ref sig .tc := ⟨.hbm, 22, rfl⟩
abbrev main_call1_v8 : Ref sig .tc := ⟨.hbm, 23, rfl⟩
abbrev main_call1_v9 : Ref sig .tc := ⟨.hbm, 24, rfl⟩
abbrev main_call1_v10 : Ref sig .tc := ⟨.hbm, 25, rfl⟩
abbrev main_call1_v11 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_cst_1 : Ref sig .tc := ⟨.hbm, 31, rfl⟩
abbrev main_v11 : Ref sig .tc := ⟨.hbm, 32, rfl⟩
abbrev main_cst_2 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_cst_3 : Ref sig .tc := ⟨.hbm, 38, rfl⟩
abbrev main_v16 : Ref sig .tc := ⟨.hbm, 39, rfl⟩
abbrev main_v17 : Ref sig .tc := ⟨.hbm, 40, rfl⟩
abbrev main_cst_4 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21_0 : Ref sig .tc := ⟨.hbm, 45, rfl⟩
abbrev main_v21_1 : Ref sig .tc := ⟨.hbm, 46, rfl⟩
abbrev main_v22 : Ref sig .tc := ⟨.hbm, 47, rfl⟩
abbrev main_v23 : Ref sig .tc := ⟨.hbm, 48, rfl⟩
abbrev main_cst_5 : Ref sig .tc := ⟨.hbm, 49, rfl⟩
abbrev main_v24 : Ref sig .tc := ⟨.hbm, 50, rfl⟩
abbrev main_v25 : Ref sig .tc := ⟨.hbm, 51, rfl⟩
abbrev main_cst_6 : Ref sig .tc := ⟨.hbm, 52, rfl⟩
abbrev main_v26 : Ref sig .tc := ⟨.hbm, 53, rfl⟩
abbrev main_cst_7 : Ref sig .tc := ⟨.hbm, 54, rfl⟩
abbrev main_v27 : Ref sig .tc := ⟨.hbm, 55, rfl⟩
abbrev main_cst_8 : Ref sig .tc := ⟨.hbm, 56, rfl⟩
abbrev main_v28 : Ref sig .tc := ⟨.hbm, 57, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S8x256x256 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S8x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

class Facts₀ : Prop where
  bcast_S_S8x2048 : S_.BroadcastsInDim S8x2048 (![] : Fin 0 → Fin S8x2048.rank)
  reducesTo_S8x2048_S_d0_1 : S8x2048.ReducesTo [0, 1] S_
  h_S_ : 0 < S_.numel
  natLt_1_32 : 1 < 32
  inb_S1x1_S1x1_0_0 : ∀ a, (![0, 0] : Fin 2 → Nat) a + S1x1.size a ≤ S1x1.size a
  h_S1x1 : 0 < S1x1.numel
  inb_S8x256_S8x256_0_0 : ∀ a, (![0, 0] : Fin 2 → Nat) a + S8x256.size a ≤ S8x256.size a
  h_S8x256 : 0 < S8x256.numel
  shapeCasts_S8x256_S8x256 : S8x256.ShapeCasts S8x256
  shapeCasts_S8x256_S8x256x1 : S8x256.ShapeCasts S8x256x1
  shapeCasts_S8x256_S8x1x256 : S8x256.ShapeCasts S8x1x256
  broadcasts_S8x256x1_S8x256x256 : S8x256x1.Broadcasts S8x256x256
  broadcasts_S8x1x256_S8x256x256 : S8x1x256.Broadcasts S8x256x256
  reduces_S8x256x256_S256x256 : S8x256x256.Reduces [0] S256x256
  inb_S8x256x256_S8x256x256_0_0_0 : ∀ a, (![0, 0, 0] : Fin 3 → Nat) a + S8x256x256.size a ≤ S8x256x256.size a
  h_S8x256x256 : 0 < S8x256x256.numel
  shapeCasts_S256x256_S1x256x256 : S256x256.ShapeCasts S1x256x256
  broadcasts_S1x256x256_S8x256x256 : S1x256x256.Broadcasts S8x256x256
  shapeCasts_S8x256x256_S1x8x256x256 : S8x256x256.ShapeCasts S1x8x256x256
  reduces_S1x8x256x256_S1 : S1x8x256x256.Reduces [1, 2, 3] S1
  shapeCasts_S1_S1x1x1x1 : S1.ShapeCasts S1x1x1x1
  inpos_S1x1x1x1_p0_0_0_0 : ∀ a, (![0, 0, 0, 0] : Fin 4 → Nat) a < S1x1x1x1.size a
  shapeCasts_S1x1_S1x1 : S1x1.ShapeCasts S1x1
  shapeCasts_S1x1_S_ : S1x1.ShapeCasts S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x256x256.size a ≤ S8x2048x2048.size a
  hwx0_0 : ∀ i : grid0.Coords, EltTy.bits .i32 = 32 ∨ (Rect.block (s := S8x2048x2048) S8x256x256.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x256.size a ≤ S8x2048.size a
  hwx0_1 : ∀ i : grid0.Coords, EltTy.bits .f32 = 32 ∨ (Rect.block (s := S8x2048) S8x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x256.size a ≤ S8x2048.size a
  hwx0_2 : ∀ i : grid0.Coords, EltTy.bits .f32 = 32 ∨ (Rect.block (s := S8x2048) S8x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1.size a ≤ S1x1.size a
  hwx0_3 : ∀ i : grid0.Coords, EltTy.bits .f32 = 32 ∨ (Rect.block (s := S1x1) S1x1.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1.size a ≤ S1x1.size a
  hwx0_4 : ∀ i : grid0.Coords, EltTy.bits .f32 = 32 ∨ (Rect.block (s := S1x1) S1x1.size (cc0_transform_4 i) (hinb0_4 i)).WholeWords (EltTy.packing .f32)

variable [Facts₀]

abbrev win0_0 : Pipeline.Window sig grid0 :=
  Pipeline.Window.ofSpec (Memref.whole main_v20) S8x256x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v19) S8x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v19) S8x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v21_0) S1x1.size cc0_transform_3 reads0_3 true true 1 stage0_3 sem0_3
    hrank0 hreads0_3 hinb0_3 nbuf0_3 (Memref.isWhole_whole _) hwx0_3 hstage0_3

abbrev win0_4 : Pipeline.Window sig grid0 :=
  Pipeline.Window.ofSpec (Memref.whole main_v21_1) S1x1.size cc0_transform_4 reads0_4 true true 1 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8x2048 : Shape := ⟨2, ![8, 2048]⟩
abbrev S8x2048x2048 : Shape := ⟨3, ![8, 2048, 2048]⟩
abbrev S_ : Shape := ⟨0, ![]⟩
abbrev S8x1x2048 : Shape := ⟨3, ![8, 1, 2048]⟩
abbrev S8x2048x1 : Shape := ⟨3, ![8, 2048, 1]⟩
abbrev S2048x2048 : Shape := ⟨2, ![2048, 2048]⟩
abbrev S1x2048x2048 : Shape := ⟨3, ![1, 2048, 2048]⟩

abbrev nBuf : Space → Nat
  | .hbm => 85
  | .vmem => 0
  | .smem => 0
  | _ => 0

abbrev bufTy : (tb : Table) → Fin (tcTables nBuf tb) → BufTy
  | .hbm, ⟨0, _⟩ => ⟨S8x2048, .f32⟩
  | .hbm, ⟨1, _⟩ => ⟨S8x2048, .f32⟩
  | .hbm, ⟨2, _⟩ => ⟨S8x2048, .f32⟩
  | .hbm, ⟨3, _⟩ => ⟨S8x2048x2048, .i1⟩
  | .hbm, ⟨4, _⟩ => ⟨S8x2048, .f32⟩
  | .hbm, ⟨5, _⟩ => ⟨S8x2048, .f32⟩
  | .hbm, ⟨6, _⟩ => ⟨S8x2048, .f32⟩
  | .hbm, ⟨7, _⟩ => ⟨S_, .f32⟩
  | .hbm, ⟨8, _⟩ => ⟨S8x2048, .f32⟩
  | .hbm, ⟨9, _⟩ => ⟨S8x2048, .f32⟩
  | .hbm, ⟨10, _⟩ => ⟨S_, .f32⟩
  | .hbm, ⟨11, _⟩ => ⟨S8x2048, .f32⟩
  | .hbm, ⟨12, _⟩ => ⟨S8x2048, .f32⟩
  | .hbm, ⟨13, _⟩ => ⟨S8x2048, .f32⟩
  | .hbm, ⟨14, _⟩ => ⟨S_, .f32⟩
  | .hbm, ⟨15, _⟩ => ⟨S8x2048, .f32⟩
  | .hbm, ⟨16, _⟩ => ⟨S8x2048, .f32⟩
  | .hbm, ⟨17, _⟩ => ⟨S8x2048, .f32⟩
  | .hbm, ⟨18, _⟩ => ⟨S8x2048, .f32⟩
  | .hbm, ⟨19, _⟩ => ⟨S8x2048, .i1⟩
  | .hbm, ⟨20, _⟩ => ⟨S8x2048, .f32⟩
  | .hbm, ⟨21, _⟩ => ⟨S8x2048, .f32⟩
  | .hbm, ⟨22, _⟩ => ⟨S8x2048, .f32⟩
  | .hbm, ⟨23, _⟩ => ⟨S8x2048, .f32⟩
  | .hbm, ⟨24, _⟩ => ⟨S8x2048, .f32⟩
  | .hbm, ⟨25, _⟩ => ⟨S8x2048, .f32⟩
  | .hbm, ⟨26, _⟩ => ⟨S8x2048, .f32⟩
  | .hbm, ⟨27, _⟩ => ⟨S8x2048, .f32⟩
  | .hbm, ⟨28, _⟩ => ⟨S8x2048, .f32⟩
  | .hbm, ⟨29, _⟩ => ⟨S8x2048, .f32⟩
  | .hbm, ⟨30, _⟩ => ⟨S8x2048, .f32⟩
  | .hbm, ⟨31, _⟩ => ⟨S8x2048, .f32⟩
  | .hbm, ⟨32, _⟩ => ⟨S_, .f32⟩
  | .hbm, ⟨33, _⟩ => ⟨S8x2048, .f32⟩
  | .hbm, ⟨34, _⟩ => ⟨S8x2048, .f32⟩
  | .hbm, ⟨35, _⟩ => ⟨S_, .f32⟩
  | .hbm, ⟨36, _⟩ => ⟨S8x2048, .f32⟩
  | .hbm, ⟨37, _⟩ => ⟨S8x2048, .f32⟩
  | .hbm, ⟨38, _⟩ => ⟨S8x1x2048, .f32⟩
  | .hbm, ⟨39, _⟩ => ⟨S8x2048x1, .f32⟩
  | .hbm, ⟨40, _⟩ => ⟨S8x2048x2048, .f32⟩
  | .hbm, ⟨41, _⟩ => ⟨S8x2048x2048, .f32⟩
  | .hbm, ⟨42, _⟩ => ⟨S8x2048x2048, .f32⟩
  | .hbm, ⟨43, _⟩ => ⟨S8x2048x2048, .f32⟩
  | .hbm, ⟨44, _⟩ => ⟨S_, .f32⟩
  | .hbm, ⟨45, _⟩ => ⟨S8x2048x2048, .f32⟩
  | .hbm, ⟨46, _⟩ => ⟨S8x2048x2048, .f32⟩
  | .hbm, ⟨47, _⟩ => ⟨S_, .f32⟩
  | .hbm, ⟨48, _⟩ => ⟨S8x2048x2048, .f32⟩
  | .hbm, ⟨49, _⟩ => ⟨S8x2048x2048, .i1⟩
  | .hbm, ⟨50, _⟩ => ⟨S8x2048x2048, .i32⟩
  | .hbm, ⟨51, _⟩ => ⟨S_, .i32⟩
  | .hbm, ⟨52, _⟩ => ⟨S2048x2048, .i32⟩
  | .hbm, ⟨53, _⟩ => ⟨S1x2048x2048, .i32⟩
  | .hbm, ⟨54, _⟩ => ⟨S_, .i32⟩
  | .hbm, ⟨55, _⟩ => ⟨S1x2048x2048, .i32⟩
  | .hbm, ⟨56, _⟩ => ⟨S1x2048x2048, .i1⟩
  | .hbm, ⟨57, _⟩ => ⟨S8x2048x2048, .i1⟩
  | .hbm, ⟨58, _⟩ => ⟨S8x2048x2048, .i1⟩
  | .hbm, ⟨59, _⟩ => ⟨S8x2048, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S8x2048x2048, .i32⟩
  | .hbm, ⟨66, _⟩ => ⟨S_, .i32⟩
  | .hbm, ⟨67, _⟩ => ⟨S_, .i32⟩
  | .hbm, ⟨68, _⟩ => ⟨S_, .f32⟩
  | .hbm, ⟨69, _⟩ => ⟨S_, .f32⟩
  | .hbm, ⟨70, _⟩ => ⟨S_, .f32⟩
  | .hbm, ⟨71, _⟩ => ⟨S8x2048x2048, .f32⟩
  | .hbm, ⟨72, _⟩ => ⟨S8x2048x2048, .f32⟩
  | .hbm, ⟨73, _⟩ => ⟨S_, .f32⟩
  | .hbm, ⟨74, _⟩ => ⟨S_, .f32⟩
  | .hbm, ⟨75, _⟩ => ⟨S_, .f32⟩
  | .hbm, ⟨76, _⟩ => ⟨S_, .i1⟩
  | .hbm, ⟨77, _⟩ => ⟨S_, .f32⟩
  | .hbm, ⟨78, _⟩ => ⟨S_, .f32⟩
  | .hbm, ⟨79, _⟩ => ⟨S_, .f32⟩
  | .hbm, ⟨80, _⟩ => ⟨S_, .f32⟩
  | .hbm, ⟨81, _⟩ => ⟨S_, .f32⟩
  | .hbm, ⟨82, _⟩ => ⟨S_, .f32⟩
  | .hbm, ⟨83, _⟩ => ⟨S_, .f32⟩
  | .hbm, ⟨84, _⟩ => ⟨S_, .f32⟩
  | _, _ => ⟨S8x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_call1_cst : Ref sig .tc := ⟨.hbm, 14, rfl⟩
abbrev main_call1_v0 : Ref sig .tc := ⟨.hbm, 15, rfl⟩
abbrev main_call1_v1 : Ref sig .tc := ⟨.hbm, 16, rfl⟩
abbrev main_call1_v2 : Ref sig .tc := ⟨.hbm, 17, rfl⟩
abbrev main_call1_v3 : Ref sig .tc := ⟨.hbm, 18, rfl⟩
abbrev main_call1_v4 : Ref sig .tc := ⟨.hbm, 19, rfl⟩
abbrev main_call1_v5 : Ref sig .tc := ⟨.hbm, 20, rfl⟩
abbrev main_call1_v6 : Ref sig .tc := ⟨.hbm, 21, rfl⟩
abbrev main_call1_v7 : Ref sig .tc := ⟨.hbm, 22, rfl⟩
abbrev main_call1_v8 : Ref sig .tc := ⟨.hbm, 23, rfl⟩
abbrev main_call1_v9 : Ref sig .tc := ⟨.hbm, 24, rfl⟩
abbrev main_call1_v10 : Ref sig .tc := ⟨.hbm, 25, rfl⟩
abbrev main_call1_v11 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_cst_1 : Ref sig .tc := ⟨.hbm, 32, rfl⟩
abbrev main_v12 : Ref sig .tc := ⟨.hbm, 33, rfl⟩
abbrev main_v13 : Ref sig .tc := ⟨.hbm, 34, rfl⟩
abbrev main_cst_2 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_cst_3 : Ref sig .tc := ⟨.hbm, 44, rfl⟩
abbrev main_v22 : Ref sig .tc := ⟨.hbm, 45, rfl⟩
abbrev main_v23 : Ref sig .tc := ⟨.hbm, 46, rfl⟩
abbrev main_cst_4 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_c : Ref sig .tc := ⟨.hbm, 51, rfl⟩
abbrev main_v27 : Ref sig .tc := ⟨.hbm, 52, rfl⟩
abbrev main_v28 : Ref sig .tc := ⟨.hbm, 53, rfl⟩
abbrev main_c_5 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_cst_6 : Ref sig .tc := ⟨.hbm, 60, rfl⟩
abbrev main_v34 : Ref sig .tc := ⟨.hbm, 61, rfl⟩
abbrev main_cst_7 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_c_8 : Ref sig .tc := ⟨.hbm, 66, rfl⟩
abbrev main_v38 : Ref sig .tc := ⟨.hbm, 67, rfl⟩
abbrev main_v39 : Ref sig .tc := ⟨.hbm, 68, rfl⟩
abbrev main_cst_9 : Ref sig .tc := ⟨.hbm, 69, rfl⟩
abbrev main_call2_v0 : Ref sig .tc := ⟨.hbm, 70, rfl⟩
abbrev main_call2_v1 : Ref sig .tc := ⟨.hbm, 71, rfl⟩
abbrev main_v40 : Ref sig .tc := ⟨.hbm, 72, rfl⟩
abbrev main_cst_10 : Ref sig .tc := ⟨.hbm, 73, rfl⟩
abbrev main_v41 : Ref sig .tc := ⟨.hbm, 74, rfl⟩
abbrev main_cst_11 : Ref sig .tc := ⟨.hbm, 75, rfl⟩
abbrev main_v42 : Ref sig .tc := ⟨.hbm, 76, rfl⟩
abbrev main_v43 : Ref sig .tc := ⟨.hbm, 77, rfl⟩
abbrev main_cst_12 : Ref sig .tc := ⟨.hbm, 78, rfl⟩
abbrev main_call3_v0 : Ref sig .tc := ⟨.hbm, 79, rfl⟩
abbrev main_v44 : Ref sig .tc := ⟨.hbm, 80, rfl⟩
abbrev main_cst_13 : Ref sig .tc := ⟨.hbm, 81, rfl⟩
abbrev main_v45 : Ref sig .tc := ⟨.hbm, 82, rfl⟩
abbrev main_cst_14 : Ref sig .tc := ⟨.hbm, 83, rfl⟩
abbrev main_v46 : Ref sig .tc := ⟨.hbm, 84, rfl⟩

abbrev nD : Nat := 1
abbrev τ : Topo := Topo.v7x

variable {F : FTy → Type} [FloatOps F]

class Facts₀ : Prop where
  bcast_S_S8x2048 : S_.BroadcastsInDim S8x2048 (![] : Fin 0 → Fin S8x2048.rank)
  bcast_S8x2048_S8x1x2048_0_2 : S8x2048.BroadcastsInDim S8x1x2048 (![0, 2] : Fin 2 → Fin S8x1x2048.rank)
  bcast_S8x2048_S8x2048x1_0_1 : S8x2048.BroadcastsInDim S8x2048x1 (![0, 1] : Fin 2 → Fin S8x2048x1.rank)
  bcast_S8x1x2048_S8x2048x2048_0_1_2 : S8x1x2048.BroadcastsInDim S8x2048x2048 (![0, 1, 2] : Fin 3 → Fin S8x2048x2048.rank)
  bcast_S8x2048x1_S8x2048x2048_0_1_2 : S8x2048x1.BroadcastsInDim S8x2048x2048 (![0, 1, 2] : Fin 3 → Fin S8x2048x2048.rank)
  bcast_S_S8x2048x2048 : S_.BroadcastsInDim S8x2048x2048 (![] : Fin 0 → Fin S8x2048x2048.rank)
  natLt_1_32 : 1 < 32
  reducesTo_S8x2048x2048_S2048x2048_d0 : S8x2048x2048.ReducesTo [0] S2048x2048
  h_S_ : 0 < S_.numel
  bcast_S2048x2048_S1x2048x2048_1_2 : S2048x2048.BroadcastsInDim S1x2048x2048 (![1, 2] : Fin 2 → Fin S1x2048x2048.rank)
  bcast_S_S1x2048x2048 : S_.BroadcastsInDim S1x2048x2048 (![] : Fin 0 → Fin S1x2048x2048.rank)
  bcast_S1x2048x2048_S8x2048x2048_0_1_2 : S1x2048x2048.BroadcastsInDim S8x2048x2048 (![0, 1, 2] : Fin 3 → Fin S8x2048x2048.rank)
  reducesTo_S8x2048_S_d0_1 : S8x2048.ReducesTo [0, 1] S_
  reducesTo_S8x2048x2048_S_d0_1_2 : S8x2048x2048.ReducesTo [0, 1, 2] S_

variable [Facts₀]

class Facts : Prop extends Facts₀ where

variable [Facts]
-- ==== Proof.K.Runs.lean ====
/-
  The kernel body run once per control case. The body branches on "first grid point" (both coordinates zero):
  there it first zeroes the two 1x1 accumulators, and at every point it adds the tile's two partial sums to them.
  Case A is the first point (the accumulators' buffers hold anything), case B every other point (the accumulators
  hold what the point before left). Each run names, per accumulator, the pieces its stores leave.
-/
import proofs.«176159_j6562710028536_1_alg».proof.Proof.Gen.Kernel.Launch
import proofs.«176159_j6562710028536_1_alg».proof.Proof.Gen.Kernel.Skeleton
import proofs.«176159_j6562710028536_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body's one condition, from the grid coordinates: both are zero. -/
abbrev cond0 (i : grid0.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1

/-- It holds at the first point only. -/
theorem hcond0 : ∀ t : Fin cfg0.N, cond0 (grid0.coords t) ↔ t.val = 0 :=
  (by decide +kernel : ∀ t : Fin grid0.N, cond0 (grid0.coords t) ↔ t.val = 0)

set_option maxHeartbeats 2000000 in
/-- Case A (the first point): what the stores leave in the two accumulators, with the run. -/
noncomputable def runA (c : Dev nD) (i : grid0.Coords)
    (arg2 : Memref sig .tc .vmem S8x256x256 .i32) (harg2 : arg2.IsWhole) (arg3 : Memref sig .tc .vmem S8x256 .f32) (harg3 : arg3.IsWhole)
    (arg4 : Memref sig .tc .vmem S8x256 .f32) (harg4 : arg4.IsWhole) (arg5 : Memref sig .tc .vmem S1x1 .f32) (harg5 : arg5.IsWhole)
    (arg6 : Memref sig .tc .vmem S1x1 .f32) (harg6 : arg6.IsWhole) (hc0 : cond0 i)
    (x0 : Vec F S8x256x256 .i32) (x1 : Vec F S8x256 .f32) (x2 : Vec F S8x256 .f32) :
    { L : List (View.Piece (Elt F) S1x1 .f32) × List (View.Piece (Elt F) S1x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d) ∗ (∃ d, owns (c : Thread nD τ) arg6 fullShare d)
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L.1)
                ∗ (∃ f, arg6.view.loc (c : Thread nD τ) ↦[arg6.view.set]{fullShare} arg6.view.writes (Elt F) f L.2)) -∗ K ⟨⟩))
          ⊢ wp frame (wpE (defs₀ (F := F)) Variants.none c none) E (cc0__loss_kernel i arg2 harg2 arg3 harg3 arg4 harg4 arg5 harg5 arg6 harg6) K } := by
  refine ⟨(?_, ?_), fun E K => ?run⟩
  case run =>
    simp only [cc0__loss_kernel_eq_skeleton]; unfold cc0__loss_kernel_skel
    unfold owns
    iintro ⟨⟨%f0, %hf0, H0⟩, ⟨%f1, %hf1, H1⟩, ⟨%f2, %hf2, H2⟩, ⟨%d5, %f5, -, H5⟩, ⟨%d6, %f6, -, H6⟩, Hk⟩
    obtain rfl := harg2.eq_unread hf0; obtain rfl := harg3.eq_unread hf1; obtain rfl := harg4.eq_unread hf2
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H5]
    · iexists _; iexact H5
    iexists _; iexact H6

set_option maxHeartbeats 2000000 in
/-- Case B (every later point): the accumulators are read before they are stored, at their running contents. -/
noncomputable def runB (c : Dev nD) (i : grid0.Coords)
    (arg2 : Memref sig .tc .vmem S8x256x256 .i32) (harg2 : arg2.IsWhole) (arg3 : Memref sig .tc .vmem S8x256 .f32) (harg3 : arg3.IsWhole)
    (arg4 : Memref sig .tc .vmem S8x256 .f32) (harg4 : arg4.IsWhole) (arg5 : Memref sig .tc .vmem S1x1 .f32) (harg5 : arg5.IsWhole)
    (arg6 : Memref sig .tc .vmem S1x1 .f32) (harg6 : arg6.IsWhole) (hc0 : ¬cond0 i)
    (x0 : Vec F S8x256x256 .i32) (x1 : Vec F S8x256 .f32) (x2 : Vec F S8x256 .f32) (xo5 : Vec F S1x1 .f32) (xo6 : Vec F S1x1 .f32) :
    { L : List (View.Piece (Elt F) S1x1 .f32) × List (View.Piece (Elt F) S1x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare xo5 ∗ owns (c : Thread nD τ) arg6 fullShare xo6
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L.1)
                ∗ (∃ f, arg6.view.loc (c : Thread nD τ) ↦[arg6.view.set]{fullShare} arg6.view.writes (Elt F) f L.2)) -∗ K ⟨⟩))
          ⊢ wp frame (wpE (defs₀ (F := F)) Variants.none c none) E (cc0__loss_kernel i arg2 harg2 arg3 harg3 arg4 harg4 arg5 harg5 arg6 harg6) K } := by
  refine ⟨(?_, ?_), fun E K => ?run⟩
  case run =>
    simp only [cc0__loss_kernel_eq_skeleton]; unfold cc0__loss_kernel_skel
    unfold owns
    iintro ⟨⟨%f0, %hf0, H0⟩, ⟨%f1, %hf1, H1⟩, ⟨%f2, %hf2, H2⟩, ⟨%f5, %hf5, H5⟩, ⟨%f6, %hf6, H6⟩, Hk⟩
    obtain rfl := harg2.eq_unread hf0; obtain rfl := harg3.eq_unread hf1; obtain rfl := harg4.eq_unread hf2
    obtain rfl := harg5.eq_unread hf5; obtain rfl := harg6.eq_unread hf6
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H5]
    · iexists _; iexact H5
    iexists _; iexact H6

end Cert.Kernel.Hand

end
-- ==== Proof.K.Data.lean ====
/-
  The proof data of the one pipeline, at a parameter `V` (the buffer contents when the region is entered): each
  window's block at a grid point; what the two 1x1 accumulators hold after each point, by recursion on the point
  (the first point resets them and adds its tile's partial sums, every later point adds to what the point before
  left); and the body obligation at every point.
-/
import proofs.«176159_j6562710028536_1_alg».proof.Proof.K.Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not. -/
theorem before0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before2_of {c : Dev nD} (dat : Dat τ (Elt F) Unit ℕ (UR sig nD τ) ℕ cfg0 c) (hA : dat.A 2 = V c (Pipeline.arrRef spec0 2))
    (hafter : ∀ t, dat.after 2 t = iblk V c 2 t) (t : Fin cfg0.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- The accumulators' staging views (one buffer each). -/
abbrev VO5 : View sig .tc .vmem S1x1 .f32 := (Memref.whole cc0_stg3_0 : Memref sig .tc .vmem S1x1 .f32).view
abbrev VO6 : View sig .tc .vmem S1x1 .f32 := (Memref.whole cc0_stg4_0 : Memref sig .tc .vmem S1x1 .f32).view

/-- Each window's current staging memref at point `t`, as the pipeline passes it, and its wholeness. -/
abbrev ms0 (t : Fin cfg0.N) : Memref sig .tc .vmem S8x256x256 .i32 := win0_0.stage (cfg0.slots t 0)
abbrev hs0 (t : Fin cfg0.N) : (ms0 t).IsWhole := hstage0_0 ((cfg0.slots t 0).cast nbuf0_0)
abbrev ms1 (t : Fin cfg0.N) : Memref sig .tc .vmem S8x256 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S8x256 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x1 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x1 .f32 := win0_4.stage (cfg0.slots t 4)
abbrev hs4 (t : Fin cfg0.N) : (ms4 t).IsWhole := hstage0_4 ((cfg0.slots t 4).cast nbuf0_4)

section Pieces
variable (c : Dev nD) (i : grid0.Coords)
    (arg2 : Memref sig .tc .vmem S8x256x256 .i32) (harg2 : arg2.IsWhole) (arg3 : Memref sig .tc .vmem S8x256 .f32) (harg3 : arg3.IsWhole)
    (arg4 : Memref sig .tc .vmem S8x256 .f32) (harg4 : arg4.IsWhole) (arg5 : Memref sig .tc .vmem S1x1 .f32) (harg5 : arg5.IsWhole)
    (arg6 : Memref sig .tc .vmem S1x1 .f32) (harg6 : arg6.IsWhole)
    (x0 : Vec F S8x256x256 .i32) (x1 : Vec F S8x256 .f32) (x2 : Vec F S8x256 .f32)

/-- The stores of each case cover each 1x1 accumulator. -/
theorem coverA5 (hc0 : cond0 i) (y : S1x1.Idx) :
    ∃ pc ∈ (runA (F := F) c i arg2 harg2 arg3 harg3 arg4 harg4 arg5 harg5 arg6 harg6 hc0 x0 x1 x2).1.1, y ∈ pc.1.set :=
  View.cover_of_tiledL _ S1x1.size (by sl_kernel_rfl) y
theorem coverA6 (hc0 : cond0 i) (y : S1x1.Idx) :
    ∃ pc ∈ (runA (F := F) c i arg2 harg2 arg3 harg3 arg4 harg4 arg5 harg5 arg6 harg6 hc0 x0 x1 x2).1.2, y ∈ pc.1.set :=
  View.cover_of_tiledL _ S1x1.size (by sl_kernel_rfl) y
theorem coverB5 (hc0 : ¬cond0 i) (xo5 xo6 : Vec F S1x1 .f32) (y : S1x1.Idx) :
    ∃ pc ∈ (runB (F := F) c i arg2 harg2 arg3 harg3 arg4 harg4 arg5 harg5 arg6 harg6 hc0 x0 x1 x2 xo5 xo6).1.1, y ∈ pc.1.set :=
  View.cover_of_tiledL _ S1x1.size (by sl_kernel_rfl) y
theorem coverB6 (hc0 : ¬cond0 i) (xo5 xo6 : Vec F S1x1 .f32) (y : S1x1.Idx) :
    ∃ pc ∈ (runB (F := F) c i arg2 harg2 arg3 harg3 arg4 harg4 arg5 harg5 arg6 harg6 hc0 x0 x1 x2 xo5 xo6).1.2, y ∈ pc.1.set :=
  View.cover_of_tiledL _ S1x1.size (by sl_kernel_rfl) y

/-- What each case leaves in each accumulator: its pieces read back. -/
def outA5 (hc0 : cond0 i) : Vec F S1x1 .f32 :=
  VO5.read (Elt F) (VO5.writes (Elt F) VO5.junk (runA (F := F) c i arg2 harg2 arg3 harg3 arg4 harg4 arg5 harg5 arg6 harg6 hc0 x0 x1 x2).1.1)
def outA6 (hc0 : cond0 i) : Vec F S1x1 .f32 :=
  VO6.read (Elt F) (VO6.writes (Elt F) VO6.junk (runA (F := F) c i arg2 harg2 arg3 harg3 arg4 harg4 arg5 harg5 arg6 harg6 hc0 x0 x1 x2).1.2)
def outB5 (hc0 : ¬cond0 i) (xo5 xo6 : Vec F S1x1 .f32) : Vec F S1x1 .f32 :=
  VO5.read (Elt F) (VO5.writes (Elt F) VO5.junk (runB (F := F) c i arg2 harg2 arg3 harg3 arg4 harg4 arg5 harg5 arg6 harg6 hc0 x0 x1 x2 xo5 xo6).1.1)
def outB6 (hc0 : ¬cond0 i) (xo5 xo6 : Vec F S1x1 .f32) : Vec F S1x1 .f32 :=
  VO6.read (Elt F) (VO6.writes (Elt F) VO6.junk (runB (F := F) c i arg2 harg2 arg3 harg3 arg4 harg4 arg5 harg5 arg6 harg6 hc0 x0 x1 x2 xo5 xo6).1.2)

end Pieces

/-- THE ACCUMULATION: what the two accumulators hold after the body at point `n`. -/
def outsAt (c : Dev nD) : (n : ℕ) → n < cfg0.N → Vec F S1x1 .f32 × Vec F S1x1 .f32
  | 0, hn =>
    (outA5 c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩)
        (iblk V c 0 ⟨0, hn⟩) (iblk V c 1 ⟨0, hn⟩) (iblk V c 2 ⟨0, hn⟩) ((hcond0 ⟨0, hn⟩).mpr rfl),
     outA6 c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩)
        (iblk V c 0 ⟨0, hn⟩) (iblk V c 1 ⟨0, hn⟩) (iblk V c 2 ⟨0, hn⟩) ((hcond0 ⟨0, hn⟩).mpr rfl))
  | n + 1, hn =>
    (outB5 c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩)
        (iblk V c 0 ⟨n + 1, hn⟩) (iblk V c 1 ⟨n + 1, hn⟩) (iblk V c 2 ⟨n + 1, hn⟩) (fun h => Nat.succ_ne_zero n ((hcond0 ⟨n + 1, hn⟩).mp h))
        (outsAt c n (Nat.lt_of_succ_lt hn)).1 (outsAt c n (Nat.lt_of_succ_lt hn)).2,
     outB6 c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩)
        (iblk V c 0 ⟨n + 1, hn⟩) (iblk V c 1 ⟨n + 1, hn⟩) (iblk V c 2 ⟨n + 1, hn⟩) (fun h => Nat.succ_ne_zero n ((hcond0 ⟨n + 1, hn⟩).mp h))
        (outsAt c n (Nat.lt_of_succ_lt hn)).1 (outsAt c n (Nat.lt_of_succ_lt hn)).2)

/-- `outsAt` at the first point. -/
theorem outsAt_A (c : Dev nD) (t : Fin cfg0.N) (h0 : t.val = 0) :
    outsAt V c t.val t.isLt =
      (outA5 c (grid0.coords t) (ms0 t) (hs0 t) (ms1 t) (hs1 t) (ms2 t) (hs2 t) (ms3 t) (hs3 t) (ms4 t) (hs4 t) (iblk V c 0 t) (iblk V c 1 t) (iblk V c 2 t) ((hcond0 t).mpr h0),
       outA6 c (grid0.coords t) (ms0 t) (hs0 t) (ms1 t) (hs1 t) (ms2 t) (hs2 t) (ms3 t) (hs3 t) (ms4 t) (hs4 t) (iblk V c 0 t) (iblk V c 1 t) (iblk V c 2 t) ((hcond0 t).mpr h0)) := by
  obtain ⟨n, hn⟩ := t
  cases n with
  | zero => exact rfl
  | succ n => exact absurd h0 (Nat.succ_ne_zero n)

/-- `outsAt` at a later point, over what the point before left. -/
theorem outsAt_B (c : Dev nD) (t : Fin cfg0.N) (h0 : ¬t.val = 0) :
    outsAt V c t.val t.isLt =
      (outB5 c (grid0.coords t) (ms0 t) (hs0 t) (ms1 t) (hs1 t) (ms2 t) (hs2 t) (ms3 t) (hs3 t) (ms4 t) (hs4 t) (iblk V c 0 t) (iblk V c 1 t) (iblk V c 2 t) (fun h => h0 ((hcond0 t).mp h))
        (outsAt V c (t.val - 1) (Nat.lt_of_le_of_lt (Nat.sub_le _ _) t.isLt)).1 (outsAt V c (t.val - 1) (Nat.lt_of_le_of_lt (Nat.sub_le _ _) t.isLt)).2,
       outB6 c (grid0.coords t) (ms0 t) (hs0 t) (ms1 t) (hs1 t) (ms2 t) (hs2 t) (ms3 t) (hs3 t) (ms4 t) (hs4 t) (iblk V c 0 t) (iblk V c 1 t) (iblk V c 2 t) (fun h => h0 ((hcond0 t).mp h))
        (outsAt V c (t.val - 1) (Nat.lt_of_le_of_lt (Nat.sub_le _ _) t.isLt)).1 (outsAt V c (t.val - 1) (Nat.lt_of_le_of_lt (Nat.sub_le _ _) t.isLt)).2) := by
  obtain ⟨n, hn⟩ := t
  cases n with
  | zero => exact absurd rfl h0
  | succ n => exact rfl

/-- The proof data on core `c`: the arrays as the region finds them; after the body each input's buffer at its block,
    the accumulators' at `outsAt`; the one array two windows read is held half by each. -/
def dat0 (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => (outsAt V c t.val t.isLt).1
    | ⟨4, _⟩ => (outsAt V c t.val t.isLt).2
  Φ _ := Pipeline.ΦA spec0 c
  q w := match w with
    | ⟨0, _⟩ => fullShare
    | ⟨1, _⟩ => fullShare.left
    | ⟨2, _⟩ => fullShare.right
    | ⟨3, _⟩ => fullShare
    | ⟨4, _⟩ => fullShare
  owed _ := 0

theorem A_eq (c : Dev nD) (w : Fin cfg0.W) : (dat0 V c).A w = V c (Pipeline.arrRef spec0 w) := by dsimp only [dat0]
theorem after_0 (c : Dev nD) (t : Fin cfg0.N) : (dat0 V c).after 0 t = iblk V c 0 t := by dsimp only [dat0]
theorem after_1 (c : Dev nD) (t : Fin cfg0.N) : (dat0 V c).after 1 t = iblk V c 1 t := by dsimp only [dat0]
theorem after_2 (c : Dev nD) (t : Fin cfg0.N) : (dat0 V c).after 2 t = iblk V c 2 t := by dsimp only [dat0]
theorem after_3 (c : Dev nD) (t : Fin cfg0.N) : (dat0 V c).after 3 t = (outsAt V c t.val t.isLt).1 := by dsimp only [dat0]
theorem after_4 (c : Dev nD) (t : Fin cfg0.N) : (dat0 V c).after 4 t = (outsAt V c t.val t.isLt).2 := by dsimp only [dat0]

theorem before_0 (c : Dev nD) (t : Fin cfg0.N) (d) : (dat0 V c).before 0 t d = iblk V c 0 t :=
  before0_of V (dat0 V c) (A_eq V c 0) (after_0 V c) t d
theorem before_1 (c : Dev nD) (t : Fin cfg0.N) (d) : (dat0 V c).before 1 t d = iblk V c 1 t :=
  before1_of V (dat0 V c) (A_eq V c 1) (after_1 V c) t d
theorem before_2 (c : Dev nD) (t : Fin cfg0.N) (d) : (dat0 V c).before 2 t d = iblk V c 2 t :=
  before2_of V (dat0 V c) (A_eq V c 2) (after_2 V c) t d

/-- At a later point an accumulator's buffer holds what the body left at the point before: it is written back at the
    last point only. -/
theorem before_3_B (c : Dev nD) (t : Fin cfg0.N) (h0 : ¬t.val = 0) (d) :
    (dat0 V c).before 3 t d = (outsAt V c (t.val - 1) (Nat.lt_of_le_of_lt (Nat.sub_le _ _) t.isLt)).1 := by
  have hN : t.val < 64 := lt_of_lt_of_eq t.isLt (show cfg0.N = 64 from N_0)
  rw [Dat.before_out_kept _ 3 rfl t h0 (Bool.eq_false_iff.mpr fun h => by have := (flush0_3 _).mp h; dsimp only at this; omega)
    (fun _ => rfl) (fun _ _ => rfl)]
  dsimp only [dat0]
theorem before_4_B (c : Dev nD) (t : Fin cfg0.N) (h0 : ¬t.val = 0) (d) :
    (dat0 V c).before 4 t d = (outsAt V c (t.val - 1) (Nat.lt_of_le_of_lt (Nat.sub_le _ _) t.isLt)).2 := by
  have hN : t.val < 64 := lt_of_lt_of_eq t.isLt (show cfg0.N = 64 from N_0)
  rw [Dat.before_out_kept _ 4 rfl t h0 (Bool.eq_false_iff.mpr fun h => by have := (flush0_4 _).mp h; dsimp only at this; omega)
    (fun _ => rfl) (fun _ _ => rfl)]
  dsimp only [dat0]

/-- What the body is called with at point `t`, the windows one by one, -/
def bodyPre (c : Dev nD) (t : Fin cfg0.N) : sProp 𝕄 :=
  iprop((dat0 V c).Φ t.castSucc ∗ (dat0 V c).owesAt () t.castSucc
    ∗ (∃ d, owns (c : Thread nD τ) (ms0 t) fullShare ((dat0 V c).before 0 t d))
    ∗ (∃ d, owns (c : Thread nD τ) (ms1 t) fullShare ((dat0 V c).before 1 t d))
    ∗ (∃ d, owns (c : Thread nD τ) (ms2 t) fullShare ((dat0 V c).before 2 t d))
    ∗ (∃ d, owns (c : Thread nD τ) (ms3 t) fullShare ((dat0 V c).before 3 t d))
    ∗ (∃ d, owns (c : Thread nD τ) (ms4 t) fullShare ((dat0 V c).before 4 t d)))

/-- and what it returns. -/
def bodyPost (c : Dev nD) (t : Fin cfg0.N) : sProp 𝕄 :=
  iprop((dat0 V c).Φ t.succ ∗ (dat0 V c).owesAt () t.succ
    ∗ owns (c : Thread nD τ) (ms0 t) fullShare ((dat0 V c).after 0 t)
    ∗ owns (c : Thread nD τ) (ms1 t) fullShare ((dat0 V c).after 1 t)
    ∗ owns (c : Thread nD τ) (ms2 t) fullShare ((dat0 V c).after 2 t)
    ∗ owns (c : Thread nD τ) (ms3 t) fullShare ((dat0 V c).after 3 t)
    ∗ owns (c : Thread nD τ) (ms4 t) fullShare ((dat0 V c).after 4 t))

set_option maxHeartbeats 1600000 in
/-- The body at any point: the inputs' buffers hold their blocks; the first point runs case A, every other case B over
    what the point before left; the invariant and the core's dues pass through unread. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1, before_2]
  rw [show (dat0 V c).Φ t.succ = (dat0 V c).Φ t.castSucc from rfl,
    show (dat0 V c).owesAt () t.succ = (dat0 V c).owesAt () t.castSucc from rfl,
    after_0, after_1, after_2, after_3, after_4]
  by_cases h0 : t.val = 0
  · rw [outsAt_A V c t h0]
    dsimp only
    unfold outA5 outA6
    iintro ⟨HΦ, Ho, ⟨%d0, H0⟩, ⟨%d1, H1⟩, ⟨%d2, H2⟩, ⟨%d3, H3⟩, ⟨%d4, H4⟩⟩
    iapply ((runA c (grid0.coords t) _ _ _ _ _ _ _ _ _ _ ((hcond0 t).mpr h0) (iblk V c 0 t) (iblk V c 1 t) (iblk V c 2 t)).2 Set.univ _)
    isplitl [H0]; · iexact H0
    isplitl [H1]; · iexact H1
    isplitl [H2]; · iexact H2
    isplitl [H3]; · iexists _; iexact H3
    isplitl [H4]; · iexists _; iexact H4
    iintro ⟨H0, H1, H2, ⟨%e3, H3⟩, ⟨%e4, H4⟩⟩
    isplitl [HΦ]; · iexact HΦ
    isplitl [Ho]; · iexact Ho
    isplitl [H0]; · iexact H0
    isplitl [H1]; · iexact H1
    isplitl [H2]; · iexact H2
    isplitl [H3]
    · unfold owns; iexists _; isplitr
      swap; · iexact H3
      ipureintro; exact View.read_writes_of_cover _ _ _ _ _ (coverA5 c _ _ _ _ _ _ _ _ _ _ _ _ _ _ _)
    · unfold owns; iexists _; isplitr
      swap; · iexact H4
      ipureintro; exact View.read_writes_of_cover _ _ _ _ _ (coverA6 c _ _ _ _ _ _ _ _ _ _ _ _ _ _ _)
  · rw [outsAt_B V c t h0]
    dsimp only
    simp only [before_3_B V c t h0, before_4_B V c t h0]
    unfold outB5 outB6
    iintro ⟨HΦ, Ho, ⟨%d0, H0⟩, ⟨%d1, H1⟩, ⟨%d2, H2⟩, ⟨%d3, H3⟩, ⟨%d4, H4⟩⟩
    iapply ((runB c (grid0.coords t) _ _ _ _ _ _ _ _ _ _ (fun h => h0 ((hcond0 t).mp h)) (iblk V c 0 t) (iblk V c 1 t) (iblk V c 2 t) _ _).2 Set.univ _)
    isplitl [H0]; · iexact H0
    isplitl [H1]; · iexact H1
    isplitl [H2]; · iexact H2
    isplitl [H3]; · iexact H3
    isplitl [H4]; · iexact H4
    iintro ⟨H0, H1, H2, ⟨%e3, H3⟩, ⟨%e4, H4⟩⟩
    isplitl [HΦ]; · iexact HΦ
    isplitl [Ho]; · iexact Ho
    isplitl [H0]; · iexact H0
    isplitl [H1]; · iexact H1
    isplitl [H2]; · iexact H2
    isplitl [H3]
    · unfold owns; iexists _; isplitr
      swap; · iexact H3
      ipureintro; exact View.read_writes_of_cover _ _ _ _ _ (coverB5 c _ _ _ _ _ _ _ _ _ _ _ _ _ _ _ _ _)
    · unfold owns; iexists _; isplitr
      swap; · iexact H4
      ipureintro; exact View.read_writes_of_cover _ _ _ _ _ (coverB6 c _ _ _ _ _ _ _ _ _ _ _ _ _ _ _ _ _)

/-- The library's body obligation, at every point. -/
theorem body_obligation (c : Dev nD) : BodyObligation (dat0 (F := F) V c) (defs₀ (F := F)) Variants.none () Set.univ := fun t => by
  rw [bigSep_W0, bigSep_W0]
  exact sound_body V c t

end Cert.Kernel.Hand

end
-- ==== Proof.K.Arrays.lean ====
/-
  The windows' arrays when two windows read ONE array. The pipeline has five windows on four buffers: the mask, the
  sigmoid row array (read by the row window and by the column window), and the two 1x1 results. At the region's
  entry the four buffers, whole at the full share, are dealt to the five windows — the shared array half to each of
  its two windows —, and at its exit the two halves (both still at the entry contents: an input array is never
  written) are joined again.
-/
import proofs.«176159_j6562710028536_1_alg».proof.Proof.K.Data
import Idealize.ShloMosaic.Lib.Pipeline.Regions
import Idealize.ShloMosaic.Lib.Pipeline.FrameSuffix

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.Pipeline (arrRef arrBufs unscopedRest)

variable (V : (c : Dev nD) → (b : Ref sig .tc) → Buf (Elt F) ((c : Thread nD τ).loc b))

/-- The buffers behind the five windows: four. -/
theorem image_arrRef : (Finset.univ.image (arrRef spec0) : Finset (Ref sig .tc)) = {main_v20, main_v19, main_v21_0, main_v21_1} := by decide

/-- The pipeline's arrays at contents `A`, window by window, each at its share. -/
theorem arrays_chain (c : Dev nD) (A : (w : Fin cfg0.W) → Buf (Elt F) ((cfg0.win w).arr.view.loc (c : Thread nD τ))) :
    ((dat0 V c).arrays A : sProp 𝕄)
      = iprop((((c : Thread nD τ).loc main_v20) ↦{fullShare} A 0) ∗ (((c : Thread nD τ).loc main_v19) ↦{fullShare.left} A 1)
          ∗ (((c : Thread nD τ).loc main_v19) ↦{fullShare.right} A 2) ∗ (((c : Thread nD τ).loc main_v21_0) ↦{fullShare} A 3)
          ∗ (((c : Thread nD τ).loc main_v21_1) ↦{fullShare} A 4)) := by
  unfold Dat.arrays
  rw [bigSep_W0, (arr_whole0 0).set_eq_univ, (arr_whole0 1).set_eq_univ, (arr_whole0 3).set_eq_univ, (arr_whole0 4).set_eq_univ]
  rfl

/-- The four buffers at a valuation, one by one. -/
theorem arrBufs_chain (c : Dev nD) (W : (b : Ref sig .tc) → Buf (Elt F) ((c : Thread nD τ).loc b)) :
    (arrBufs (Ix := Unit) (Name := ℕ) (U := UR sig nD τ) (Lvl := ℕ) spec0 c W : sProp 𝕄)
      = iprop((((c : Thread nD τ).loc main_v20) ↦{fullShare} W main_v20) ∗ (((c : Thread nD τ).loc main_v19) ↦{fullShare} W main_v19)
          ∗ (((c : Thread nD τ).loc main_v21_0) ↦{fullShare} W main_v21_0) ∗ (((c : Thread nD τ).loc main_v21_1) ↦{fullShare} W main_v21_1)) := by
  unfold arrBufs
  rw [image_arrRef, bigSep_insert (by decide), bigSep_insert (by decide), bigSep_insert (by decide), bigSep_singleton]
  rfl

/-- ENTRY: the four buffers at the entry contents are the five windows' arrays at the proof data's entry contents. -/
theorem arrays_of_arrBufs (c : Dev nD) :
    (arrBufs (Ix := Unit) (Name := ℕ) (U := UR sig nD τ) (Lvl := ℕ) spec0 c (V c) : sProp 𝕄) ⊢ (dat0 V c).arrays ((dat0 V c).arrAt · 0) := by
  rw [arrBufs_chain c (V c), arrays_chain V c]
  iintro ⟨H0, H1, H3, H4⟩
  ihave H := (pointsTo_share (PosShare.mem_left_op_right fullShare)).1 $$ H1
  icases H with ⟨Hl, Hr⟩
  isplitl [H0]; · iexact H0
  isplitl [Hl]; · iexact Hl
  isplitl [Hr]; · iexact Hr
  isplitl [H3]; · iexact H3
  iexact H4

/-- EXIT: the five windows' arrays at their final contents are the four buffers at any valuation that has the two
    results at their final contents and the two input arrays at their entry contents. -/
theorem arrBufs_of_arrays (c : Dev nD) (W' : (b : Ref sig .tc) → Buf (Elt F) ((c : Thread nD τ).loc b))
    (h0 : W' main_v20 = V c main_v20) (h1 : W' main_v19 = V c main_v19)
    (h3 : W' main_v21_0 = (dat0 V c).arrAt 3 cfg0.N) (h4 : W' main_v21_1 = (dat0 V c).arrAt 4 cfg0.N) :
    ((dat0 V c).arrays ((dat0 V c).arrAt · cfg0.N) : sProp 𝕄) ⊢ arrBufs (Ix := Unit) (Name := ℕ) (U := UR sig nD τ) (Lvl := ℕ) spec0 c W' := by
  rw [arrBufs_chain c W', arrays_chain V c, h0, h1, h3, h4,
    show (dat0 V c).arrAt 0 cfg0.N = V c main_v20 from ((dat0 V c).arrAt_in 0 rfl _).trans (A_eq V c 0),
    show (dat0 V c).arrAt 1 cfg0.N = V c main_v19 from ((dat0 V c).arrAt_in 1 rfl _).trans (A_eq V c 1),
    show (dat0 V c).arrAt 2 cfg0.N = V c main_v19 from ((dat0 V c).arrAt_in 2 rfl _).trans (A_eq V c 2)]
  iintro ⟨H0, Hl, Hr, H3, H4⟩
  isplitl [H0]; · iexact H0
  isplitl [Hl Hr]
  · iapply (pointsTo_share (PosShare.mem_left_op_right fullShare)).2
    isplitl [Hl] <;> iassumption
  isplitl [H3]; · iexact H3
  iexact H4

end Cert.Kernel.Hand

end
-- ==== Proof.K.Frame.lean ====
/-
  The run of @main as a list of segments: four stretches of host operations (the pull term, the sigmoid row array,
  the mask widened to 32-bit words), the one kernel region, three stretches of host operations (the two 1x1 results
  reshaped, the guarded quotient, the two unit factors). Between two segments a core holds every unscoped buffer whole at
  the contents the segments so far leave; the region takes its four arrays out of them and puts them back with the two
  results at what its last grid point wrote. The run's post names the two result buffers' contents and says the five
  argument arrays end as launched.
-/
import proofs.«176159_j6562710028536_1_alg».proof.Proof.K.Arrays
import Idealize.ShloMosaic.Lib.Pipeline.RegionsLoop

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.Pipeline (arrRef arrBufs unscopedRest)

variable (m : (ℓ : Loc nD τ sig) → Buf (Elt F) ℓ) (ρ : Dev nD → PrngReg)

/-! ## The buffers' contents at each segment boundary -/

abbrev W0 : Dev nD → Valuation τ sig (Elt F) := fun c b => (s₀ m ρ).mem ((c : Dev nD), b)
abbrev W1 : Dev nD → Valuation τ sig (Elt F) := fun c => StableHlo.after hostOps0 (W0 m ρ c)
abbrev W2 : Dev nD → Valuation τ sig (Elt F) := fun c => StableHlo.after hostOps0_1 (W1 m ρ c)
abbrev W3 : Dev nD → Valuation τ sig (Elt F) := fun c => StableHlo.after hostOps0_2 (W2 m ρ c)
abbrev W4 : Dev nD → Valuation τ sig (Elt F) := fun c => StableHlo.after hostOps0_3 (W3 m ρ c)
/-- The same read at the TensorCore's references: what the region's proof data take. -/
abbrev V4 : (c : Dev nD) → (b : Ref sig .tc) → Buf (Elt F) ((c : Thread nD τ).loc b) := fun c b => W4 m ρ c b
/-- At the region's exit: the two results at what the pipeline leaves, every other buffer as entered. -/
def W5 (c : Dev nD) : Valuation τ sig (Elt F) :=
  Function.update (Function.update (W4 m ρ c) (Proc.devRef .tc main_v21_0) ((dat0 (V4 m ρ) c).arrAt 3 cfg0.N))
    (Proc.devRef .tc main_v21_1) ((dat0 (V4 m ρ) c).arrAt 4 cfg0.N)
abbrev V5 : (c : Dev nD) → (b : Ref sig .tc) → Buf (Elt F) ((c : Thread nD τ).loc b) := fun c b => W5 m ρ c b
abbrev W6 : Dev nD → Valuation τ sig (Elt F) := fun c => StableHlo.after hostOps1 (W5 m ρ c)
abbrev W7 : Dev nD → Valuation τ sig (Elt F) := fun c => StableHlo.after hostOps1_1 (W6 m ρ c)
abbrev W8 : Dev nD → Valuation τ sig (Elt F) := fun c => StableHlo.after hostOps1_2 (W7 m ρ c)

theorem W5_v4 (c : Dev nD) : W5 m ρ c (Proc.devRef .tc main_v21_1) = (dat0 (V4 m ρ) c).arrAt 4 cfg0.N := by
  unfold W5; exact Function.update_self ..
theorem W5_v3 (c : Dev nD) : W5 m ρ c (Proc.devRef .tc main_v21_0) = (dat0 (V4 m ρ) c).arrAt 3 cfg0.N := by
  unfold W5
  rw [Function.update_of_ne (StableHlo.devRef_ne_of_ne (by decide) : (Proc.devRef .tc main_v21_0 : DevRef τ sig) ≠ Proc.devRef .tc main_v21_1)]
  exact Function.update_self ..
theorem W5_of_ne (c : Dev nD) (b : Ref sig .tc) (h3 : b ≠ main_v21_0) (h4 : b ≠ main_v21_1) :
    W5 m ρ c (Proc.devRef .tc b) = W4 m ρ c (Proc.devRef .tc b) := by
  unfold W5
  rw [Function.update_of_ne (StableHlo.devRef_ne_of_ne h4), Function.update_of_ne (StableHlo.devRef_ne_of_ne h3)]

/-! ## No stretch writes an argument -/

theorem not_written (b : Ref sig .tc) (ops : List (HloOp τ sig (Elt F))) (W : List (Ref sig .tc))
    (hW : ops.Forall fun op => op.writes ⊆ (W.map (Proc.devRef (τ := τ) .tc)).toFinset) (hb : b ∉ W) (V : Valuation τ sig (Elt F)) :
    StableHlo.after ops V (Proc.devRef .tc b) = V (Proc.devRef .tc b) :=
  StableHlo.after_of_writes_sub ops V hW hb

abbrev hostOps0_W : List (Ref sig .tc) := [main_v0, main_v1, main_cst, main_v2, main_v3, main_cst_0, main_v4, main_v5]
abbrev hostOps0_1_W : List (Ref sig .tc) := [main_v6]
abbrev hostOps0_2_W : List (Ref sig .tc) := [main_call1_cst, main_call1_v0, main_call1_v1, main_call1_v2, main_call1_v3, main_call1_v4, main_call1_v5, main_call1_v6, main_call1_v7, main_call1_v8, main_call1_v9, main_call1_v10, main_call1_v11, main_v7]
abbrev hostOps0_3_W : List (Ref sig .tc) := [main_v8, main_v9, main_v10, main_cst_1, main_v11, main_cst_2, main_v12, main_v13, main_v14, main_v15, main_cst_3, main_v16, main_v17, main_cst_4, main_v18, main_v19, main_v20]
abbrev hostOps1_W : List (Ref sig .tc) := [main_v22, main_v23, main_cst_5, main_v24, main_v25, main_cst_6]
abbrev hostOps1_1_W : List (Ref sig .tc) := [main_v26]
abbrev hostOps1_2_W : List (Ref sig .tc) := [main_cst_7, main_v27, main_cst_8, main_v28]

macro "writes_tac" : tactic => `(tactic| (simp only [List.Forall]; (repeat' apply And.intro) <;> (first | exact (by simp only [StableHlo.nullary_writes, StableHlo.unary_writes, StableHlo.binary_writes, StableHlo.ternary_writes, StableHlo.reshape_writes, Finset.singleton_subset_iff, List.mem_toFinset]; exact List.mem_map_of_mem (by decide)) | exact (by show ({_} : Finset _) ⊆ _; simp only [Finset.singleton_subset_iff, List.mem_toFinset]; exact List.mem_map_of_mem (by decide)))))

theorem hostOps0_writes : (hostOps0 : List (HloOp τ sig (Elt F))).Forall fun op => op.writes ⊆ (hostOps0_W.map (Proc.devRef (τ := τ) .tc)).toFinset := by writes_tac
theorem hostOps0_1_writes : (hostOps0_1 : List (HloOp τ sig (Elt F))).Forall fun op => op.writes ⊆ (hostOps0_1_W.map (Proc.devRef (τ := τ) .tc)).toFinset := by writes_tac
theorem hostOps0_2_writes : (hostOps0_2 : List (HloOp τ sig (Elt F))).Forall fun op => op.writes ⊆ (hostOps0_2_W.map (Proc.devRef (τ := τ) .tc)).toFinset := by writes_tac
theorem hostOps0_3_writes : (hostOps0_3 : List (HloOp τ sig (Elt F))).Forall fun op => op.writes ⊆ (hostOps0_3_W.map (Proc.devRef (τ := τ) .tc)).toFinset := by writes_tac
theorem hostOps1_writes : (hostOps1 : List (HloOp τ sig (Elt F))).Forall fun op => op.writes ⊆ (hostOps1_W.map (Proc.devRef (τ := τ) .tc)).toFinset := by writes_tac
theorem hostOps1_1_writes : (hostOps1_1 : List (HloOp τ sig (Elt F))).Forall fun op => op.writes ⊆ (hostOps1_1_W.map (Proc.devRef (τ := τ) .tc)).toFinset := by writes_tac
theorem hostOps1_2_writes : (hostOps1_2 : List (HloOp τ sig (Elt F))).Forall fun op => op.writes ⊆ (hostOps1_2_W.map (Proc.devRef (τ := τ) .tc)).toFinset := by writes_tac

/-- A buffer no stretch writes and the region does not return holds at the end what it held at launch. -/
theorem W8_kept (c : Dev nD) (b : Ref sig .tc) (h0 : b ∉ hostOps0_W) (h1 : b ∉ hostOps0_1_W) (h2 : b ∉ hostOps0_2_W) (h3 : b ∉ hostOps0_3_W)
    (h5a : b ≠ main_v21_0) (h5b : b ≠ main_v21_1) (h6 : b ∉ hostOps1_W) (h7 : b ∉ hostOps1_1_W) (h8 : b ∉ hostOps1_2_W) :
    W8 m ρ c (Proc.devRef .tc b) = m ((c : Thread nD τ).loc b) :=
  calc W8 m ρ c (Proc.devRef .tc b)
    _ = W7 m ρ c (Proc.devRef .tc b) := not_written b _ _ hostOps1_2_writes h8 _
    _ = W6 m ρ c (Proc.devRef .tc b) := not_written b _ _ hostOps1_1_writes h7 _
    _ = W5 m ρ c (Proc.devRef .tc b) := not_written b _ _ hostOps1_writes h6 _
    _ = W4 m ρ c (Proc.devRef .tc b) := W5_of_ne m ρ c b h5a h5b
    _ = W3 m ρ c (Proc.devRef .tc b) := not_written b _ _ hostOps0_3_writes h3 _
    _ = W2 m ρ c (Proc.devRef .tc b) := not_written b _ _ hostOps0_2_writes h2 _
    _ = W1 m ρ c (Proc.devRef .tc b) := not_written b _ _ hostOps0_1_writes h1 _
    _ = W0 m ρ c (Proc.devRef .tc b) := not_written b _ _ hostOps0_writes h0 _
    _ = m ((c : Thread nD τ).loc b) := rfl

/-! ## The proof data family and the thread state -/

abbrev adm : (p : Fin 1) → (pcfgs (F := F) p).Adm := fun p => (cfgs p).toPCfg_adm
def pdats : (p : Fin 1) → (c : Dev nD) → Dat τ (Elt F) Unit ℕ (UR sig nD τ) ℕ (Pipeline.pin (pcfgs (F := F)) adm p) c
  | ⟨0, _⟩ => fun c => dat0 (V4 m ρ) c
abbrev 𝒱₀ : Variants := Variants.none
abbrev L : GSem nD τ sig → Finset Unit := fun _ => ∅
abbrev lv : GSem nD τ sig → Unit → ℕ := fun _ _ => 0
/-- What rides beside the buffers through every segment: the generator register at some state and the core's dues, none. -/
abbrev R (c : Dev nD) : sProp 𝕄 := iprop((∃ r, prngReg c r) ∗ ∃ W, owes (c : Thread nD τ) (0 : CellTallies nD τ sig Unit) W)

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

abbrev Tₙ (c : Dev nD) : sProp 𝕄 := iprop(StableHlo.held (c : Thread nD τ) (Pipeline.ucRefs τ sig) (W8 m ρ c) ∗ ∃ r, prngReg c r)

/-! ## The region's entry and exit over the unscoped buffers -/

/-- ENTRY: every unscoped buffer at the entry contents is the windows' arrays at the proof data's entry contents and
    the unscoped rest. -/
theorem entry_split (c : Dev nD) :
    (StableHlo.held (c : Thread nD τ) (Pipeline.ucRefs τ sig) (W4 m ρ c) : sProp 𝕄)
      ⊢ iprop((dat0 (V4 m ρ) c).arrays ((dat0 (V4 m ρ) c).arrAt · 0)
          ∗ unscopedRest (Ix := Unit) (Name := ℕ) (U := UR sig nD τ) (Lvl := ℕ) spec0 c (V4 m ρ c)) := by
  rw [← Pipeline.unscopedBufs_held (Ix := Unit) (Name := ℕ) (U := UR sig nD τ) (Lvl := ℕ) c (W4 m ρ c),
    Pipeline.unscopedBufs_split₀ cfgs (0 : Fin 1) winFacts₀0.arr_unscoped c]
  exact sep_mono (arrays_of_arrBufs (V4 m ρ) c) .rfl

/-- Off the four arrays the exit contents are the entry contents. -/
theorem rest_eq (c : Dev nD) :
    (unscopedRest (Ix := Unit) (Name := ℕ) (U := UR sig nD τ) (Lvl := ℕ) spec0 c (V4 m ρ c) : sProp 𝕄)
      = unscopedRest (Ix := Unit) (Name := ℕ) (U := UR sig nD τ) (Lvl := ℕ) spec0 c (V5 m ρ c) := by
  unfold unscopedRest
  refine bigSep_congr fun b hb => ?_
  have hb' : b ∉ ({main_v20, main_v19, main_v21_0, main_v21_1} : Finset (Ref sig .tc)) := by
    rw [← image_arrRef]; exact (Finset.mem_sdiff.mp hb).2
  simp only [Finset.mem_insert, Finset.mem_singleton, not_or] at hb'
  exact congrArg (fun x => (((c : Thread nD τ).loc b) ↦{fullShare} x : sProp 𝕄)) (W5_of_ne m ρ c b hb'.2.2.1 hb'.2.2.2).symm

/-- The five windows' arrays at their final contents are the four buffers at the exit contents. -/
theorem arr_exit (c : Dev nD) :
    ((dat0 (V4 m ρ) c).arrays ((dat0 (V4 m ρ) c).arrAt · cfg0.N) : sProp 𝕄)
      ⊢ arrBufs (Ix := Unit) (Name := ℕ) (U := UR sig nD τ) (Lvl := ℕ) spec0 c (V5 m ρ c) :=
  arrBufs_of_arrays (V4 m ρ) c (V5 m ρ c) (W5_of_ne m ρ c main_v20 (by decide) (by decide)) (W5_of_ne m ρ c main_v19 (by decide) (by decide))
    (W5_v3 m ρ c) (W5_v4 m ρ c)

/-- EXIT: the arrays at their final contents and the unscoped rest are every unscoped buffer at the exit contents. -/
theorem exit_join (c : Dev nD) :
    iprop((dat0 (V4 m ρ) c).arrays ((dat0 (V4 m ρ) c).arrAt · cfg0.N)
        ∗ unscopedRest (Ix := Unit) (Name := ℕ) (U := UR sig nD τ) (Lvl := ℕ) spec0 c (V4 m ρ c))
      ⊢ (StableHlo.held (c : Thread nD τ) (Pipeline.ucRefs τ sig) (W5 m ρ c) : sProp 𝕄) := by
  rw [← Pipeline.unscopedBufs_held (Ix := Unit) (Name := ℕ) (U := UR sig nD τ) (Lvl := ℕ) c (W5 m ρ c),
    Pipeline.unscopedBufs_split₀ cfgs (0 : Fin 1) winFacts₀0.arr_unscoped c, rest_eq m ρ c]
  exact sep_mono (arr_exit m ρ c) .rfl

/-! ## The region as a segment -/

set_option backward.isDefEq.respectTransparency.types false in
def reg0 : Pipeline.RegionSeg (pcfgs (F := F)) adm (pdats m ρ) () defs₀ 𝒱₀ L lv 0 where
  win := winFacts₀0
  block_pos := block_pos0
  stage_whole := stage_whole0
  K := PEmpty
  osem k := k.elim
  ho := Pipeline.OwnSemFacts.none _
  hbody c := (body_obligation (V4 m ρ) c).loose
  hwaits := Pipeline.hwaits_of_owed_zero _ _ _ _ L lv 0 fun _ _ => rfl
  pre c := iprop(StableHlo.held (c : Thread nD τ) (Pipeline.ucRefs τ sig) (W4 m ρ c) ∗ R c)
  post c := iprop(StableHlo.held (c : Thread nD τ) (Pipeline.ucRefs τ sig) (W5 m ρ c) ∗ R c)
  X c := iprop(∃ r, prngReg c r)
  Y c := iprop(∃ r, prngReg c r)
  Z c := unscopedRest (Ix := Unit) (Name := ℕ) (U := UR sig nD τ) (Lvl := ℕ) spec0 c (V4 m ρ c)
  hentry c := by
    rw [Pipeline.ownSems0_none]
    iintro ⟨⟨Hub, Hp, HO⟩, -, -⟩
    ihave H := (entry_split m ρ c) $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    iintro ⟨Ha, HO, HY, Hrest⟩
    imodintro
    isplitl [Ha Hrest]
    · iapply (exit_join m ρ c)
      isplitl [Ha]; · iexact Ha
      iexact Hrest
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .host (hseg hostOps0_3 hostOps0_3_sub hostOps0_3_fresh (W3 m ρ)),
    .region (reg0 m ρ),
    .host (hseg hostOps1 hostOps1_sub hostOps1_fresh (W5 m ρ)),
    .host (hseg hostOps1_1 hostOps1_1_sub hostOps1_1_fresh (W6 m ρ)),
    .host (hseg hostOps1_2 hostOps1_2_sub hostOps1_2_fresh (W7 m ρ)) ]

theorem main_run (c : Dev nD) : main (F := F) c = Pipeline.Seg.run (segs m ρ) := (main_chain c).trans (by chain_rfl)

/-- What the run ends with: the two results at the last boundary's contents, the five arguments as launched. -/
def QC : PUnit × MemSt nD τ sig (Elt F) → Prop := fun r => ∀ c : Dev nD,
  r.2.mem ((c.tc : Thread nD τ).loc main_v27) = W8 m ρ c (Proc.devRef .tc main_v27)
  ∧ r.2.mem ((c.tc : Thread nD τ).loc main_v28) = W8 m ρ c (Proc.devRef .tc main_v28)
  ∧ r.2.mem ((c.tc : Thread nD τ).loc main_arg0) = m ((c.tc : Thread nD τ).loc main_arg0)
  ∧ r.2.mem ((c.tc : Thread nD τ).loc main_arg1) = m ((c.tc : Thread nD τ).loc main_arg1)
  ∧ r.2.mem ((c.tc : Thread nD τ).loc main_arg2) = m ((c.tc : Thread nD τ).loc main_arg2)
  ∧ r.2.mem ((c.tc : Thread nD τ).loc main_arg3) = m ((c.tc : Thread nD τ).loc main_arg3)
  ∧ r.2.mem ((c.tc : Thread nD τ).loc main_arg4) = m ((c.tc : Thread nD τ).loc main_arg4)

set_option backward.isDefEq.respectTransparency.types false in
/-- THE RUN: from any memory with zero counters every weakly fair execution of @main terminates, nothing faulting, in
    a state holding the two results at the last boundary's contents and the arguments as launched. -/
theorem run_main : θ_run defs (onTc (τ := τ) (main (F := F))) ⟨m, fun _ => 0, ρ⟩ (QC m ρ) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl,
      fun c => by
        show iprop(StableHlo.held (c : Thread nD τ) (Pipeline.ucRefs τ sig) (W8 m ρ c) ∗ R c)
          ⊢ iprop(Tₙ m ρ c ∗ ∃ W, owes (c : Thread nD τ) (0 : CellTallies nD τ sig Unit) W)
        iintro ⟨Hh, ⟨Hp, HO⟩⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v27 (by decide)), h c _ (mem_uc main_v28 (by decide)),
       (h c _ (mem_uc main_arg0 (by decide))).trans (W8_kept m ρ c main_arg0 (by decide) (by decide) (by decide) (by decide) (by decide) (by decide) (by decide) (by decide) (by decide)),
       (h c _ (mem_uc main_arg1 (by decide))).trans (W8_kept m ρ c main_arg1 (by decide) (by decide) (by decide) (by decide) (by decide) (by decide) (by decide) (by decide) (by decide)),
       (h c _ (mem_uc main_arg2 (by decide))).trans (W8_kept m ρ c main_arg2 (by decide) (by decide) (by decide) (by decide) (by decide) (by decide) (by decide) (by decide) (by decide)),
       (h c _ (mem_uc main_arg3 (by decide))).trans (W8_kept m ρ c main_arg3 (by decide) (by decide) (by decide) (by decide) (by decide) (by decide) (by decide) (by decide) (by decide)),
       (h c _ (mem_uc main_arg4 (by decide))).trans (W8_kept m ρ c main_arg4 (by decide) (by decide) (by decide) (by decide) (by decide) (by decide) (by decide) (by decide) (by decide))⟩)

end Cert.Kernel.Hand

end
-- ==== Proof.KI.Runs.lean ====
/-
  The kernel body run once per control case. The body branches on "first grid point" (both coordinates zero):
  there it first zeroes the two 1x1 accumulators, and at every point it adds the tile's two partial sums to them.
  Case A is the first point (the accumulators' buffers hold anything), case B every other point (the accumulators
  hold what the point before left). Each run names, per accumulator, the pieces its stores leave.
-/
import proofs.«176159_j6562710028536_1_alg».proof.Proof.Gen.KernelIdeal.Launch
import proofs.«176159_j6562710028536_1_alg».proof.Proof.Gen.KernelIdeal.Skeleton
import proofs.«176159_j6562710028536_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body's one condition, from the grid coordinates: both are zero. -/
abbrev cond0 (i : grid0.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1

/-- It holds at the first point only. -/
theorem hcond0 : ∀ t : Fin cfg0.N, cond0 (grid0.coords t) ↔ t.val = 0 :=
  (by decide +kernel : ∀ t : Fin grid0.N, cond0 (grid0.coords t) ↔ t.val = 0)

set_option maxHeartbeats 2000000 in
/-- Case A (the first point): what the stores leave in the two accumulators, with the run. -/
noncomputable def runA (c : Dev nD) (i : grid0.Coords)
    (arg2 : Memref sig .tc .vmem S8x256x256 .i32) (harg2 : arg2.IsWhole) (arg3 : Memref sig .tc .vmem S8x256 .f32) (harg3 : arg3.IsWhole)
    (arg4 : Memref sig .tc .vmem S8x256 .f32) (harg4 : arg4.IsWhole) (arg5 : Memref sig .tc .vmem S1x1 .f32) (harg5 : arg5.IsWhole)
    (arg6 : Memref sig .tc .vmem S1x1 .f32) (harg6 : arg6.IsWhole) (hc0 : cond0 i)
    (x0 : Vec F S8x256x256 .i32) (x1 : Vec F S8x256 .f32) (x2 : Vec F S8x256 .f32) :
    { L : List (View.Piece (Elt F) S1x1 .f32) × List (View.Piece (Elt F) S1x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d) ∗ (∃ d, owns (c : Thread nD τ) arg6 fullShare d)
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L.1)
                ∗ (∃ f, arg6.view.loc (c : Thread nD τ) ↦[arg6.view.set]{fullShare} arg6.view.writes (Elt F) f L.2)) -∗ K ⟨⟩))
          ⊢ wp frame (wpE (defs₀ (F := F)) Variants.none c none) E (cc0__loss_kernel i arg2 harg2 arg3 harg3 arg4 harg4 arg5 harg5 arg6 harg6) K } := by
  refine ⟨(?_, ?_), fun E K => ?run⟩
  case run =>
    simp only [cc0__loss_kernel_eq_skeleton]; unfold cc0__loss_kernel_skel
    unfold owns
    iintro ⟨⟨%f0, %hf0, H0⟩, ⟨%f1, %hf1, H1⟩, ⟨%f2, %hf2, H2⟩, ⟨%d5, %f5, -, H5⟩, ⟨%d6, %f6, -, H6⟩, Hk⟩
    obtain rfl := harg2.eq_unread hf0; obtain rfl := harg3.eq_unread hf1; obtain rfl := harg4.eq_unread hf2
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H5]
    · iexists _; iexact H5
    iexists _; iexact H6

set_option maxHeartbeats 2000000 in
/-- Case B (every later point): the accumulators are read before they are stored, at their running contents. -/
noncomputable def runB (c : Dev nD) (i : grid0.Coords)
    (arg2 : Memref sig .tc .vmem S8x256x256 .i32) (harg2 : arg2.IsWhole) (arg3 : Memref sig .tc .vmem S8x256 .f32) (harg3 : arg3.IsWhole)
    (arg4 : Memref sig .tc .vmem S8x256 .f32) (harg4 : arg4.IsWhole) (arg5 : Memref sig .tc .vmem S1x1 .f32) (harg5 : arg5.IsWhole)
    (arg6 : Memref sig .tc .vmem S1x1 .f32) (harg6 : arg6.IsWhole) (hc0 : ¬cond0 i)
    (x0 : Vec F S8x256x256 .i32) (x1 : Vec F S8x256 .f32) (x2 : Vec F S8x256 .f32) (xo5 : Vec F S1x1 .f32) (xo6 : Vec F S1x1 .f32) :
    { L : List (View.Piece (Elt F) S1x1 .f32) × List (View.Piece (Elt F) S1x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare xo5 ∗ owns (c : Thread nD τ) arg6 fullShare xo6
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L.1)
                ∗ (∃ f, arg6.view.loc (c : Thread nD τ) ↦[arg6.view.set]{fullShare} arg6.view.writes (Elt F) f L.2)) -∗ K ⟨⟩))
          ⊢ wp frame (wpE (defs₀ (F := F)) Variants.none c none) E (cc0__loss_kernel i arg2 harg2 arg3 harg3 arg4 harg4 arg5 harg5 arg6 harg6) K } := by
  refine ⟨(?_, ?_), fun E K => ?run⟩
  case run =>
    simp only [cc0__loss_kernel_eq_skeleton]; unfold cc0__loss_kernel_skel
    unfold owns
    iintro ⟨⟨%f0, %hf0, H0⟩, ⟨%f1, %hf1, H1⟩, ⟨%f2, %hf2, H2⟩, ⟨%f5, %hf5, H5⟩, ⟨%f6, %hf6, H6⟩, Hk⟩
    obtain rfl := harg2.eq_unread hf0; obtain rfl := harg3.eq_unread hf1; obtain rfl := harg4.eq_unread hf2
    obtain rfl := harg5.eq_unread hf5; obtain rfl := harg6.eq_unread hf6
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H5]
    · iexists _; iexact H5
    iexists _; iexact H6

end Cert.KernelIdeal.Hand

end
-- ==== Proof.KI.Data.lean ====
/-
  The proof data of the one pipeline, at a parameter `V` (the buffer contents when the region is entered): each
  window's block at a grid point; what the two 1x1 accumulators hold after each point, by recursion on the point
  (the first point resets them and adds its tile's partial sums, every later point adds to what the point before
  left); and the body obligation at every point.
-/
import proofs.«176159_j6562710028536_1_alg».proof.Proof.KI.Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not. -/
theorem before0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before2_of {c : Dev nD} (dat : Dat τ (Elt F) Unit ℕ (UR sig nD τ) ℕ cfg0 c) (hA : dat.A 2 = V c (Pipeline.arrRef spec0 2))
    (hafter : ∀ t, dat.after 2 t = iblk V c 2 t) (t : Fin cfg0.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- The accumulators' staging views (one buffer each). -/
abbrev VO5 : View sig .tc .vmem S1x1 .f32 := (Memref.whole cc0_stg3_0 : Memref sig .tc .vmem S1x1 .f32).view
abbrev VO6 : View sig .tc .vmem S1x1 .f32 := (Memref.whole cc0_stg4_0 : Memref sig .tc .vmem S1x1 .f32).view

/-- Each window's current staging memref at point `t`, as the pipeline passes it, and its wholeness. -/
abbrev ms0 (t : Fin cfg0.N) : Memref sig .tc .vmem S8x256x256 .i32 := win0_0.stage (cfg0.slots t 0)
abbrev hs0 (t : Fin cfg0.N) : (ms0 t).IsWhole := hstage0_0 ((cfg0.slots t 0).cast nbuf0_0)
abbrev ms1 (t : Fin cfg0.N) : Memref sig .tc .vmem S8x256 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S8x256 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x1 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x1 .f32 := win0_4.stage (cfg0.slots t 4)
abbrev hs4 (t : Fin cfg0.N) : (ms4 t).IsWhole := hstage0_4 ((cfg0.slots t 4).cast nbuf0_4)

section Pieces
variable (c : Dev nD) (i : grid0.Coords)
    (arg2 : Memref sig .tc .vmem S8x256x256 .i32) (harg2 : arg2.IsWhole) (arg3 : Memref sig .tc .vmem S8x256 .f32) (harg3 : arg3.IsWhole)
    (arg4 : Memref sig .tc .vmem S8x256 .f32) (harg4 : arg4.IsWhole) (arg5 : Memref sig .tc .vmem S1x1 .f32) (harg5 : arg5.IsWhole)
    (arg6 : Memref sig .tc .vmem S1x1 .f32) (harg6 : arg6.IsWhole)
    (x0 : Vec F S8x256x256 .i32) (x1 : Vec F S8x256 .f32) (x2 : Vec F S8x256 .f32)

/-- The stores of each case cover each 1x1 accumulator. -/
theorem coverA5 (hc0 : cond0 i) (y : S1x1.Idx) :
    ∃ pc ∈ (runA (F := F) c i arg2 harg2 arg3 harg3 arg4 harg4 arg5 harg5 arg6 harg6 hc0 x0 x1 x2).1.1, y ∈ pc.1.set :=
  View.cover_of_tiledL _ S1x1.size (by sl_kernel_rfl) y
theorem coverA6 (hc0 : cond0 i) (y : S1x1.Idx) :
    ∃ pc ∈ (runA (F := F) c i arg2 harg2 arg3 harg3 arg4 harg4 arg5 harg5 arg6 harg6 hc0 x0 x1 x2).1.2, y ∈ pc.1.set :=
  View.cover_of_tiledL _ S1x1.size (by sl_kernel_rfl) y
theorem coverB5 (hc0 : ¬cond0 i) (xo5 xo6 : Vec F S1x1 .f32) (y : S1x1.Idx) :
    ∃ pc ∈ (runB (F := F) c i arg2 harg2 arg3 harg3 arg4 harg4 arg5 harg5 arg6 harg6 hc0 x0 x1 x2 xo5 xo6).1.1, y ∈ pc.1.set :=
  View.cover_of_tiledL _ S1x1.size (by sl_kernel_rfl) y
theorem coverB6 (hc0 : ¬cond0 i) (xo5 xo6 : Vec F S1x1 .f32) (y : S1x1.Idx) :
    ∃ pc ∈ (runB (F := F) c i arg2 harg2 arg3 harg3 arg4 harg4 arg5 harg5 arg6 harg6 hc0 x0 x1 x2 xo5 xo6).1.2, y ∈ pc.1.set :=
  View.cover_of_tiledL _ S1x1.size (by sl_kernel_rfl) y

/-- What each case leaves in each accumulator: its pieces read back. -/
def outA5 (hc0 : cond0 i) : Vec F S1x1 .f32 :=
  VO5.read (Elt F) (VO5.writes (Elt F) VO5.junk (runA (F := F) c i arg2 harg2 arg3 harg3 arg4 harg4 arg5 harg5 arg6 harg6 hc0 x0 x1 x2).1.1)
def outA6 (hc0 : cond0 i) : Vec F S1x1 .f32 :=
  VO6.read (Elt F) (VO6.writes (Elt F) VO6.junk (runA (F := F) c i arg2 harg2 arg3 harg3 arg4 harg4 arg5 harg5 arg6 harg6 hc0 x0 x1 x2).1.2)
def outB5 (hc0 : ¬cond0 i) (xo5 xo6 : Vec F S1x1 .f32) : Vec F S1x1 .f32 :=
  VO5.read (Elt F) (VO5.writes (Elt F) VO5.junk (runB (F := F) c i arg2 harg2 arg3 harg3 arg4 harg4 arg5 harg5 arg6 harg6 hc0 x0 x1 x2 xo5 xo6).1.1)
def outB6 (hc0 : ¬cond0 i) (xo5 xo6 : Vec F S1x1 .f32) : Vec F S1x1 .f32 :=
  VO6.read (Elt F) (VO6.writes (Elt F) VO6.junk (runB (F := F) c i arg2 harg2 arg3 harg3 arg4 harg4 arg5 harg5 arg6 harg6 hc0 x0 x1 x2 xo5 xo6).1.2)

end Pieces

/-- THE ACCUMULATION: what the two accumulators hold after the body at point `n`. -/
def outsAt (c : Dev nD) : (n : ℕ) → n < cfg0.N → Vec F S1x1 .f32 × Vec F S1x1 .f32
  | 0, hn =>
    (outA5 c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩)
        (iblk V c 0 ⟨0, hn⟩) (iblk V c 1 ⟨0, hn⟩) (iblk V c 2 ⟨0, hn⟩) ((hcond0 ⟨0, hn⟩).mpr rfl),
     outA6 c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩)
        (iblk V c 0 ⟨0, hn⟩) (iblk V c 1 ⟨0, hn⟩) (iblk V c 2 ⟨0, hn⟩) ((hcond0 ⟨0, hn⟩).mpr rfl))
  | n + 1, hn =>
    (outB5 c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩)
        (iblk V c 0 ⟨n + 1, hn⟩) (iblk V c 1 ⟨n + 1, hn⟩) (iblk V c 2 ⟨n + 1, hn⟩) (fun h => Nat.succ_ne_zero n ((hcond0 ⟨n + 1, hn⟩).mp h))
        (outsAt c n (Nat.lt_of_succ_lt hn)).1 (outsAt c n (Nat.lt_of_succ_lt hn)).2,
     outB6 c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩)
        (iblk V c 0 ⟨n + 1, hn⟩) (iblk V c 1 ⟨n + 1, hn⟩) (iblk V c 2 ⟨n + 1, hn⟩) (fun h => Nat.succ_ne_zero n ((hcond0 ⟨n + 1, hn⟩).mp h))
        (outsAt c n (Nat.lt_of_succ_lt hn)).1 (outsAt c n (Nat.lt_of_succ_lt hn)).2)

/-- `outsAt` at the first point. -/
theorem outsAt_A (c : Dev nD) (t : Fin cfg0.N) (h0 : t.val = 0) :
    outsAt V c t.val t.isLt =
      (outA5 c (grid0.coords t) (ms0 t) (hs0 t) (ms1 t) (hs1 t) (ms2 t) (hs2 t) (ms3 t) (hs3 t) (ms4 t) (hs4 t) (iblk V c 0 t) (iblk V c 1 t) (iblk V c 2 t) ((hcond0 t).mpr h0),
       outA6 c (grid0.coords t) (ms0 t) (hs0 t) (ms1 t) (hs1 t) (ms2 t) (hs2 t) (ms3 t) (hs3 t) (ms4 t) (hs4 t) (iblk V c 0 t) (iblk V c 1 t) (iblk V c 2 t) ((hcond0 t).mpr h0)) := by
  obtain ⟨n, hn⟩ := t
  cases n with
  | zero => exact rfl
  | succ n => exact absurd h0 (Nat.succ_ne_zero n)

/-- `outsAt` at a later point, over what the point before left. -/
theorem outsAt_B (c : Dev nD) (t : Fin cfg0.N) (h0 : ¬t.val = 0) :
    outsAt V c t.val t.isLt =
      (outB5 c (grid0.coords t) (ms0 t) (hs0 t) (ms1 t) (hs1 t) (ms2 t) (hs2 t) (ms3 t) (hs3 t) (ms4 t) (hs4 t) (iblk V c 0 t) (iblk V c 1 t) (iblk V c 2 t) (fun h => h0 ((hcond0 t).mp h))
        (outsAt V c (t.val - 1) (Nat.lt_of_le_of_lt (Nat.sub_le _ _) t.isLt)).1 (outsAt V c (t.val - 1) (Nat.lt_of_le_of_lt (Nat.sub_le _ _) t.isLt)).2,
       outB6 c (grid0.coords t) (ms0 t) (hs0 t) (ms1 t) (hs1 t) (ms2 t) (hs2 t) (ms3 t) (hs3 t) (ms4 t) (hs4 t) (iblk V c 0 t) (iblk V c 1 t) (iblk V c 2 t) (fun h => h0 ((hcond0 t).mp h))
        (outsAt V c (t.val - 1) (Nat.lt_of_le_of_lt (Nat.sub_le _ _) t.isLt)).1 (outsAt V c (t.val - 1) (Nat.lt_of_le_of_lt (Nat.sub_le _ _) t.isLt)).2) := by
  obtain ⟨n, hn⟩ := t
  cases n with
  | zero => exact absurd rfl h0
  | succ n => exact rfl

/-- The proof data on core `c`: the arrays as the region finds them; after the body each input's buffer at its block,
    the accumulators' at `outsAt`; the one array two windows read is held half by each. -/
def dat0 (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => (outsAt V c t.val t.isLt).1
    | ⟨4, _⟩ => (outsAt V c t.val t.isLt).2
  Φ _ := Pipeline.ΦA spec0 c
  q w := match w with
    | ⟨0, _⟩ => fullShare
    | ⟨1, _⟩ => fullShare.left
    | ⟨2, _⟩ => fullShare.right
    | ⟨3, _⟩ => fullShare
    | ⟨4, _⟩ => fullShare
  owed _ := 0

theorem A_eq (c : Dev nD) (w : Fin cfg0.W) : (dat0 V c).A w = V c (Pipeline.arrRef spec0 w) := by dsimp only [dat0]
theorem after_0 (c : Dev nD) (t : Fin cfg0.N) : (dat0 V c).after 0 t = iblk V c 0 t := by dsimp only [dat0]
theorem after_1 (c : Dev nD) (t : Fin cfg0.N) : (dat0 V c).after 1 t = iblk V c 1 t := by dsimp only [dat0]
theorem after_2 (c : Dev nD) (t : Fin cfg0.N) : (dat0 V c).after 2 t = iblk V c 2 t := by dsimp only [dat0]
theorem after_3 (c : Dev nD) (t : Fin cfg0.N) : (dat0 V c).after 3 t = (outsAt V c t.val t.isLt).1 := by dsimp only [dat0]
theorem after_4 (c : Dev nD) (t : Fin cfg0.N) : (dat0 V c).after 4 t = (outsAt V c t.val t.isLt).2 := by dsimp only [dat0]

theorem before_0 (c : Dev nD) (t : Fin cfg0.N) (d) : (dat0 V c).before 0 t d = iblk V c 0 t :=
  before0_of V (dat0 V c) (A_eq V c 0) (after_0 V c) t d
theorem before_1 (c : Dev nD) (t : Fin cfg0.N) (d) : (dat0 V c).before 1 t d = iblk V c 1 t :=
  before1_of V (dat0 V c) (A_eq V c 1) (after_1 V c) t d
theorem before_2 (c : Dev nD) (t : Fin cfg0.N) (d) : (dat0 V c).before 2 t d = iblk V c 2 t :=
  before2_of V (dat0 V c) (A_eq V c 2) (after_2 V c) t d

/-- At a later point an accumulator's buffer holds what the body left at the point before: it is written back at the
    last point only. -/
theorem before_3_B (c : Dev nD) (t : Fin cfg0.N) (h0 : ¬t.val = 0) (d) :
    (dat0 V c).before 3 t d = (outsAt V c (t.val - 1) (Nat.lt_of_le_of_lt (Nat.sub_le _ _) t.isLt)).1 := by
  have hN : t.val < 64 := lt_of_lt_of_eq t.isLt (show cfg0.N = 64 from N_0)
  rw [Dat.before_out_kept _ 3 rfl t h0 (Bool.eq_false_iff.mpr fun h => by have := (flush0_3 _).mp h; dsimp only at this; omega)
    (fun _ => rfl) (fun _ _ => rfl)]
  dsimp only [dat0]
theorem before_4_B (c : Dev nD) (t : Fin cfg0.N) (h0 : ¬t.val = 0) (d) :
    (dat0 V c).before 4 t d = (outsAt V c (t.val - 1) (Nat.lt_of_le_of_lt (Nat.sub_le _ _) t.isLt)).2 := by
  have hN : t.val < 64 := lt_of_lt_of_eq t.isLt (show cfg0.N = 64 from N_0)
  rw [Dat.before_out_kept _ 4 rfl t h0 (Bool.eq_false_iff.mpr fun h => by have := (flush0_4 _).mp h; dsimp only at this; omega)
    (fun _ => rfl) (fun _ _ => rfl)]
  dsimp only [dat0]

/-- What the body is called with at point `t`, the windows one by one, -/
def bodyPre (c : Dev nD) (t : Fin cfg0.N) : sProp 𝕄 :=
  iprop((dat0 V c).Φ t.castSucc ∗ (dat0 V c).owesAt () t.castSucc
    ∗ (∃ d, owns (c : Thread nD τ) (ms0 t) fullShare ((dat0 V c).before 0 t d))
    ∗ (∃ d, owns (c : Thread nD τ) (ms1 t) fullShare ((dat0 V c).before 1 t d))
    ∗ (∃ d, owns (c : Thread nD τ) (ms2 t) fullShare ((dat0 V c).before 2 t d))
    ∗ (∃ d, owns (c : Thread nD τ) (ms3 t) fullShare ((dat0 V c).before 3 t d))
    ∗ (∃ d, owns (c : Thread nD τ) (ms4 t) fullShare ((dat0 V c).before 4 t d)))

/-- and what it returns. -/
def bodyPost (c : Dev nD) (t : Fin cfg0.N) : sProp 𝕄 :=
  iprop((dat0 V c).Φ t.succ ∗ (dat0 V c).owesAt () t.succ
    ∗ owns (c : Thread nD τ) (ms0 t) fullShare ((dat0 V c).after 0 t)
    ∗ owns (c : Thread nD τ) (ms1 t) fullShare ((dat0 V c).after 1 t)
    ∗ owns (c : Thread nD τ) (ms2 t) fullShare ((dat0 V c).after 2 t)
    ∗ owns (c : Thread nD τ) (ms3 t) fullShare ((dat0 V c).after 3 t)
    ∗ owns (c : Thread nD τ) (ms4 t) fullShare ((dat0 V c).after 4 t))

set_option maxHeartbeats 1600000 in
/-- The body at any point: the inputs' buffers hold their blocks; the first point runs case A, every other case B over
    what the point before left; the invariant and the core's dues pass through unread. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1, before_2]
  rw [show (dat0 V c).Φ t.succ = (dat0 V c).Φ t.castSucc from rfl,
    show (dat0 V c).owesAt () t.succ = (dat0 V c).owesAt () t.castSucc from rfl,
    after_0, after_1, after_2, after_3, after_4]
  by_cases h0 : t.val = 0
  · rw [outsAt_A V c t h0]
    dsimp only
    unfold outA5 outA6
    iintro ⟨HΦ, Ho, ⟨%d0, H0⟩, ⟨%d1, H1⟩, ⟨%d2, H2⟩, ⟨%d3, H3⟩, ⟨%d4, H4⟩⟩
    iapply ((runA c (grid0.coords t) _ _ _ _ _ _ _ _ _ _ ((hcond0 t).mpr h0) (iblk V c 0 t) (iblk V c 1 t) (iblk V c 2 t)).2 Set.univ _)
    isplitl [H0]; · iexact H0
    isplitl [H1]; · iexact H1
    isplitl [H2]; · iexact H2
    isplitl [H3]; · iexists _; iexact H3
    isplitl [H4]; · iexists _; iexact H4
    iintro ⟨H0, H1, H2, ⟨%e3, H3⟩, ⟨%e4, H4⟩⟩
    isplitl [HΦ]; · iexact HΦ
    isplitl [Ho]; · iexact Ho
    isplitl [H0]; · iexact H0
    isplitl [H1]; · iexact H1
    isplitl [H2]; · iexact H2
    isplitl [H3]
    · unfold owns; iexists _; isplitr
      swap; · iexact H3
      ipureintro; exact View.read_writes_of_cover _ _ _ _ _ (coverA5 c _ _ _ _ _ _ _ _ _ _ _ _ _ _ _)
    · unfold owns; iexists _; isplitr
      swap; · iexact H4
      ipureintro; exact View.read_writes_of_cover _ _ _ _ _ (coverA6 c _ _ _ _ _ _ _ _ _ _ _ _ _ _ _)
  · rw [outsAt_B V c t h0]
    dsimp only
    simp only [before_3_B V c t h0, before_4_B V c t h0]
    unfold outB5 outB6
    iintro ⟨HΦ, Ho, ⟨%d0, H0⟩, ⟨%d1, H1⟩, ⟨%d2, H2⟩, ⟨%d3, H3⟩, ⟨%d4, H4⟩⟩
    iapply ((runB c (grid0.coords t) _ _ _ _ _ _ _ _ _ _ (fun h => h0 ((hcond0 t).mp h)) (iblk V c 0 t) (iblk V c 1 t) (iblk V c 2 t) _ _).2 Set.univ _)
    isplitl [H0]; · iexact H0
    isplitl [H1]; · iexact H1
    isplitl [H2]; · iexact H2
    isplitl [H3]; · iexact H3
    isplitl [H4]; · iexact H4
    iintro ⟨H0, H1, H2, ⟨%e3, H3⟩, ⟨%e4, H4⟩⟩
    isplitl [HΦ]; · iexact HΦ
    isplitl [Ho]; · iexact Ho
    isplitl [H0]; · iexact H0
    isplitl [H1]; · iexact H1
    isplitl [H2]; · iexact H2
    isplitl [H3]
    · unfold owns; iexists _; isplitr
      swap; · iexact H3
      ipureintro; exact View.read_writes_of_cover _ _ _ _ _ (coverB5 c _ _ _ _ _ _ _ _ _ _ _ _ _ _ _ _ _)
    · unfold owns; iexists _; isplitr
      swap; · iexact H4
      ipureintro; exact View.read_writes_of_cover _ _ _ _ _ (coverB6 c _ _ _ _ _ _ _ _ _ _ _ _ _ _ _ _ _)

/-- The library's body obligation, at every point. -/
theorem body_obligation (c : Dev nD) : BodyObligation (dat0 (F := F) V c) (defs₀ (F := F)) Variants.none () Set.univ := fun t => by
  rw [bigSep_W0, bigSep_W0]
  exact sound_body V c t

end Cert.KernelIdeal.Hand

end
-- ==== Proof.KI.Pieces.lean ====
/-
  What each control case leaves in the two accumulators, as the skeleton's payloads of the three input blocks: the
  first point stores (zero + the tile's partial sum), every later point (what it found + the tile's partial sum).
-/
import proofs.«176159_j6562710028536_1_alg».proof.Proof.KI.Data
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid0.Coords)
    (arg2 : Memref sig .tc .vmem S8x256x256 .i32) (harg2 : arg2.IsWhole) (arg3 : Memref sig .tc .vmem S8x256 .f32) (harg3 : arg3.IsWhole)
    (arg4 : Memref sig .tc .vmem S8x256 .f32) (harg4 : arg4.IsWhole) (arg5 : Memref sig .tc .vmem S1x1 .f32) (harg5 : arg5.IsWhole)
    (arg6 : Memref sig .tc .vmem S1x1 .f32) (harg6 : arg6.IsWhole)
    (x0 : Vec F S8x256x256 .i32) (x1 : Vec F S8x256 .f32) (x2 : Vec F S8x256 .f32)

theorem hz2 : (![0, 0] : Fin 2 → Nat) = fun _ => 0 := by
  funext a; match a with | ⟨0, _⟩ => rfl | ⟨1, _⟩ => rfl
theorem hz3 : (![0, 0, 0] : Fin 3 → Nat) = fun _ => 0 := by
  funext a; match a with | ⟨0, _⟩ => rfl | ⟨1, _⟩ => rfl | ⟨2, _⟩ => rfl

/-- A whole-buffer load of a whole buffer reads its contents. -/
theorem ld1 (a : Memref sig .tc .vmem S1x1 .f32) (ha : a.IsWhole) (x : Vec F S1x1 .f32) :
    View.readAt (Elt F) a.view (Rect.unit (s := S1x1) ![0, 0] S1x1.size inb_S1x1_S1x1_0_0).toLoadRect (ha.unread x) = x := by
  rw [View.readAt_eq_ld, ha.read_unread, View.ld_unit_zero (S := S1x1) hz2]
theorem ld2 (a : Memref sig .tc .vmem S8x256 .f32) (ha : a.IsWhole) (x : Vec F S8x256 .f32) :
    View.readAt (Elt F) a.view (Rect.unit (s := S8x256) ![0, 0] S8x256.size inb_S8x256_S8x256_0_0).toLoadRect (ha.unread x) = x := by
  rw [View.readAt_eq_ld, ha.read_unread, View.ld_unit_zero (S := S8x256) hz2]
theorem ld3 (a : Memref sig .tc .vmem S8x256x256 .i32) (ha : a.IsWhole) (x : Vec F S8x256x256 .i32) :
    View.readAt (Elt F) a.view (Rect.unit (s := S8x256x256) ![0, 0, 0] S8x256x256.size inb_S8x256x256_S8x256x256_0_0_0).toLoadRect (ha.unread x) = x := by
  rw [View.readAt_eq_ld, ha.read_unread, View.ld_unit_zero (S := S8x256x256) hz3]

theorem outA5_eq (hc0 : cond0 i) :
    outA5 (F := F) c i arg2 harg2 arg3 harg3 arg4 harg4 arg5 harg5 arg6 harg6 x0 x1 x2 hc0 = k0_pay1 (k0_pay7 x1 x2 x0) (k0_pay3 (F := F)) := by
  unfold outA5
  rw [View.read_writes_eq_canon _ _ _ (coverA5 c i arg2 harg2 arg3 harg3 arg4 harg4 arg5 harg5 arg6 harg6 x0 x1 x2 hc0)]
  unfold runA
  dsimp only
  sl_unfold_words
  rw [View.canon_cons_unit_zero hz2, View.readCov_unit_zero _ hz2, ld2 arg3 harg3 x1, ld2 arg4 harg4 x2, ld3 arg2 harg2 x0]

theorem outA6_eq (hc0 : cond0 i) :
    outA6 (F := F) c i arg2 harg2 arg3 harg3 arg4 harg4 arg5 harg5 arg6 harg6 x0 x1 x2 hc0 = k0_pay2 (k0_pay6 x1 x2 x0) (k0_pay4 (F := F)) := by
  unfold outA6
  rw [View.read_writes_eq_canon _ _ _ (coverA6 c i arg2 harg2 arg3 harg3 arg4 harg4 arg5 harg5 arg6 harg6 x0 x1 x2 hc0)]
  unfold runA
  dsimp only
  sl_unfold_words
  rw [View.canon_cons_unit_zero hz2, View.readCov_unit_zero _ hz2, ld2 arg3 harg3 x1, ld2 arg4 harg4 x2, ld3 arg2 harg2 x0]

theorem outB5_eq (hc0 : ¬cond0 i) (xo5 xo6 : Vec F S1x1 .f32) :
    outB5 (F := F) c i arg2 harg2 arg3 harg3 arg4 harg4 arg5 harg5 arg6 harg6 x0 x1 x2 hc0 xo5 xo6 = k0_pay1 (k0_pay7 x1 x2 x0) xo5 := by
  unfold outB5
  rw [View.read_writes_eq_canon _ _ _ (coverB5 c i arg2 harg2 arg3 harg3 arg4 harg4 arg5 harg5 arg6 harg6 x0 x1 x2 hc0 xo5 xo6)]
  unfold runB
  dsimp only
  sl_unfold_words
  rw [View.canon_unit_zero hz2, ld2 arg3 harg3 x1, ld2 arg4 harg4 x2, ld3 arg2 harg2 x0]
  exact congrArg (k0_pay1 (k0_pay7 x1 x2 x0)) (ld1 arg5 harg5 xo5)

theorem outB6_eq (hc0 : ¬cond0 i) (xo5 xo6 : Vec F S1x1 .f32) :
    outB6 (F := F) c i arg2 harg2 arg3 harg3 arg4 harg4 arg5 harg5 arg6 harg6 x0 x1 x2 hc0 xo5 xo6 = k0_pay2 (k0_pay6 x1 x2 x0) xo6 := by
  unfold outB6
  rw [View.read_writes_eq_canon _ _ _ (coverB6 c i arg2 harg2 arg3 harg3 arg4 harg4 arg5 harg5 arg6 harg6 x0 x1 x2 hc0 xo5 xo6)]
  unfold runB
  dsimp only
  sl_unfold_words
  rw [View.canon_unit_zero hz2, ld2 arg3 harg3 x1, ld2 arg4 harg4 x2, ld3 arg2 harg2 x0]
  exact congrArg (k0_pay2 (k0_pay6 x1 x2 x0)) (ld1 arg6 harg6 xo6)

end Cert.KernelIdeal.Hand

end
-- ==== Proof.LibPlainDot.lean ====
/-
  A PLAIN MATRIX PRODUCT READ AT AN INDEX, generic in the three extents.

  For the dimension numbers of a plain product  [A, K] · [K, B] → [A, B]  (the left operand's axis 1 contracted
  with the right operand's axis 0, no batch axis: the library's `DotDims.plain A K B`), the sum over the
  contraction index set that the ideal instance gives a kernel's `tpu.matmul` and the host's `dot_general` is the
  textbook sum over `k : Fin K` of  l (r, k) · r (k, c)  at the output index (r, c):

  * `plain_sum`                — the re-indexing of the contraction sum through its one coordinate;
  * `matmul_zero_plain_apply`  — a kernel's matmul into the zero accumulator, read at an output index;
  * `dotGeneral_plain_apply`   — the host's dot_general, read at an output index;
  * `eq_plain`                 — any dimension-number record with these six lists IS `DotDims.plain`
                                 (the side condition is a proposition), so a printed record is replaced by it.

  Nothing here depends on a program.
-/
import Idealize.ShloMosaic.Lib.ValueIdx
import Idealize.ShloMosaic.PureOps.Ideal.Laws

noncomputable section

open scoped BigOperators

namespace Cert.Lib.PlainDot

open Idealize.ShloMosaic Idealize.ShloMosaic.ValueIdx

variable {A K B : Nat}

/-- A dimension-number record for [A, K] · [K, B] → [A, B] whose six lists are the plain product's is the
    library's `DotDims.plain A K B`: the records differ at most in the proof of their side condition. -/
theorem eq_plain (d : DotDims ⟨2, ![A, K]⟩ ⟨2, ![K, B]⟩ ⟨2, ![A, B]⟩)
    (h1 : d.lhsContracting = [1]) (h2 : d.rhsContracting = [0]) (h3 : d.lhsNonContracting = [0])
    (h4 : d.rhsNonContracting = [1]) (h5 : d.lhsBatch = []) (h6 : d.rhsBatch = []) : d = DotDims.plain A K B := by
  cases d
  simp only at h1 h2 h3 h4 h5 h6
  subst h1 h2 h3 h4 h5 h6
  rfl

/-- The contraction sum of a plain product at the output index `j = (r, c)`, re-indexed through the contraction's one
    coordinate: the sum over `k` of the left operand at (r, k) times the right operand at (k, c). -/
theorem plain_sum (l : (⟨2, ![A, K]⟩ : Shape).Idx → EReal) (r : (⟨2, ![K, B]⟩ : Shape).Idx → EReal)
    (j : (⟨2, ![A, B]⟩ : Shape).Idx) :
    ∑ q : (DotDims.plain A K B).contr.Idx, l ((DotDims.plain A K B).lhsIdx j q) * r ((DotDims.plain A K B).rhsIdx j q)
      = ∑ k : Fin K, l (ix2 (j 0) k) * r (ix2 k (j 1)) := by
  rw [← Equiv.sum_comp (contrEquiv1 (DotDims.plain A K B) K rfl rfl).symm]
  refine Finset.sum_congr rfl fun k _ => ?_
  have hk := contrEquiv1_symm_val (DotDims.plain A K B) K rfl rfl k
  have el : (DotDims.plain A K B).lhsIdx j ((contrEquiv1 (DotDims.plain A K B) K rfl rfl).symm k) = ix2 (j 0) k :=
    funext fun a => Fin.ext (by
      match a with
      | ⟨0, _⟩ => rfl
      | ⟨1, _⟩ => exact ((DotDims.plain A K B).lhsIdx_val_of_single rfl j _).trans hk)
  have er : (DotDims.plain A K B).rhsIdx j ((contrEquiv1 (DotDims.plain A K B) K rfl rfl).symm k) = ix2 k (j 1) :=
    funext fun a => Fin.ext (by
      match a with
      | ⟨0, _⟩ => exact ((DotDims.plain A K B).rhsIdx_val_of_single rfl j _).trans hk
      | ⟨1, _⟩ => rfl)
  exact congrArg₂ (fun a b => l a * r b) el er

/-- A kernel's matmul of a plain product into the zero accumulator, at the ideal values, read at an output index. -/
theorem matmul_zero_plain_apply {φ₁ φ₂ : FTy} (prec : Option ContractPrecision)
    (l : FVec Ideal ⟨2, ![A, K]⟩ φ₁) (r : FVec Ideal ⟨2, ![K, B]⟩ φ₂) (j : (⟨2, ![A, B]⟩ : Shape).Idx) :
    matmul (DotDims.plain A K B) prec l r (constant ⟨2, ![A, B]⟩ .f32 0x00000000#32) j
      = ∑ k : Fin K, l (ix2 (j 0) k) * r (ix2 k (j 1)) :=
  (Ideal.matmul_constant_zero_apply (DotDims.plain A K B) prec l r j).trans (plain_sum l r j)

/-- The host's dot_general of a plain product, at the ideal values, read at an output index. -/
theorem dotGeneral_plain_apply {φ₁ φ₂ : FTy} (prec : Option ContractPrecision)
    (l : FVec Ideal ⟨2, ![A, K]⟩ φ₁) (r : FVec Ideal ⟨2, ![K, B]⟩ φ₂) (j : (⟨2, ![A, B]⟩ : Shape).Idx) :
    Host.dotGeneral (DotDims.plain A K B) prec l r j = ∑ k : Fin K, l (ix2 (j 0) k) * r (ix2 k (j 1)) :=
  (Ideal.dotGeneral_apply (DotDims.plain A K B) prec .single l r j).trans (plain_sum l r j)

end Cert.Lib.PlainDot

end
-- ==== Proof.LibKeepdims.lean ====
/-
  Two layout operations read at an index, in the keepdims column forms: a vector of length a seen as an [a, 1]
  column, and an [a, 1] column spread over the b columns of an [a, b] array.
-/
import Idealize.ShloMosaic.Lib.Pipeline.Value
import Idealize.ShloMosaic.Lib.ValueIdx
import Idealize.ShloMosaic.Lib.ValueLayout

namespace Cert.LibKeepdims

open Idealize.ShloMosaic Idealize.ShloMosaic.ValueIdx

variable {α : Type}

/-- An `[a]` array cast to an `[a, 1]` column reads, at `(i, u)`, the operand at `i`, whatever the unit coordinate `u`:
    the two indices have the same row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibKeepdims
-- ==== Proof.LibFoldRows.lean ====
/-
  LAYOUT OPERATIONS OF A ROW-FOLDED BLOCK, READ AT AN INDEX — generic in the extents; nothing here depends on a program.

  A kernel that applies one matrix to every row of a stack [a, c, b] folds the two leading axes into one
  ([a, c, b] → [a·c, b]), multiplies, and unfolds the product ([a·c, n] → [a, c, n]). Row-major order makes row
  (r, q) of the stack row  r·c + q  of the folded matrix. Before the fold such a kernel often builds the stack
  from two smaller blocks by broadcasting: a [a, b] block along a new middle axis ([a, b] → [a, 1, b] → [a, c, b])
  and a [c, b] block along a new leading axis ([c, b] → [1, c, b] → [a, c, b]).

  * `shapeCast_fold_apply`    — [a, c, b] → [M, b]  with M = a·c, at (p, d) where p = r·c + q;
  * `shapeCast_unfold_apply`  — [M, n] → [a, c, n]  with M = a·c, at (r, q, v);
  * `shapeCast_ab_a1b_apply`  — [a, b] → [a, 1, b]  at (r, u, d);
  * `broadcastTo_a1b_acb_apply` — [a, 1, b] → [a, c, b]  at (r, q, d): the operand at (r, 0, d);
  * `broadcastTo_1cb_acb_apply` — [1, c, b] → [a, c, b]  at (r, q, d): the operand at (0, q, d);
  * `foldRow`, `foldRow_val`  — the folded row number r·c + q as an element of Fin M.
-/
import Idealize.ShloMosaic.Lib.ValueIdx
import Idealize.ShloMosaic.Lib.ValueLayout
import Idealize.ShloMosaic.Lib.Pipeline.Value

noncomputable section

namespace Cert.Lib.FoldRows

open Idealize.ShloMosaic Idealize.ShloMosaic.ValueIdx

variable {α : Type}

/-- Row (r, q) of a stack of `a` blocks of `c` rows is row r·c + q of the stack folded into M = a·c rows. -/
def foldRow {a c M : ℕ} (hM : M = a * c) (r : Fin a) (q : Fin c) : Fin M :=
  ⟨r.val * c + q.val, by
    have hr := r.isLt
    have hq := q.isLt
    have : r.val * c + q.val < a * c := by
      calc r.val * c + q.val < r.val * c + c := by omega
        _ = (r.val + 1) * c := by ring
        _ ≤ a * c := Nat.mul_le_mul_right c hr
    omega⟩

@[simp] theorem foldRow_val {a c M : ℕ} (hM : M = a * c) (r : Fin a) (q : Fin c) :
    (foldRow hM r q).val = r.val * c + q.val := rfl

/-- A stack [a, c, b] folded into [M, b], M = a·c, reads at (p, d), with p the folded number of row (r, q), the stack
    at (r, q, d). -/
theorem shapeCast_fold_apply {a c b M : ℕ} (x : (⟨3, ![a, c, b]⟩ : Shape).Idx → α)
    (h : (⟨3, ![a, c, b]⟩ : Shape).ShapeCasts ⟨2, ![M, b]⟩) (r : Fin a) (q : Fin c) (d : Fin b) (p : Fin M)
    (hp : p.val = r.val * c + q.val) :
    shapeCast ⟨2, ![M, b]⟩ x h (ix2 p d) = x (ix3 r q d) :=
  shapeCast_apply x h _ _ (by
    rw [Shape.rowMajor_val_three, Shape.rowMajor_val_two]
    show (r.val * c + q.val) * b + d.val = p.val * b + d.val
    rw [hp])

/-- A matrix [M, n], M = a·c, unfolded into the stack [a, c, n] reads at (r, q, v) the matrix at (p, v), with p the
    folded number of row (r, q). -/
theorem shapeCast_unfold_apply {a c n M : ℕ} (x : (⟨2, ![M, n]⟩ : Shape).Idx → α)
    (h : (⟨2, ![M, n]⟩ : Shape).ShapeCasts ⟨3, ![a, c, n]⟩) (r : Fin a) (q : Fin c) (v : Fin n) (p : Fin M)
    (hp : p.val = r.val * c + q.val) :
    shapeCast ⟨3, ![a, c, n]⟩ x h (ix3 r q v) = x (ix2 p v) :=
  shapeCast_apply x h _ _ (by
    rw [Shape.rowMajor_val_three, Shape.rowMajor_val_two]
    show p.val * n + v.val = (r.val * c + q.val) * n + v.val
    rw [hp])

/-- A block [a, b] given a unit middle axis, [a, 1, b], reads at (r, u, d) the block at (r, d). -/
theorem shapeCast_ab_a1b_apply {a b : ℕ} (x : (⟨2, ![a, b]⟩ : Shape).Idx → α)
    (h : (⟨2, ![a, b]⟩ : Shape).ShapeCasts ⟨3, ![a, 1, b]⟩) (r : Fin a) (u : Fin 1) (d : Fin b) :
    shapeCast ⟨3, ![a, 1, b]⟩ x h (ix3 r u d) = x (ix2 r d) :=
  shapeCast_apply x h _ _ (by
    have hu : u.val = 0 := by omega
    rw [Shape.rowMajor_val_three, Shape.rowMajor_val_two]
    show r.val * b + d.val = (r.val * 1 + u.val) * b + d.val
    rw [hu, Nat.mul_one, Nat.add_zero])

/-- A block [a, 1, b] broadcast along its unit middle axis to [a, c, b] reads at (r, q, d) the block at (r, 0, d). -/
theorem broadcastTo_a1b_acb_apply {a c b : ℕ} (x : (⟨3, ![a, 1, b]⟩ : Shape).Idx → α)
    (h : (⟨3, ![a, 1, b]⟩ : Shape).Broadcasts ⟨3, ![a, c, b]⟩) (r : Fin a) (q : Fin c) (d : Fin b) :
    broadcastTo ⟨3, ![a, c, b]⟩ x h (ix3 r q d) = x (ix3 r (0 : Fin 1) d) := by
  refine broadcastTo_apply x h (ix3 r q d) (ix3 r (0 : Fin 1) d) fun ax => ?_
  match ax with
  | ⟨0, _⟩ =>
    show r.val = if a = 1 then 0 else r.val
    split
    · have := r.isLt; omega
    · rfl
  | ⟨1, _⟩ => rfl
  | ⟨2, _⟩ =>
    show d.val = if b = 1 then 0 else d.val
    split
    · have := d.isLt; omega
    · rfl

/-- A block [1, c, b] broadcast along its unit leading axis to [a, c, b] reads at (r, q, d) the block at (0, q, d). -/
theorem broadcastTo_1cb_acb_apply {a c b : ℕ} (x : (⟨3, ![1, c, b]⟩ : Shape).Idx → α)
    (h : (⟨3, ![1, c, b]⟩ : Shape).Broadcasts ⟨3, ![a, c, b]⟩) (r : Fin a) (q : Fin c) (d : Fin b) :
    broadcastTo ⟨3, ![a, c, b]⟩ x h (ix3 r q d) = x (ix3 (0 : Fin 1) q d) := by
  refine broadcastTo_apply x h (ix3 r q d) (ix3 (0 : Fin 1) q d) fun ax => ?_
  match ax with
  | ⟨0, _⟩ => rfl
  | ⟨1, _⟩ =>
    show q.val = if c = 1 then 0 else q.val
    split
    · have := q.isLt; omega
    · rfl
  | ⟨2, _⟩ =>
    show d.val = if b = 1 then 0 else d.val
    split
    · have := d.isLt; omega
    · rfl

end Cert.Lib.FoldRows

end
-- ==== Proof.LibRowOps.lean ====
/-
  ROW OPERATIONS OF A KERNEL BODY READ AT AN INDEX, on the extended reals. Generic in the extents where that costs
  nothing; nothing here depends on a program.

  * a product with the weights stored transposed:  (x · Wᵀ)(y, j) = Σ_k x(y,k)·W(j,k)  for a matmul into the zero
    accumulator whose right operand is the transpose of W;
  * a bias vector [n] seen as the row [1, n] and spread over the rows of [a, n];
  * one column of a two-column array;
  * sums along the middle axis of a rank-3 array;
  * the re-layings between [a, 32] and [a, 4, 8], between [a, 8, 64] and [a, 512], and the unit-axis casts and
    broadcasts that build [a, 4, 8] and [a, 8, 64] arrays from vectors and columns.
-/
import Idealize.ShloMosaic.Lib.ValueIdx
import Idealize.ShloMosaic.Lib.ValueLayout
import Idealize.ShloMosaic.Lib.Pipeline.Value
import Idealize.ShloMosaic.PureOps.Ideal.Laws
import proofs.«176159_j6562710028536_1_alg».proof.Proof.LibPlainDot
import proofs.«176159_j6562710028536_1_alg».proof.Proof.LibKeepdims
import proofs.«176159_j6562710028536_1_alg».proof.Proof.LibFoldRows

noncomputable section

open scoped BigOperators

namespace Cert.Lib.RowOps

open Idealize.ShloMosaic Idealize.ShloMosaic.ValueIdx

variable {α : Type}

/-- (x · Wᵀ)(y, j) = Σ_k x(y,k)·W(j,k): a matmul into the zero accumulator whose right operand is W transposed. -/
theorem dotT_apply {A K N : ℕ} {φ₁ φ₂ : FTy} (d : DotDims ⟨2, ![A, K]⟩ ⟨2, ![K, N]⟩ ⟨2, ![A, N]⟩)
    (h1 : d.lhsContracting = [1]) (h2 : d.rhsContracting = [0]) (h3 : d.lhsNonContracting = [0])
    (h4 : d.rhsNonContracting = [1]) (h5 : d.lhsBatch = []) (h6 : d.rhsBatch = [])
    (x : FVec Ideal ⟨2, ![A, K]⟩ φ₁) (W : FVec Ideal ⟨2, ![N, K]⟩ φ₂)
    (ht : (⟨2, ![N, K]⟩ : Shape).Transposes [1, 0] ⟨2, ![K, N]⟩) (y : Fin A) (j : Fin N) :
    matmul d none x (transpose ⟨2, ![K, N]⟩ [1, 0] W ht) (constant ⟨2, ![A, N]⟩ .f32 0x00000000#32) (ix2 y j)
      = ∑ k : Fin K, x (ix2 y k) * W (ix2 j k) := by
  obtain rfl := Cert.Lib.PlainDot.eq_plain d h1 h2 h3 h4 h5 h6
  refine (Cert.Lib.PlainDot.matmul_zero_plain_apply none x _ (ix2 y j)).trans ?_
  exact Finset.sum_congr rfl fun k _ => congrArg (x (ix2 y k) * ·) (transpose_ix2_apply W ht k j)

/-- A vector [n] seen as the row [1, n] and spread over the rows of [a, n]. -/
theorem biasRow_apply {a n : ℕ} (b : (⟨1, ![n]⟩ : Shape).Idx → α) (hc : (⟨1, ![n]⟩ : Shape).ShapeCasts ⟨2, ![1, n]⟩)
    (hb : (⟨2, ![1, n]⟩ : Shape).Broadcasts ⟨2, ![a, n]⟩) (y : Fin a) (j : Fin n) :
    broadcastTo ⟨2, ![a, n]⟩ (shapeCast ⟨2, ![1, n]⟩ b hc) hb (ix2 y j) = b (ix1 j) :=
  (broadcastTo_1b_ab_apply _ hb y j).trans (shapeCast_a_1a_apply b hc 0 j)

/-- Column o of a two-column array, as an [a, 1] column. -/
theorem col_apply {a : ℕ} (o : ℕ) (ho : o < 2) (v : (⟨2, ![a, 2]⟩ : Shape).Idx → α)
    (h : (⟨2, ![a, 2]⟩ : Shape).Slices ![0, o] ⟨2, ![a, 1]⟩) (y : Fin a) (u : Fin 1) :
    extractStridedSlice ⟨2, ![a, 1]⟩ ![0, o] v h (ix2 y u) = v (ix2 y ⟨o, ho⟩) :=
  slice2_axis1_apply o v h y u ⟨o, ho⟩ (by have := u.isLt; show o = o + u.val; omega)

/-- Columns 0 and 1 of a two-column array. -/
theorem col0_apply {a : ℕ} (v : (⟨2, ![a, 2]⟩ : Shape).Idx → α)
    (h : (⟨2, ![a, 2]⟩ : Shape).Slices ![0, 0] ⟨2, ![a, 1]⟩) (y : Fin a) (u : Fin 1) :
    extractStridedSlice ⟨2, ![a, 1]⟩ ![0, 0] v h (ix2 y u) = v (ix2 y (0 : Fin 2)) :=
  slice2_axis1_apply 0 v h y u 0 (by have := u.isLt; show 0 = 0 + u.val; omega)

theorem col1_apply {a : ℕ} (v : (⟨2, ![a, 2]⟩ : Shape).Idx → α)
    (h : (⟨2, ![a, 2]⟩ : Shape).Slices ![0, 1] ⟨2, ![a, 1]⟩) (y : Fin a) (u : Fin 1) :
    extractStridedSlice ⟨2, ![a, 1]⟩ ![0, 1] v h (ix2 y u) = v (ix2 y (1 : Fin 2)) :=
  slice2_axis1_apply 1 v h y u 1 (by have := u.isLt; show 1 = 1 + u.val; omega)

/-- The sum along the middle axis of an [A, L, B] array at (y, r). -/
theorem sumMid_apply {A L B : ℕ} (src : FVec Ideal ⟨3, ![A, L, B]⟩ .f32)
    (h : (⟨3, ![A, L, B]⟩ : Shape).Reduces [1] ⟨2, ![A, B]⟩) (y : Fin A) (r : Fin B) :
    multiReduction .add [1] ⟨2, ![A, B]⟩ src 0x00000000#32 h (.inl rfl) rfl (ix2 y r) = ∑ l : Fin L, src (ix3 y l r) := by
  refine (Ideal.multiReduction_add_single src 0x00000000#32 h (.inl rfl) rfl (ix2 y r)).trans ?_
  refine Finset.sum_congr rfl fun l _ => congrArg src (funext fun a => Fin.ext ?_)
  match a with
  | ⟨0, _⟩ => rfl
  | ⟨1, _⟩ => rfl
  | ⟨2, _⟩ => rfl

/-- [a, 32] re-laid as [a, 4, 8]: entry (y, l, r) is entry (y, 8l + r). -/
theorem cast_a32_a48_apply {a : ℕ} (x : (⟨2, ![a, 32]⟩ : Shape).Idx → α)
    (h : (⟨2, ![a, 32]⟩ : Shape).ShapeCasts ⟨3, ![a, 4, 8]⟩) (y : Fin a) (l : Fin 4) (r : Fin 8) (p : Fin 32)
    (hp : p.val = l.val * 8 + r.val) :
    shapeCast ⟨3, ![a, 4, 8]⟩ x h (ix3 y l r) = x (ix2 y p) :=
  shapeCast_apply x h _ _ (by
    rw [Shape.rowMajor_val_three, Shape.rowMajor_val_two]
    show y.val * 32 + p.val = (y.val * 4 + l.val) * 8 + r.val
    omega)

/-- [a, 8, 64] re-laid as [a, 512]: entry (y, j) is entry (y, j / 64, j mod 64). -/
theorem cast_a8x64_a512_apply {a : ℕ} (x : (⟨3, ![a, 8, 64]⟩ : Shape).Idx → α)
    (h : (⟨3, ![a, 8, 64]⟩ : Shape).ShapeCasts ⟨2, ![a, 512]⟩) (y : Fin a) (j : Fin 512) (r : Fin 8) (m : Fin 64)
    (hj : j.val = r.val * 64 + m.val) :
    shapeCast ⟨2, ![a, 512]⟩ x h (ix2 y j) = x (ix3 y r m) :=
  shapeCast_apply x h _ _ (by
    rw [Shape.rowMajor_val_three, Shape.rowMajor_val_two]
    show (y.val * 8 + r.val) * 64 + m.val = y.val * 512 + j.val
    omega)

/-- A vector [c] as [1, c, 1], spread over [a, c, b]: entry (y, l, r) is entry l. -/
theorem vec_1c1_acb_apply {a c b : ℕ} (v : (⟨1, ![c]⟩ : Shape).Idx → α) (hc : (⟨1, ![c]⟩ : Shape).ShapeCasts ⟨3, ![1, c, 1]⟩)
    (hb : (⟨3, ![1, c, 1]⟩ : Shape).Broadcasts ⟨3, ![a, c, b]⟩) (y : Fin a) (l : Fin c) (r : Fin b) :
    broadcastTo ⟨3, ![a, c, b]⟩ (shapeCast ⟨3, ![1, c, 1]⟩ v hc) hb (ix3 y l r) = v (ix1 l) := by
  refine (broadcastTo_apply _ hb (ix3 y l r) (ix3 (0 : Fin 1) l (0 : Fin 1)) fun ax => ?_).trans ?_
  · match ax with
    | ⟨0, _⟩ => rfl
    | ⟨1, _⟩ =>
      show l.val = if c = 1 then 0 else l.val
      split
      · have := l.isLt; omega
      · rfl
    | ⟨2, _⟩ => rfl
  · exact shapeCast_apply v hc _ _ (by
      rw [Shape.rowMajor_val_three, Shape.rowMajor_val_one]
      show l.val = (0 * c + l.val) * 1 + 0
      omega)

/-- A column [a, 1] as [a, 1, 1], spread over [a, c, b]: entry (y, l, r) is the column's entry y. -/
theorem col_a11_acb_apply {a c b : ℕ} (v : (⟨2, ![a, 1]⟩ : Shape).Idx → α) (hc : (⟨2, ![a, 1]⟩ : Shape).ShapeCasts ⟨3, ![a, 1, 1]⟩)
    (hb : (⟨3, ![a, 1, 1]⟩ : Shape).Broadcasts ⟨3, ![a, c, b]⟩) (y : Fin a) (l : Fin c) (r : Fin b) :
    broadcastTo ⟨3, ![a, c, b]⟩ (shapeCast ⟨3, ![a, 1, 1]⟩ v hc) hb (ix3 y l r) = v (ix2 y (0 : Fin 1)) := by
  refine (broadcastTo_apply _ hb (ix3 y l r) (ix3 y (0 : Fin 1) (0 : Fin 1)) fun ax => ?_).trans ?_
  · match ax with
    | ⟨0, _⟩ =>
      show y.val = if a = 1 then 0 else y.val
      split
      · have := y.isLt; omega
      · rfl
    | ⟨1, _⟩ => rfl
    | ⟨2, _⟩ => rfl
  · exact shapeCast_apply v hc _ _ (by
      rw [Shape.rowMajor_val_three, Shape.rowMajor_val_two]
      show y.val * 1 + 0 = (y.val * 1 + 0) * 1 + 0
      omega)

/-- An [a, c] array as [a, c, 1], spread over [a, c, b]: entry (y, r, m) is entry (y, r). -/
theorem mat_ac1_acb_apply {a c b : ℕ} (v : (⟨2, ![a, c]⟩ : Shape).Idx → α) (hc : (⟨2, ![a, c]⟩ : Shape).ShapeCasts ⟨3, ![a, c, 1]⟩)
    (hb : (⟨3, ![a, c, 1]⟩ : Shape).Broadcasts ⟨3, ![a, c, b]⟩) (y : Fin a) (r : Fin c) (m : Fin b) :
    broadcastTo ⟨3, ![a, c, b]⟩ (shapeCast ⟨3, ![a, c, 1]⟩ v hc) hb (ix3 y r m) = v (ix2 y r) := by
  refine (broadcastTo_apply _ hb (ix3 y r m) (ix3 y r (0 : Fin 1)) fun ax => ?_).trans ?_
  · match ax with
    | ⟨0, _⟩ =>
      show y.val = if a = 1 then 0 else y.val
      split
      · have := y.isLt; omega
      · rfl
    | ⟨1, _⟩ =>
      show r.val = if c = 1 then 0 else r.val
      split
      · have := r.isLt; omega
      · rfl
    | ⟨2, _⟩ => rfl
  · exact shapeCast_apply v hc _ _ (by
      rw [Shape.rowMajor_val_three, Shape.rowMajor_val_two]
      show y.val * c + r.val = (y.val * c + r.val) * 1 + 0
      omega)

/-- An [a, b] array as [a, 1, b], spread over [a, c, b]: entry (y, r, m) is entry (y, m). -/
theorem mat_a1b_acb_apply {a c b : ℕ} (v : (⟨2, ![a, b]⟩ : Shape).Idx → α) (hc : (⟨2, ![a, b]⟩ : Shape).ShapeCasts ⟨3, ![a, 1, b]⟩)
    (hb : (⟨3, ![a, 1, b]⟩ : Shape).Broadcasts ⟨3, ![a, c, b]⟩) (y : Fin a) (r : Fin c) (m : Fin b) :
    broadcastTo ⟨3, ![a, c, b]⟩ (shapeCast ⟨3, ![a, 1, b]⟩ v hc) hb (ix3 y r m) = v (ix2 y m) :=
  (Cert.Lib.FoldRows.broadcastTo_a1b_acb_apply _ hb y r m).trans (Cert.Lib.FoldRows.shapeCast_ab_a1b_apply v hc y 0 m)

/-- A [c, b] array as [1, c, b], spread over [a, c, b]: entry (y, l, j) is entry (l, j). -/
theorem mat_1cb_acb_apply {a c b : ℕ} (v : (⟨2, ![c, b]⟩ : Shape).Idx → α) (hc : (⟨2, ![c, b]⟩ : Shape).ShapeCasts ⟨3, ![1, c, b]⟩)
    (hb : (⟨3, ![1, c, b]⟩ : Shape).Broadcasts ⟨3, ![a, c, b]⟩) (y : Fin a) (l : Fin c) (j : Fin b) :
    broadcastTo ⟨3, ![a, c, b]⟩ (shapeCast ⟨3, ![1, c, b]⟩ v hc) hb (ix3 y l j) = v (ix2 l j) :=
  (Cert.Lib.FoldRows.broadcastTo_1cb_acb_apply _ hb y l j).trans (shapeCast_ab_1ab_apply v hc 0 l j)

end Cert.Lib.RowOps

end
-- ==== Proof.LibExtReals.lean ====
/-
  Real numbers inside the extended reals: finite sums, the law that moves a division by a nonzero real and a product
  across a double sum, and the two constant words used by the convolution (1 and ε).

  On the extended reals a sum cannot be moved across a product in general (it fails at ±∞). When every entry is a real
  number the computation is one in ℝ, where it is the distributive law and an exchange of the two sums:
      Σ_k ((Σ_{e ∈ E} X(e, k)) / c) · W(k)  =  (Σ_{e ∈ E} Σ_k X(e, k) · W(k)) · (1 / c)     (c a nonzero real).
-/
import Idealize.ShloMosaic.PureOps.Ideal
import Idealize.ShloMosaic.PureOps.Ideal.Laws

noncomputable section

open scoped BigOperators

namespace Cert.Net

open Idealize.ShloMosaic

/-! ## Finite sums of reals -/

/-- The inclusion of ℝ commutes with a finite sum. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The inclusion of ℝ commutes with the larger of two. -/
theorem coe_max (a b : ℝ) : ((max a b : ℝ) : EReal) = max (a : EReal) (b : EReal) := by
  rcases le_total a b with h | h
  · rw [max_eq_right h, max_eq_right (EReal.coe_le_coe_iff.2 h)]
  · rw [max_eq_left h, max_eq_left (EReal.coe_le_coe_iff.2 h)]

/-- A finite sum of ones is a nonnegative real. -/
theorem sum_ones_real {ι : Type} (s : Finset ι) : ∃ r : ℝ, 0 ≤ r ∧ ∑ _j ∈ s, (1 : EReal) = (r : EReal) := by
  classical
  induction s using Finset.induction_on with
  | empty => exact ⟨0, le_refl _, by simp⟩
  | insert a s ha ih =>
    obtain ⟨r, hr, h⟩ := ih
    refine ⟨1 + r, by linarith, ?_⟩
    rw [Finset.sum_insert ha, h, EReal.coe_add, EReal.coe_one]

/-! ## The law -/

/-- In ℝ: scaling each inner sum by d and then summing against W is summing the products first and scaling once. -/
theorem real_law {ι κ : Type} [Fintype ι] [Fintype κ] (L : ι → Prop) [DecidablePred L] (X : ι → κ → ℝ) (W : κ → ℝ) (d : ℝ) :
    ∑ k, ((∑ e, if L e then X e k else 0) * d) * W k = (∑ e, if L e then ∑ k, X e k * W k else 0) * d := by
  simp only [Finset.sum_mul]
  rw [Finset.sum_comm]
  refine Finset.sum_congr rfl fun e _ => ?_
  by_cases h : L e
  · simp only [if_pos h, Finset.sum_mul]
    refine Finset.sum_congr rfl fun k _ => by ring
  · simp [if_neg h]

/-- On the extended reals, for entries that are real numbers and a nonzero real divisor c: dividing the restricted sum
    of each column by c and then summing against W is the restricted sum of the rows' products with W, times 1 / c. -/
theorem ereal_law {ι κ : Type} [Fintype ι] [Fintype κ] (L : ι → Prop) [DecidablePred L] (X : ι → κ → EReal) (W : κ → EReal)
    (hX : ∀ e k, ∃ r : ℝ, X e k = (r : EReal)) (hW : ∀ k, ∃ r : ℝ, W k = (r : EReal)) (c : ℝ) (hc : c ≠ 0) :
    ∑ k, Ideal.div (∑ e, if L e then X e k else 0) (c : EReal) * W k
      = (∑ e, if L e then ∑ k, X e k * W k else 0) * Ideal.div 1 (c : EReal) := by
  choose X' hX' using hX
  choose W' hW' using hW
  have hite : ∀ (p : Prop) [Decidable p] (a : ℝ), (if p then (a : EReal) else 0) = ((if p then a else 0 : ℝ) : EReal) := by
    intro p _ a; split <;> simp
  simp only [Ideal.div_coe hc, one_mul, hX', hW', hite, ← EReal.coe_mul, ← coe_sum]
  exact congrArg _ (real_law L X' W' (1 / c))

/-! ## Two words -/

/-- The word 0x3F800000 denotes 1. -/
theorem one_word : Ideal.ofBits .f32 0x3F800000#32 = 1 := by
  simp [Ideal.ofBits, Ideal.ieee]
  rw [← EReal.coe_mul]
  norm_num

/-- The word 0x2B8CBCCC (ε) denotes a positive real. -/
theorem eps_word : ∃ r : ℝ, 0 < r ∧ Ideal.ofBits .f32 0x2B8CBCCC#32 = (r : EReal) := by
  refine ⟨9223372 * (2 ^ 63)⁻¹, by positivity, ?_⟩
  simp [Ideal.ofBits, Ideal.ieee]

/-! ## Being a real number is kept by the arithmetic -/

/-- A sum of two reals is a real. -/
theorem real_add {x y : EReal} (hx : ∃ r : ℝ, x = (r : EReal)) (hy : ∃ r : ℝ, y = (r : EReal)) :
    ∃ r : ℝ, x + y = (r : EReal) := by
  obtain ⟨a, rfl⟩ := hx; obtain ⟨b, rfl⟩ := hy
  exact ⟨a + b, (EReal.coe_add a b).symm⟩

/-- A product of two reals is a real. -/
theorem real_mul {x y : EReal} (hx : ∃ r : ℝ, x = (r : EReal)) (hy : ∃ r : ℝ, y = (r : EReal)) :
    ∃ r : ℝ, x * y = (r : EReal) := by
  obtain ⟨a, rfl⟩ := hx; obtain ⟨b, rfl⟩ := hy
  exact ⟨a * b, (EReal.coe_mul a b).symm⟩

/-- A finite sum of reals is a real. -/
theorem real_sum {ι : Type} (s : Finset ι) (f : ι → EReal) (hf : ∀ i, ∃ r : ℝ, f i = (r : EReal)) :
    ∃ r : ℝ, ∑ i ∈ s, f i = (r : EReal) := by
  choose f' hf' using hf
  exact ⟨∑ i ∈ s, f' i, by rw [coe_sum]; exact Finset.sum_congr rfl fun i _ => hf' i⟩

/-- A real or zero, by cases, is a real. -/
theorem real_ite (p : Prop) [Decidable p] {x : EReal} (hx : ∃ r : ℝ, x = (r : EReal)) :
    ∃ r : ℝ, (if p then x else 0) = (r : EReal) := by
  split
  · exact hx
  · exact ⟨0, EReal.coe_zero.symm⟩

/-- The larger of two reals is a real. -/
theorem real_max {x y : EReal} (hx : ∃ r : ℝ, x = (r : EReal)) (hy : ∃ r : ℝ, y = (r : EReal)) :
    ∃ r : ℝ, max x y = (r : EReal) := by
  obtain ⟨a, rfl⟩ := hx; obtain ⟨b, rfl⟩ := hy
  exact ⟨max a b, (coe_max a b).symm⟩

/-- A real divided by a nonzero real is a real. -/
theorem real_div {x : EReal} (hx : ∃ r : ℝ, x = (r : EReal)) {c : ℝ} (hc : c ≠ 0) :
    ∃ r : ℝ, Ideal.div x (c : EReal) = (r : EReal) := by
  obtain ⟨a, rfl⟩ := hx
  exact ⟨a * (1 / c), by rw [Ideal.div_coe hc, EReal.coe_mul]⟩

/-- The square root of a nonnegative real is a nonnegative real. -/
theorem real_sqrt {r : ℝ} (hr : 0 ≤ r) : Ideal.sqrt (r : EReal) = ((Real.sqrt r : ℝ) : EReal) := by
  rw [Ideal.sqrt_coe, if_neg (not_lt.mpr hr)]

end Cert.Net

end
-- ==== Proof.LibBits.lean ====
/-
  Bits counted two ways. A bit (a 1-bit word) widened to 32 bits and read as a signed integer is the real number 0 or 1;
  a sum of fewer than 2^31 widened bits in 32-bit arithmetic does not wrap, so it is the number of set bits; and "some
  bit of a finite family is set" is read alike by a fold by max (from -inf) over the bits as reals compared with 0 and
  by the 32-bit sum of the widened bits compared (signed) with 0.
-/
import Idealize.ShloMosaic.PureOps.Ideal
import Idealize.ShloMosaic.PureOps.Ideal.Laws
import Idealize.ShloMosaic.PureOps.Reduce
import proofs.«176159_j6562710028536_1_alg».proof.Proof.LibExtReals

noncomputable section

open scoped BigOperators

namespace Cert.LibBits

open Idealize.ShloMosaic

/-- A bit is 0 or 1. -/
theorem bit_cases (b : BitVec 1) : b = 0#1 ∨ b = 1#1 := by
  rcases Nat.lt_or_ge b.toNat 1 with h | h
  · left; exact BitVec.eq_of_toNat_eq (by simp; omega)
  · right; exact BitVec.eq_of_toNat_eq (by have := b.isLt; simp; omega)

/-- The number a bit is. -/
theorem bit_toNat (b : BitVec 1) : b.toNat = if b = 1#1 then 1 else 0 := by
  rcases bit_cases b with rfl | rfl <;> decide

/-- A bit widened to a word and compared with the zero word for inequality is the bit. -/
theorem cmpi_ne_bit (b : BitVec 1) : IntOp.cmpi .ne (b.setWidth 32) 0#32 = b := by
  rcases bit_cases b with rfl | rfl <;> decide

/-- A bit widened to a word, read as a signed integer, as an extended real. -/
theorem sitofp_bit (b : BitVec 1) : (FloatOps.sitofp (F := Ideal) .f32 (b.setWidth 32) : EReal) = ((b.toNat : ℝ) : EReal) := by
  show ((((b.setWidth 32).toInt : ℤ) : ℝ) : EReal) = _
  rcases bit_cases b with rfl | rfl
  · have : ((0#1 : BitVec 1).setWidth 32).toInt = 0 := by decide
    rw [this]; simp
  · have : ((1#1 : BitVec 1).setWidth 32).toInt = 1 := by decide
    rw [this]; simp

/-- The 32-bit sum of widened bits is the word of the number of set bits. -/
theorem fold_addi_bits {ι : Type} [DecidableEq ι] (S : Finset ι) (x : ι → BitVec 1) :
    S.fold IntOp.addi 0#32 (fun i => (x i).setWidth 32) = BitVec.ofNat 32 (∑ i ∈ S, (x i).toNat) := by
  induction S using Finset.induction_on with
  | empty => rfl
  | insert a s ha ih =>
    rw [Finset.fold_insert ha, Finset.sum_insert ha, ih]
    unfold IntOp.addi
    rw [BitVec.ofNat_add]
    congr 1
    rcases bit_cases (x a) with h | h <;> rw [h] <;> decide

/-- The number of set bits is at most the number of bits. -/
theorem sum_bits_le {ι : Type} (S : Finset ι) (x : ι → BitVec 1) : ∑ i ∈ S, (x i).toNat ≤ S.card := by
  rw [Finset.card_eq_sum_ones]
  exact Finset.sum_le_sum fun i _ => by have := (x i).isLt; omega

/-- A word below 2^31 read as a signed integer is itself. -/
theorem toInt_ofNat_small (n : Nat) (h : n < 2147483648) : (BitVec.ofNat 32 n).toInt = (n : ℤ) := by
  rw [BitVec.toInt_eq_toNat_cond, BitVec.toNat_ofNat]
  have : n % 2 ^ 32 = n := Nat.mod_eq_of_lt (by omega)
  rw [this, if_pos (by omega)]

/-- The 32-bit sum of fewer than 2^31 widened bits, converted to a float at the extended reals, is the sum of the bits
    as real numbers. -/
theorem sitofp_fold_addi_bits {ι : Type} [DecidableEq ι] (S : Finset ι) (x : ι → BitVec 1) (hS : S.card < 2147483648) :
    (FloatOps.sitofp (F := Ideal) .f32 (S.fold IntOp.addi 0#32 (fun i => (x i).setWidth 32)) : EReal)
      = ∑ i ∈ S, (((x i).toNat : ℝ) : EReal) := by
  show ((((S.fold IntOp.addi 0#32 (fun i => (x i).setWidth 32)).toInt : ℤ) : ℝ) : EReal) = _
  rw [fold_addi_bits, toInt_ofNat_small _ (lt_of_le_of_lt (sum_bits_le S x) hS), ← Cert.Net.coe_sum]
  congr 1
  push_cast
  rfl

/-- "Some bit of the family is set", as a bit. -/
def anyBit {ι : Type} (S : Finset ι) (x : ι → BitVec 1) : BitVec 1 := BitVec.ofBool (decide (∃ i ∈ S, x i = 1#1))

/-- The fold by max from -inf of the bits as reals (1 for a set bit, 0 else) exceeds 0 exactly when some bit is set. -/
theorem cmp_fold_max_bits {ι : Type} [DecidableEq ι] (S : Finset ι) (x : ι → BitVec 1) (one zero : EReal) (h1 : one = 1) (h0 : zero = 0) :
    Ideal.cmp .ogt (S.fold max (⊥ : EReal) (fun i => Scalar.select (x i) one zero)) 0 = anyBit S x := by
  subst h1 h0
  unfold Ideal.cmp anyBit
  congr 1
  show decide ((0 : EReal) < S.fold max ⊥ fun i => Scalar.select (x i) (1 : EReal) 0) = decide (∃ i ∈ S, x i = 1#1)
  congr 1
  rw [Finset.lt_fold_max]
  apply propext
  constructor
  · rintro (h | ⟨i, hi, h⟩)
    · exact absurd h (not_lt_bot)
    · refine ⟨i, hi, ?_⟩
      rcases bit_cases (x i) with hx | hx
      · rw [hx] at h; exact absurd h (by show ¬ (0 : EReal) < Scalar.select 0#1 (1 : EReal) 0; rw [show Scalar.select 0#1 (1 : EReal) 0 = 0 from if_neg (by decide)]; exact lt_irrefl _)
      · exact hx
  · rintro ⟨i, hi, hx⟩
    right
    refine ⟨i, hi, ?_⟩
    rw [hx, show Scalar.select 1#1 (1 : EReal) 0 = 1 from if_pos rfl]
    exact zero_lt_one

/-- The 32-bit sum of fewer than 2^31 widened bits exceeds 0 (signed) exactly when some bit is set. -/
theorem cmpi_sgt_fold_addi_bits {ι : Type} [DecidableEq ι] (S : Finset ι) (x : ι → BitVec 1) (hS : S.card < 2147483648) :
    IntOp.cmpi .sgt (S.fold IntOp.addi 0#32 (fun i => (x i).setWidth 32)) 0#32 = anyBit S x := by
  rw [fold_addi_bits]
  unfold IntOp.cmpi anyBit
  congr 1
  show (0#32).slt (BitVec.ofNat 32 (∑ i ∈ S, (x i).toNat)) = decide (∃ i ∈ S, x i = 1#1)
  rw [BitVec.slt, toInt_ofNat_small _ (lt_of_le_of_lt (sum_bits_le S x) hS)]
  have h0 : (0#32 : BitVec 32).toInt = 0 := by decide
  rw [h0]
  congr 1
  apply propext
  constructor
  · intro h
    have hpos : 0 < ∑ i ∈ S, (x i).toNat := by exact_mod_cast h
    obtain ⟨i, hi, hne⟩ := Finset.exists_ne_zero_of_sum_ne_zero (Nat.pos_iff_ne_zero.mp hpos)
    refine ⟨i, hi, ?_⟩
    rcases bit_cases (x i) with hx | hx
    · rw [hx] at hne; exact absurd rfl hne
    · exact hx
  · rintro ⟨i, hi, hx⟩
    have : 0 < ∑ i ∈ S, (x i).toNat :=
      lt_of_lt_of_le (by rw [hx]; decide) (Finset.single_le_sum (f := fun i => (x i).toNat) (fun _ _ => Nat.zero_le _) hi)
    exact_mod_cast this

end Cert.LibBits

end
-- ==== Proof.LibWords.lean ====
/-
  The four constant words of the two programs as extended reals, and the maximum of finitely many reals.

  0x41200000 is 10, 0x3F80 (a 16-bit word) is 1, 0x00000000 is 0 and 0xFF800000 is -inf, the bottom of the extended
  reals. A fold by max that starts at -inf, or at a real, over real terms stays -inf or real; over a nonempty index
  set it is a real number.
-/
import Idealize.ShloMosaic.PureOps.Ideal
import Idealize.ShloMosaic.PureOps.Ideal.Laws
import proofs.«176159_j6562710028536_1_alg».proof.Proof.LibExtReals

noncomputable section

namespace Cert.Words

open Idealize.ShloMosaic

/-- The word 0x41200000 denotes 10. -/
theorem ten_word : Ideal.ofBits .f32 0x41200000#32 = ((10 : ℝ) : EReal) := by
  simp [Ideal.ofBits, Ideal.ieee]
  rw [← EReal.coe_mul]
  norm_num

/-- The 16-bit word 0x3F80 denotes 1. -/
theorem one_word16 : Ideal.ofBits .bf16 0x3F80#16 = ((1 : ℝ) : EReal) := by
  simp [Ideal.ofBits, Ideal.ieee]
  rw [← EReal.coe_mul]
  norm_num

/-- The word 0xFF800000 denotes -inf. -/
theorem neg_inf_word : Ideal.ofBits .f32 0xFF800000#32 = (⊥ : EReal) := by
  simp [Ideal.ofBits, Ideal.ieee]

/-- A fold by max over real terms, started at -inf or at a real, is -inf or a real. -/
theorem fold_max_bot_or_real {ι : Type} (g : ι → ℝ) (b : EReal) (hb : b = ⊥ ∨ ∃ c : ℝ, b = (c : EReal)) (s : Finset ι) :
    s.fold max b (fun i => (g i : EReal)) = ⊥ ∨ ∃ c : ℝ, s.fold max b (fun i => (g i : EReal)) = (c : EReal) := by
  classical
  induction s using Finset.induction_on with
  | empty => rw [Finset.fold_empty]; exact hb
  | insert a s ha ih =>
    rw [Finset.fold_insert ha]
    right
    rcases ih with h | ⟨c, h⟩
    · exact ⟨g a, by rw [h, max_eq_left bot_le]⟩
    · exact ⟨max (g a) c, by rw [h, Cert.Net.coe_max]⟩

/-- Over a nonempty index set it is a real. -/
theorem fold_max_real {ι : Type} (g : ι → ℝ) (b : EReal) (hb : b = ⊥ ∨ ∃ c : ℝ, b = (c : EReal)) (s : Finset ι)
    (hs : s.Nonempty) : ∃ c : ℝ, s.fold max b (fun i => (g i : EReal)) = (c : EReal) := by
  classical
  obtain ⟨a, ha⟩ := hs
  rw [← Finset.insert_erase ha, Finset.fold_insert (Finset.notMem_erase a s)]
  rcases fold_max_bot_or_real g b hb (s.erase a) with h | ⟨c, h⟩
  · exact ⟨g a, by rw [h, max_eq_left bot_le]⟩
  · exact ⟨max (g a) c, by rw [h, Cert.Net.coe_max]⟩

/-- The larger of -inf-or-real and a real is a real. -/
theorem max_real {x : EReal} (hx : x = ⊥ ∨ ∃ c : ℝ, x = (c : EReal)) (y : ℝ) : ∃ c : ℝ, max x (y : EReal) = (c : EReal) := by
  rcases hx with h | ⟨c, h⟩
  · exact ⟨y, by rw [h, max_eq_right bot_le]⟩
  · exact ⟨max c y, by rw [h, Cert.Net.coe_max]⟩

end Cert.Words

end
-- ==== Proof.LibTile3.lean ====
/-
  A rank-3 array of extents [8, 2048, 2048] tiled by 8 x 8 blocks of extents [8, 256, 256] over its last two axes:
  grid point s = 8·I + J holds the block of rows 256·I … 256·I + 255 and columns 256·J … 256·J + 255. Every element
  lies in exactly one block, so a sum over the array (in any commutative monoid) is the sum over the 64 grid points of
  the sums over the blocks.
-/
import Idealize.ShloMosaic.Lib.ValueIdx

namespace Cert.LibTile3

open Idealize.ShloMosaic Idealize.ShloMosaic.ValueIdx

/-- The indices of a rank-3 array of literal extents. -/
abbrev I3 (a b c : Nat) : Type := (⟨3, ![a, b, c]⟩ : Shape).Idx

theorem lt0 {a b c : Nat} (j : I3 a b c) : (j 0).val < a := (j 0).isLt
theorem lt1 {a b c : Nat} (j : I3 a b c) : (j 1).val < b := (j 1).isLt
theorem lt2 {a b c : Nat} (j : I3 a b c) : (j 2).val < c := (j 2).isLt

theorem ix3_val0 {a b c : Nat} (x : Fin a) (y : Fin b) (z : Fin c) : ((ix3 x y z : I3 a b c) 0).val = x.val := rfl
theorem ix3_val1 {a b c : Nat} (x : Fin a) (y : Fin b) (z : Fin c) : ((ix3 x y z : I3 a b c) 1).val = y.val := rfl
theorem ix3_val2 {a b c : Nat} (x : Fin a) (y : Fin b) (z : Fin c) : ((ix3 x y z : I3 a b c) 2).val = z.val := rfl

/-- Two indices with equal coordinates are equal. -/
theorem ext3 {a b c : Nat} (i j : I3 a b c) (h0 : (i 0).val = (j 0).val) (h1 : (i 1).val = (j 1).val) (h2 : (i 2).val = (j 2).val) : i = j := by
  funext d
  match d with
  | ⟨0, _⟩ => exact Fin.ext h0
  | ⟨1, _⟩ => exact Fin.ext h1
  | ⟨2, _⟩ => exact Fin.ext h2

/-- The element of the array that grid point `s` holds at block index `y`. -/
def tile (s : Fin 64) (y : I3 8 256 256) : I3 8 2048 2048 :=
  ix3 ⟨(y 0).val, lt0 y⟩ ⟨256 * (s.val / 8) + (y 1).val, by have := lt1 y; have := s.isLt; omega⟩
    ⟨256 * (s.val % 8) + (y 2).val, by have := lt2 y; omega⟩

theorem tile_val0 (s : Fin 64) (y : I3 8 256 256) : ((tile s y) 0).val = (y 0).val := rfl
theorem tile_val1 (s : Fin 64) (y : I3 8 256 256) : ((tile s y) 1).val = 256 * (s.val / 8) + (y 1).val := rfl
theorem tile_val2 (s : Fin 64) (y : I3 8 256 256) : ((tile s y) 2).val = 256 * (s.val % 8) + (y 2).val := rfl

/-- The grid point and the block index of an element. -/
def untile (i : I3 8 2048 2048) : Fin 64 × I3 8 256 256 :=
  (⟨8 * ((i 1).val / 256) + (i 2).val / 256, by have := lt1 i; have := lt2 i; omega⟩,
   ix3 ⟨(i 0).val, lt0 i⟩ ⟨(i 1).val % 256, by omega⟩ ⟨(i 2).val % 256, by omega⟩)

/-- Blocks and grid points against elements, one to one. -/
def tileEquiv : Fin 64 × I3 8 256 256 ≃ I3 8 2048 2048 where
  toFun p := tile p.1 p.2
  invFun := untile
  left_inv := by
    rintro ⟨s, y⟩
    have h0 := lt0 y; have h1 := lt1 y; have h2 := lt2 y; have hs := s.isLt
    refine Prod.ext (Fin.ext ?_) (ext3 _ _ ?_ ?_ ?_)
    · show 8 * ((256 * (s.val / 8) + (y 1).val) / 256) + (256 * (s.val % 8) + (y 2).val) / 256 = s.val
      omega
    · rfl
    · show (256 * (s.val / 8) + (y 1).val) % 256 = (y 1).val
      omega
    · show (256 * (s.val % 8) + (y 2).val) % 256 = (y 2).val
      omega
  right_inv := by
    intro i
    have h0 := lt0 i; have h1 := lt1 i; have h2 := lt2 i
    refine ext3 _ _ rfl ?_ ?_
    · show 256 * ((8 * ((i 1).val / 256) + (i 2).val / 256) / 8) + (i 1).val % 256 = (i 1).val
      omega
    · show 256 * ((8 * ((i 1).val / 256) + (i 2).val / 256) % 8) + (i 2).val % 256 = (i 2).val
      omega

/-- The sum over the array is the sum over the grid points of the sums over their blocks. -/
theorem sum_tiles {M : Type*} [AddCommMonoid M] (H : I3 8 2048 2048 → M) :
    ∑ s : Fin 64, ∑ y : I3 8 256 256, H (tile s y) = ∑ i : I3 8 2048 2048, H i := by
  rw [← Fintype.sum_prod_type' (fun s y => H (tile s y))]
  exact Fintype.sum_equiv tileEquiv _ _ (fun _ => rfl)

/-- A quantity that starts at `z + p 0` and grows by `p (n + 1)` at each step is `z` plus the sum of the steps. -/
theorem acc_eq_sum {M : Type*} [AddCommMonoid M] (z : M) (p : Nat → M) (f : Nat → M) (h0 : f 0 = z + p 0)
    (hs : ∀ n, f (n + 1) = f n + p (n + 1)) (n : Nat) : f n = z + ∑ s ∈ Finset.range (n + 1), p s := by
  induction n with
  | zero => rw [h0, Finset.sum_range_one]
  | succ n ih => rw [hs, ih, Finset.sum_range_succ _ (n + 1), add_assoc]

end Cert.LibTile3
-- ==== Proof.KI.Pay.lean ====
/-
  The body's arithmetic at the extended reals, read at an index. For one tile, with r and s the row and column blocks of
  the sigmoid array and w the tile of mask words:
    d(b,a,c)   = thr − |r(b,a) − s(b,c)|                                 the distance term
    less(b,a,c) = [d(b,a,c) < thr],   any(a,c) = [some b has less(b,a,c)]
    m(b,a,c)   = any(a,c) · [w(b,a,c) ≠ 0]                               as the real numbers 0 and 1
  and the tile's two partial sums are Σ d·m and Σ m over the tile's 8·256·256 elements. Each accumulator step adds the
  partial sum to what the accumulator held.
-/
import proofs.«176159_j6562710028536_1_alg».proof.Proof.Gen.KernelIdeal.Skeleton
import proofs.«176159_j6562710028536_1_alg».proof.Proof.LibRowOps
import proofs.«176159_j6562710028536_1_alg».proof.Proof.LibBits
import proofs.«176159_j6562710028536_1_alg».proof.Proof.LibWords
import proofs.«176159_j6562710028536_1_alg».proof.Proof.LibTile3
import Idealize.ShloMosaic.PureOps.Ideal.Laws
import Idealize.ShloMosaic.Lib.ValueIdx
import Idealize.ShloMosaic.Lib.Pipeline.Value

noncomputable section

open scoped BigOperators

namespace Cert.KernelIdeal.Pay

open Cert.KernelIdeal Cert.KernelIdeal.Gen
open Idealize.ShloMosaic Idealize.ShloMosaic.ValueIdx Cert.LibBits

/-- The threshold word. -/
abbrev thrW : EReal := Ideal.ofBits .f32 0x3F19999A#32

theorem zero_word : Ideal.ofBits .f32 0x00000000#32 = (0 : EReal) := Ideal.ofBits_zero_f32

/-! ## The layout steps, over variables -/

theorem row_apply (x1 : FVec Ideal S8x256 .f32) (b : Fin 8) (a c : Fin 256) :
    broadcastTo S8x256x256 (shapeCast S8x256x1 (shapeCast S8x256 x1 shapeCasts_S8x256_S8x256) shapeCasts_S8x256_S8x256x1)
      broadcasts_S8x256x1_S8x256x256 (ix3 b a c) = x1 (ix2 b a) :=
  (Cert.Lib.RowOps.mat_ac1_acb_apply _ shapeCasts_S8x256_S8x256x1 broadcasts_S8x256x1_S8x256x256 b a c).trans
    (congrFun (shapeCast_self x1 _) _)

theorem col_apply (x2 : FVec Ideal S8x256 .f32) (b : Fin 8) (a c : Fin 256) :
    broadcastTo S8x256x256 (shapeCast S8x1x256 (shapeCast S8x256 x2 shapeCasts_S8x256_S8x256) shapeCasts_S8x256_S8x1x256)
      broadcasts_S8x1x256_S8x256x256 (ix3 b a c) = x2 (ix2 b c) :=
  (Cert.Lib.RowOps.mat_a1b_acb_apply _ shapeCasts_S8x256_S8x1x256 broadcasts_S8x1x256_S8x256x256 b a c).trans
    (congrFun (shapeCast_self x2 _) _)

theorem plane_apply (v : FVec Ideal S256x256 .f32) (b : Fin 8) (a c : Fin 256) :
    broadcastTo S8x256x256 (shapeCast S1x256x256 v shapeCasts_S256x256_S1x256x256) broadcasts_S1x256x256_S8x256x256 (ix3 b a c)
      = v (ix2 a c) :=
  Cert.Lib.RowOps.mat_1cb_acb_apply v shapeCasts_S256x256_S1x256x256 broadcasts_S1x256x256_S8x256x256 b a c

/-- The index the maximum over the leading axis reads at its k-th term. -/
theorem lift0 (a c : Fin 256) (k : Fin 8) :
    (reduces_S8x256x256_S256x256 : S8x256x256.Reduces [0] S256x256).lift (ix2 a c) k = ix3 k a c := by
  funext d
  match d with
  | ⟨0, _⟩ => rfl
  | ⟨1, _⟩ => rfl
  | ⟨2, _⟩ => rfl

/-- A maximum over the leading axis from −inf, read at (a, c). -/
theorem maxLead_apply (v : FVec Ideal S8x256x256 .f32) (a c : Fin 256) :
    multiReduction .maximumf [0] S256x256 v 0xFF800000#32 reduces_S8x256x256_S256x256 (.inl rfl) rfl (ix2 a c)
      = (Finset.univ : Finset (Fin 8)).fold max (⊥ : EReal) (fun k => v (ix3 k a c)) := by
  refine (Ideal.multiReduction_maximumf_single v 0xFF800000#32 reduces_S8x256x256_S256x256 (.inl rfl) rfl (ix2 a c)).trans ?_
  rw [show (FloatOps.ofBits (F := Ideal) .f32 0xFF800000#32 : EReal) = ⊥ from Cert.Words.neg_inf_word]
  exact congrArg (fun g => (Finset.univ : Finset (Fin 8)).fold max (⊥ : EReal) g) (funext fun k => congrArg v (lift0 a c k))

/-- A sum over every element, through the rank-4 view with a leading unit axis, extracted as a scalar. -/
theorem total_apply (W : FVec Ideal S8x256x256 .f32) :
    extractAt ![0, 0, 0, 0]
        (shapeCast S1x1x1x1 (multiReduction .add [1, 2, 3] S1 (shapeCast S1x8x256x256 W shapeCasts_S8x256x256_S1x8x256x256) 0x00000000#32
          reduces_S1x8x256x256_S1 (.inl rfl) rfl) shapeCasts_S1_S1x1x1x1) inpos_S1x1x1x1_p0_0_0_0
      = ∑ y : S8x256x256.Idx, W y := by
  unfold extractAt shapeCast
  refine (Ideal.multiReduction_add_total _ 0x00000000#32 reduces_S1x8x256x256_S1
    (fun b => by match b with | ⟨0, _⟩ => rfl) (.inl rfl) rfl _).trans ?_
  exact Equiv.sum_comp (Shape.reshapeEquiv shapeCasts_S8x256x256_S1x8x256x256) W

/-! ## The payloads -/

/-- The distance term of the tile at (b, a, c). -/
def distT (x1 x2 : FVec Ideal S8x256 .f32) (b : Fin 8) (a c : Fin 256) : EReal :=
  thrW - max (x1 (ix2 b a) - x2 (ix2 b c)) (-(x1 (ix2 b a) - x2 (ix2 b c)))

/-- The threshold less the absolute difference of two arrays, at an index. -/
theorem thr_sub_abs_apply (T1 T2 : FVec Ideal S8x256x256 .f32) (i : S8x256x256.Idx) :
    subf (broadcast S8x256x256 (Scalar.ofBits (F := Ideal) .f32 0x3F19999A#32)) (absf (subf T1 T2)) i
      = thrW - max (T1 i - T2 i) (-(T1 i - T2 i)) := rfl

theorem pay5_apply (x1 x2 : FVec Ideal S8x256 .f32) (b : Fin 8) (a c : Fin 256) :
    k0_pay5 (F := Ideal) x1 x2 (ix3 b a c) = distT x1 x2 b a c := by
  unfold k0_pay5
  refine (thr_sub_abs_apply _ _ (ix3 b a c)).trans ?_
  rw [row_apply x1 b a c, col_apply x2 b a c]
  rfl

/-- "The distance term is below the threshold", as a bit. -/
def less (x1 x2 : FVec Ideal S8x256 .f32) (b : Fin 8) (a c : Fin 256) : BitVec 1 := Ideal.cmp .olt (distT x1 x2 b a c) thrW

/-- "Some batch entry's distance term is below the threshold", as a bit. -/
def anyLess (x1 x2 : FVec Ideal S8x256 .f32) (a c : Fin 256) : BitVec 1 := anyBit Finset.univ (fun k : Fin 8 => less x1 x2 k a c)

/-- "The mask word is not zero", as a bit. -/
def maskBit (x0 : IVec S8x256x256 32) (b : Fin 8) (a c : Fin 256) : BitVec 1 := IntOp.cmpi .ne (x0 (ix3 b a c)) 0#32

/-- The 0/1 weight of the tile at (b, a, c). -/
def weight (x1 x2 : FVec Ideal S8x256 .f32) (x0 : IVec S8x256x256 32) (b : Fin 8) (a c : Fin 256) : EReal :=
  (((anyLess x1 x2 a c).toNat : ℝ) : EReal) * (((maskBit x0 b a c).toNat : ℝ) : EReal)

/-- A plane spread over the batch axis times an array, at an index. -/
theorem mul_plane_apply (v26 : FVec Ideal S256x256 .f32) (v30 : FVec Ideal S8x256x256 .f32) (b : Fin 8) (a c : Fin 256) :
    mulf (broadcastTo S8x256x256 (shapeCast S1x256x256 v26 shapeCasts_S256x256_S1x256x256) broadcasts_S1x256x256_S8x256x256) v30 (ix3 b a c)
      = v26 (ix2 a c) * v30 (ix3 b a c) := by
  show _ * _ = _ * _
  rw [plane_apply]

/-- A bit array widened to words and converted to floats, at an index. -/
theorem sitofp_extui_apply {s : Shape} (v : IVec s 1) (i : s.Idx) :
    (sitofp (F := Ideal) .f32 (extui 32 v natLt_1_32) : FVec Ideal s .f32) i = (((v i).toNat : ℝ) : EReal) := sitofp_bit _

/-- "Greater than the zero word", at an index. -/
theorem cmp_gt0_apply (v22 : FVec Ideal S256x256 .f32) (a c : Fin 256) :
    cmpf .ogt v22 (broadcast S256x256 (Scalar.ofBits (F := Ideal) .f32 0x00000000#32)) (ix2 a c) = Ideal.cmp .ogt (v22 (ix2 a c)) 0 := by
  show Ideal.cmp .ogt _ (Ideal.ofBits .f32 0x00000000#32) = _
  rw [zero_word]

/-- The 1-or-0 selection by a bit array, at an index. -/
theorem select01_apply (v18 : IVec S8x256x256 1) (i : S8x256x256.Idx) :
    select v18 (broadcast S8x256x256 (Scalar.ofBits (F := Ideal) .f32 0x3F800000#32)) (broadcast S8x256x256 (Scalar.ofBits (F := Ideal) .f32 0x00000000#32)) i
      = Scalar.select (v18 i) (Ideal.ofBits .f32 0x3F800000#32 : EReal) (Ideal.ofBits .f32 0x00000000#32) := rfl

/-- "Below the threshold", at an index. -/
theorem cmp_lt_thr_apply (v16 : FVec Ideal S8x256x256 .f32) (i : S8x256x256.Idx) :
    cmpf .olt v16 (broadcast S8x256x256 (Scalar.ofBits (F := Ideal) .f32 0x3F19999A#32)) i = Ideal.cmp .olt (v16 i) thrW := rfl

/-- "The word is not zero", at an index. -/
theorem cmpi_ne0_apply (x0 : IVec S8x256x256 32) (i : S8x256x256.Idx) :
    cmpi .ne x0 (constantI S8x256x256 32 0#32) i = IntOp.cmpi .ne (x0 i) 0#32 := rfl

theorem pay6_apply (x1 x2 : FVec Ideal S8x256 .f32) (x0 : IVec S8x256x256 32) (b : Fin 8) (a c : Fin 256) :
    k0_pay6 (F := Ideal) x1 x2 x0 (ix3 b a c) = weight x1 x2 x0 b a c := by
  unfold k0_pay6
  refine (mul_plane_apply _ _ b a c).trans ?_
  unfold weight
  refine congrArg₂ (fun p q : EReal => p * q) ?_ ?_
  · refine (sitofp_extui_apply _ _).trans ?_
    refine congrArg (fun w : BitVec 1 => ((w.toNat : ℝ) : EReal)) ?_
    refine (cmp_gt0_apply _ a c).trans ?_
    rw [maxLead_apply]
    unfold anyLess
    refine Eq.trans ?_ ((cmp_fold_max_bits Finset.univ (fun k : Fin 8 => less x1 x2 k a c)
      (Ideal.ofBits .f32 0x3F800000#32) (Ideal.ofBits .f32 0x00000000#32) Cert.Net.one_word zero_word))
    refine congrArg (fun g => Ideal.cmp .ogt ((Finset.univ : Finset (Fin 8)).fold max (⊥ : EReal) g) 0) (funext fun k => ?_)
    refine (select01_apply _ (ix3 k a c)).trans ?_
    refine congrArg (fun w : BitVec 1 => Scalar.select w (Ideal.ofBits .f32 0x3F800000#32 : EReal) (Ideal.ofBits .f32 0x00000000#32)) ?_
    refine (cmp_lt_thr_apply _ (ix3 k a c)).trans ?_
    unfold less
    rw [pay5_apply]
  · refine (sitofp_extui_apply _ _).trans ?_
    rfl

/-- The tile's partial sum of distance terms times weights. -/
theorem pay7_eq (x1 x2 : FVec Ideal S8x256 .f32) (x0 : IVec S8x256x256 32) :
    k0_pay7 (F := Ideal) x1 x2 x0 = ∑ y : S8x256x256.Idx, k0_pay5 (F := Ideal) x1 x2 y * k0_pay6 (F := Ideal) x1 x2 x0 y := by
  unfold k0_pay7
  exact total_apply _

/-- An accumulator step on the sum of distance terms: what was there plus the tile's partial sum. -/
theorem pay1_apply (v38 : EReal) (v43 : FVec Ideal S1x1 .f32) (y : S1x1.Idx) : k0_pay1 (F := Ideal) v38 v43 y = v43 y + v38 := by
  unfold k0_pay1
  show (shapeCast S1x1 v43 shapeCasts_S1x1_S1x1) y + v38 = _
  rw [shapeCast_self]

/-- An accumulator step on the sum of weights. -/
theorem pay2_apply (v33 : FVec Ideal S8x256x256 .f32) (v48 : FVec Ideal S1x1 .f32) (y : S1x1.Idx) :
    k0_pay2 (F := Ideal) v33 v48 y = v48 y + ∑ z : S8x256x256.Idx, v33 z := by
  unfold k0_pay2
  show (shapeCast S1x1 v48 shapeCasts_S1x1_S1x1) y + _ = _
  rw [shapeCast_self, total_apply]
  rfl

theorem pay3_apply (y : S1x1.Idx) : k0_pay3 (F := Ideal) y = 0 := zero_word
theorem pay4_apply (y : S1x1.Idx) : k0_pay4 (F := Ideal) y = 0 := zero_word

end Cert.KernelIdeal.Pay

end
-- ==== Proof.KI.Acc.lean ====
/-
  The two accumulators after grid point n hold the sums, over the points 0 … n, of the tiles' partial sums: the first
  point stores zero plus its tile's sums, every later point adds its tile's sums to what the point before left.
-/
import proofs.«176159_j6562710028536_1_alg».proof.Proof.KI.Pieces
import proofs.«176159_j6562710028536_1_alg».proof.Proof.KI.Pay

set_option maxRecDepth 16384

noncomputable section

open scoped BigOperators

namespace Cert.KernelIdeal.Hand

open Cert.KernelIdeal Cert.KernelIdeal.Gen Cert.KernelIdeal.Pay
open Idealize.ShloMosaic Idealize.ShloMosaic.TcCoe Idealize.SL.Sem
open Idealize.ShloMosaic.Pipeline (Dat)

variable (V : (c : Dev nD) → (b : Ref sig .tc) → Buf (Elt Ideal) ((c : Thread nD τ).loc b))

/-- The tile's partial sum of distance terms times weights at grid point s (zero past the grid). -/
def P5 (c : Dev nD) (s : Nat) : EReal :=
  if h : s < cfg0.N then k0_pay7 (F := Ideal) (iblk V c 1 ⟨s, h⟩) (iblk V c 2 ⟨s, h⟩) (iblk V c 0 ⟨s, h⟩) else 0

/-- The tile's partial sum of weights at grid point s (zero past the grid). -/
def P6 (c : Dev nD) (s : Nat) : EReal :=
  if h : s < cfg0.N then ∑ z : S8x256x256.Idx, k0_pay6 (F := Ideal) (iblk V c 1 ⟨s, h⟩) (iblk V c 2 ⟨s, h⟩) (iblk V c 0 ⟨s, h⟩) z else 0

theorem acc5 (c : Dev nD) : ∀ (n : Nat) (h : n < cfg0.N) (y : S1x1.Idx),
    (outsAt V c n h).1 y = 0 + ∑ s ∈ Finset.range (n + 1), P5 V c s
  | 0, h, y => by
    have e1 : (outsAt V c 0 h).1 = _ := congrArg Prod.fst (outsAt_A V c ⟨0, h⟩ rfl)
    have hp : P5 V c 0 = _ := dif_pos h
    rw [e1, outA5_eq]
    show k0_pay1 (F := Ideal) _ _ y = _
    rw [pay1_apply, pay3_apply, Finset.sum_range_one, hp]
  | n + 1, h, y => by
    have e1 : (outsAt V c (n + 1) h).1 = _ := congrArg Prod.fst (outsAt_B V c ⟨n + 1, h⟩ (Nat.succ_ne_zero n))
    have hp : P5 V c (n + 1) = _ := dif_pos h
    rw [e1, outB5_eq]
    show k0_pay1 (F := Ideal) _ (outsAt V c n (Nat.lt_of_succ_lt h)).1 y = _
    rw [pay1_apply]
    rw [acc5 c n (Nat.lt_of_succ_lt h) y, Finset.sum_range_succ _ (n + 1), ← add_assoc, hp]

theorem acc6 (c : Dev nD) : ∀ (n : Nat) (h : n < cfg0.N) (y : S1x1.Idx),
    (outsAt V c n h).2 y = 0 + ∑ s ∈ Finset.range (n + 1), P6 V c s
  | 0, h, y => by
    have e1 : (outsAt V c 0 h).2 = _ := congrArg Prod.snd (outsAt_A V c ⟨0, h⟩ rfl)
    have hp : P6 V c 0 = _ := dif_pos h
    rw [e1, outA6_eq]
    show k0_pay2 (F := Ideal) _ _ y = _
    rw [pay2_apply, pay4_apply, Finset.sum_range_one, hp]
  | n + 1, h, y => by
    have e1 : (outsAt V c (n + 1) h).2 = _ := congrArg Prod.snd (outsAt_B V c ⟨n + 1, h⟩ (Nat.succ_ne_zero n))
    have hp : P6 V c (n + 1) = _ := dif_pos h
    rw [e1, outB6_eq]
    show k0_pay2 (F := Ideal) _ (outsAt V c n (Nat.lt_of_succ_lt h)).2 y = _
    rw [pay2_apply]
    rw [acc6 c n (Nat.lt_of_succ_lt h) y, Finset.sum_range_succ _ (n + 1), ← add_assoc, hp]

end Cert.KernelIdeal.Hand

end
-- ==== Proof.KI.Blocks.lean ====
/-
  The tiles against the whole arrays. Grid point t = 8·I + J reads rows 256·I … of the sigmoid array through the row
  window, columns 256·J … through the column window, and the (256·I, 256·J) tile of the mask words; so its tile's
  summands are the whole-array summands at the tile's elements, and the sums over the 64 tiles are the sums over the
  whole [8, 2048, 2048] index space.
-/
import proofs.«176159_j6562710028536_1_alg».proof.Proof.KI.Acc

set_option maxRecDepth 16384

noncomputable section

open scoped BigOperators

namespace Cert.KernelIdeal.Hand

open Cert.KernelIdeal Cert.KernelIdeal.Gen Cert.KernelIdeal.Pay
open Idealize.ShloMosaic Idealize.ShloMosaic.TcCoe Idealize.SL.Sem Idealize.ShloMosaic.ValueIdx
open Idealize.ShloMosaic.Pipeline (Dat)
open Cert.LibTile3 Cert.LibBits

/-! ## The whole-array summands -/

section Whole

variable (SG : (⟨2, ![8, 2048]⟩ : Shape).Idx → EReal) (MW : I3 8 2048 2048 → BitVec 32)

/-- The distance term at batch entry b, row r, column q. -/
def distF (b : Fin 8) (r q : Fin 2048) : EReal :=
  thrW - max (SG (ix2 b r) - SG (ix2 b q)) (-(SG (ix2 b r) - SG (ix2 b q)))
def lessF (b : Fin 8) (r q : Fin 2048) : BitVec 1 := Ideal.cmp .olt (distF SG b r q) thrW
def anyF (r q : Fin 2048) : BitVec 1 := anyBit Finset.univ (fun k : Fin 8 => lessF SG k r q)
def maskF (b : Fin 8) (r q : Fin 2048) : BitVec 1 := IntOp.cmpi .ne (MW (ix3 b r q)) 0#32
def weightF (b : Fin 8) (r q : Fin 2048) : EReal :=
  (((anyF SG r q).toNat : ℝ) : EReal) * (((maskF MW b r q).toNat : ℝ) : EReal)

/-- The coordinates of an index, as numbers below the literal extents. -/
def c0 (i : I3 8 2048 2048) : Fin 8 := ⟨(i 0).val, lt0 i⟩
def c1 (i : I3 8 2048 2048) : Fin 2048 := ⟨(i 1).val, lt1 i⟩
def c2 (i : I3 8 2048 2048) : Fin 2048 := ⟨(i 2).val, lt2 i⟩

/-- The kernel's summands over the whole index space. -/
def HK5 (i : I3 8 2048 2048) : EReal := distF SG (c0 i) (c1 i) (c2 i) * weightF SG MW (c0 i) (c1 i) (c2 i)
def HK6 (i : I3 8 2048 2048) : EReal := weightF SG MW (c0 i) (c1 i) (c2 i)

end Whole

/-! ## The windows' blocks at an index -/

variable (V : (c : Dev nD) → (b : Ref sig .tc) → Buf (Elt Ideal) ((c : Thread nD τ).loc b))

/-- The three input windows' block indices at every grid point. -/
theorem idx_facts : ∀ t : Fin cfg0.N,
    win0_0.index t (0 : Fin 3) = 0 ∧ win0_0.index t (1 : Fin 3) = t.val / 8 ∧ win0_0.index t (2 : Fin 3) = t.val % 8
    ∧ win0_1.index t (0 : Fin 2) = 0 ∧ win0_1.index t (1 : Fin 2) = t.val / 8
    ∧ win0_2.index t (0 : Fin 2) = 0 ∧ win0_2.index t (1 : Fin 2) = t.val % 8 :=
  (by decide +kernel : ∀ t : Fin grid0.N,
    win0_0.index t (0 : Fin 3) = 0 ∧ win0_0.index t (1 : Fin 3) = t.val / 8 ∧ win0_0.index t (2 : Fin 3) = t.val % 8
    ∧ win0_1.index t (0 : Fin 2) = 0 ∧ win0_1.index t (1 : Fin 2) = t.val / 8
    ∧ win0_2.index t (0 : Fin 2) = 0 ∧ win0_2.index t (1 : Fin 2) = t.val % 8)

theorem iblk1_apply (c : Dev nD) (t : Fin cfg0.N) (b : Fin 8) (a : Fin 256) (h : 256 * (t.val / 8) + a.val < 2048) :
    iblk V c 1 t (ix2 b a) = V c main_v19 (ix2 b ⟨256 * (t.val / 8) + a.val, h⟩) := by
  obtain ⟨e0, e1, e2, e3, e4, e5, e6⟩ := idx_facts t
  show V c main_v19 (((cfg0.win 1).blk t).view.emb (ix2 b a)) = V c main_v19 _
  refine congrArg (V c main_v19) ?_
  funext d; apply Fin.ext
  match d with
  | ⟨0, _⟩ => show win0_1.index t (0 : Fin 2) * 8 + 1 * b.val = b.val; omega
  | ⟨1, _⟩ => show win0_1.index t (1 : Fin 2) * 256 + 1 * a.val = 256 * (t.val / 8) + a.val; omega

theorem iblk2_apply (c : Dev nD) (t : Fin cfg0.N) (b : Fin 8) (a : Fin 256) (h : 256 * (t.val % 8) + a.val < 2048) :
    iblk V c 2 t (ix2 b a) = V c main_v19 (ix2 b ⟨256 * (t.val % 8) + a.val, h⟩) := by
  obtain ⟨e0, e1, e2, e3, e4, e5, e6⟩ := idx_facts t
  show V c main_v19 (((cfg0.win 2).blk t).view.emb (ix2 b a)) = V c main_v19 _
  refine congrArg (V c main_v19) ?_
  funext d; apply Fin.ext
  match d with
  | ⟨0, _⟩ => show win0_2.index t (0 : Fin 2) * 8 + 1 * b.val = b.val; omega
  | ⟨1, _⟩ => show win0_2.index t (1 : Fin 2) * 256 + 1 * a.val = 256 * (t.val % 8) + a.val; omega

theorem iblk0_apply (c : Dev nD) (t : Fin cfg0.N) (b : Fin 8) (a q : Fin 256) (h1 : 256 * (t.val / 8) + a.val < 2048)
    (h2 : 256 * (t.val % 8) + q.val < 2048) :
    iblk V c 0 t (ix3 b a q) = V c main_v20 (ix3 b ⟨256 * (t.val / 8) + a.val, h1⟩ ⟨256 * (t.val % 8) + q.val, h2⟩) := by
  obtain ⟨e0, e1, e2, e3, e4, e5, e6⟩ := idx_facts t
  show V c main_v20 (((cfg0.win 0).blk t).view.emb (ix3 b a q)) = V c main_v20 _
  refine congrArg (V c main_v20) ?_
  funext d; apply Fin.ext
  match d with
  | ⟨0, _⟩ => show win0_0.index t (0 : Fin 3) * 8 + 1 * b.val = b.val; omega
  | ⟨1, _⟩ => show win0_0.index t (1 : Fin 3) * 256 + 1 * a.val = 256 * (t.val / 8) + a.val; omega
  | ⟨2, _⟩ => show win0_0.index t (2 : Fin 3) * 256 + 1 * q.val = 256 * (t.val % 8) + q.val; omega

/-! ## A tile's summands are the whole-array summands at the tile's elements -/

theorem tile_dist (c : Dev nD) (t : Fin cfg0.N) (ht : t.val < 64) (b : Fin 8) (a q : Fin 256) :
    distT (iblk V c 1 t) (iblk V c 2 t) b a q
      = distF (V c main_v19) (c0 (tile ⟨t.val, ht⟩ (ix3 b a q))) (c1 (tile ⟨t.val, ht⟩ (ix3 b a q))) (c2 (tile ⟨t.val, ht⟩ (ix3 b a q))) := by
  unfold distT distF
  rw [iblk1_apply V c t b a (by have := a.isLt; omega), iblk2_apply V c t b q (by have := q.isLt; omega)]
  rfl

theorem tile_weight (c : Dev nD) (t : Fin cfg0.N) (ht : t.val < 64) (b : Fin 8) (a q : Fin 256) :
    weight (iblk V c 1 t) (iblk V c 2 t) (iblk V c 0 t) b a q
      = weightF (V c main_v19) (V c main_v20) (c0 (tile ⟨t.val, ht⟩ (ix3 b a q))) (c1 (tile ⟨t.val, ht⟩ (ix3 b a q)))
          (c2 (tile ⟨t.val, ht⟩ (ix3 b a q))) := by
  unfold weight weightF anyLess anyF maskBit maskF less lessF
  rw [iblk0_apply V c t b a q (by have := a.isLt; omega) (by have := q.isLt; omega)]
  refine congrArg₂ (fun (u w : BitVec 1) => (((u.toNat : ℝ) : EReal)) * (((w.toNat : ℝ) : EReal))) ?_ rfl
  refine congrArg (anyBit Finset.univ) (funext fun k => ?_)
  rw [tile_dist V c t ht k a q]
  rfl

theorem tile5 (c : Dev nD) (t : Fin cfg0.N) (ht : t.val < 64) (y : S8x256x256.Idx) :
    k0_pay5 (F := Ideal) (iblk V c 1 t) (iblk V c 2 t) y * k0_pay6 (F := Ideal) (iblk V c 1 t) (iblk V c 2 t) (iblk V c 0 t) y
      = HK5 (V c main_v19) (V c main_v20) (tile ⟨t.val, ht⟩ y) := by
  obtain ⟨b, a, q, rfl⟩ : ∃ (b : Fin 8) (a q : Fin 256), y = ix3 b a q := ⟨y 0, y 1, y 2, eq_ix3 y⟩
  rw [pay5_apply, pay6_apply, tile_dist V c t ht, tile_weight V c t ht]
  rfl

theorem tile6 (c : Dev nD) (t : Fin cfg0.N) (ht : t.val < 64) (y : S8x256x256.Idx) :
    k0_pay6 (F := Ideal) (iblk V c 1 t) (iblk V c 2 t) (iblk V c 0 t) y
      = HK6 (V c main_v19) (V c main_v20) (tile ⟨t.val, ht⟩ y) := by
  obtain ⟨b, a, q, rfl⟩ : ∃ (b : Fin 8) (a q : Fin 256), y = ix3 b a q := ⟨y 0, y 1, y 2, eq_ix3 y⟩
  rw [pay6_apply, tile_weight V c t ht]
  rfl

/-! ## The sums over the 64 tiles are the sums over the whole index space -/

theorem sum_P5 (c : Dev nD) : ∑ s ∈ Finset.range 64, P5 V c s = ∑ i : I3 8 2048 2048, HK5 (V c main_v19) (V c main_v20) i := by
  rw [Finset.sum_range, ← sum_tiles]
  refine Finset.sum_congr rfl fun s _ => ?_
  have hs : s.val < cfg0.N := lt_of_lt_of_eq s.isLt N_0.symm
  unfold P5
  rw [dif_pos hs, pay7_eq]
  exact Finset.sum_congr rfl fun y _ => tile5 V c ⟨s.val, hs⟩ s.isLt y

theorem sum_P6 (c : Dev nD) : ∑ s ∈ Finset.range 64, P6 V c s = ∑ i : I3 8 2048 2048, HK6 (V c main_v19) (V c main_v20) i := by
  rw [Finset.sum_range, ← sum_tiles]
  refine Finset.sum_congr rfl fun s _ => ?_
  have hs : s.val < cfg0.N := lt_of_lt_of_eq s.isLt N_0.symm
  unfold P6
  rw [dif_pos hs]
  exact Finset.sum_congr rfl fun y _ => tile6 V c ⟨s.val, hs⟩ s.isLt y

end Cert.KernelIdeal.Hand

end
-- ==== Proof.KI.KFinal.lean ====
/-
  The two 1x1 result arrays after the run: only the last grid point writes them back, and by then the accumulators hold zero plus the sums of the whole-array summands.
-/
import proofs.«176159_j6562710028536_1_alg».proof.Proof.KI.Blocks

set_option maxRecDepth 16384

noncomputable section

open scoped BigOperators

namespace Cert.KernelIdeal.Hand

open Cert.KernelIdeal Cert.KernelIdeal.Gen
open Idealize.ShloMosaic Idealize.ShloMosaic.TcCoe Idealize.SL.Sem
open Idealize.ShloMosaic.Pipeline (Dat)
open Cert.KernelIdeal.Pay Idealize.ShloMosaic.ValueIdx Cert.LibTile3 Cert.LibBits

section Final

variable (V : (c : Dev nD) → (b : Ref sig .tc) → Buf (Elt Ideal) ((c : Thread nD τ).loc b))

attribute [local irreducible] outsAt

theorem idx_out_facts : ∀ t : Fin cfg0.N,
    win0_3.index t (0 : Fin 2) = 0 ∧ win0_3.index t (1 : Fin 2) = 0 ∧ win0_4.index t (0 : Fin 2) = 0 ∧ win0_4.index t (1 : Fin 2) = 0 :=
  (by decide +kernel : ∀ t : Fin grid0.N,
    win0_3.index t (0 : Fin 2) = 0 ∧ win0_3.index t (1 : Fin 2) = 0 ∧ win0_4.index t (0 : Fin 2) = 0 ∧ win0_4.index t (1 : Fin 2) = 0)

theorem mem_blk3 (t : Fin cfg0.N) (i : S1x1.Idx) : i ∈ ((cfg0.win 3).blk t).view.set := by
  show i ∈ ((View.whole main_v21_0).slice (win0_3.rect t)).set
  rw [View.set_slice_whole, Rect.mem_set_unit]
  obtain ⟨e0, e1, e2, e3⟩ := idx_out_facts t
  intro a
  match a with
  | ⟨0, _⟩ =>
    show win0_3.index t (0 : Fin 2) * 1 ≤ (i 0).val ∧ (i 0).val < win0_3.index t (0 : Fin 2) * 1 + 1
    have h : (i 0).val < 1 := (i 0).isLt
    omega
  | ⟨1, _⟩ =>
    show win0_3.index t (1 : Fin 2) * 1 ≤ (i 1).val ∧ (i 1).val < win0_3.index t (1 : Fin 2) * 1 + 1
    have h : (i 1).val < 1 := (i 1).isLt
    omega

theorem mem_blk4 (t : Fin cfg0.N) (i : S1x1.Idx) : i ∈ ((cfg0.win 4).blk t).view.set := by
  show i ∈ ((View.whole main_v21_1).slice (win0_4.rect t)).set
  rw [View.set_slice_whole, Rect.mem_set_unit]
  obtain ⟨e0, e1, e2, e3⟩ := idx_out_facts t
  intro a
  match a with
  | ⟨0, _⟩ =>
    show win0_4.index t (0 : Fin 2) * 1 ≤ (i 0).val ∧ (i 0).val < win0_4.index t (0 : Fin 2) * 1 + 1
    have h : (i 0).val < 1 := (i 0).isLt
    omega
  | ⟨1, _⟩ =>
    show win0_4.index t (1 : Fin 2) * 1 ≤ (i 1).val ∧ (i 1).val < win0_4.index t (1 : Fin 2) * 1 + 1
    have h : (i 1).val < 1 := (i 1).isLt
    omega

theorem last_lt : 63 < cfg0.N := lt_of_lt_of_eq (by decide : 63 < 64) N_0.symm

/-- If the first accumulator's buffer holds X after the last grid point, the first result array ends holding X: only the
    last point writes it back, and its block, read through zero offsets, is the whole array. -/
theorem final3_gen (c : Dev nD) (t₀ : Fin cfg0.N) (h₀ : t₀.val = 63) (X : Vec Ideal S1x1 .f32) (hX : (dat0 V c).after 3 t₀ = X) :
    (dat0 V c).arrAt 3 cfg0.N = X := by
  refine (dat0 V c).arrAt_eq_of_cover 3 X (fun t hf => ?_) (fun i => ⟨⟨63, last_lt⟩, (flush0_3 _).mpr rfl, mem_blk3 _ i⟩)
  obtain ⟨e0, e1, e2, e3⟩ := idx_out_facts t
  have hz' : (fun a => win0_3.index t a * main_v21_0.ty.shape.size a) = fun _ => 0 := funext fun a => by
    match a with
    | ⟨0, _⟩ => show win0_3.index t (0 : Fin 2) * 1 = 0; omega
    | ⟨1, _⟩ => show win0_3.index t (1 : Fin 2) * 1 = 0; omega
  have ht : t = t₀ := Fin.ext (by have := (flush0_3 t).mp hf; have := lt_of_lt_of_eq t.isLt N_0; omega)
  show (cfg0.win 3).cut (grid0.coords t) ((dat0 V c).after 3 t) = _
  rw [ht, hX]
  rw [ht] at hz'
  exact (Memref.read_access_unit_zero (Elt Ideal) main_v21_0 hz' (fun a => by rw [congrFun hz' a]; simp) X).symm

theorem final4_gen (c : Dev nD) (t₀ : Fin cfg0.N) (h₀ : t₀.val = 63) (X : Vec Ideal S1x1 .f32) (hX : (dat0 V c).after 4 t₀ = X) :
    (dat0 V c).arrAt 4 cfg0.N = X := by
  refine (dat0 V c).arrAt_eq_of_cover 4 X (fun t hf => ?_) (fun i => ⟨⟨63, last_lt⟩, (flush0_4 _).mpr rfl, mem_blk4 _ i⟩)
  obtain ⟨e0, e1, e2, e3⟩ := idx_out_facts t
  have hz' : (fun a => win0_4.index t a * main_v21_1.ty.shape.size a) = fun _ => 0 := funext fun a => by
    match a with
    | ⟨0, _⟩ => show win0_4.index t (0 : Fin 2) * 1 = 0; omega
    | ⟨1, _⟩ => show win0_4.index t (1 : Fin 2) * 1 = 0; omega
  have ht : t = t₀ := Fin.ext (by have := (flush0_4 t).mp hf; have := lt_of_lt_of_eq t.isLt N_0; omega)
  show (cfg0.win 4).cut (grid0.coords t) ((dat0 V c).after 4 t) = _
  rw [ht, hX]
  rw [ht] at hz'
  exact (Memref.read_access_unit_zero (Elt Ideal) main_v21_1 hz' (fun a => by rw [congrFun hz' a]; simp) X).symm

/-- The result arrays after the run, over the last grid point as a variable. -/
theorem final3_n (c : Dev nD) (t₀ : Fin cfg0.N) (h₀ : t₀.val = 63) :
    (dat0 V c).arrAt 3 cfg0.N = fun _ => 0 + ∑ s ∈ Finset.range (t₀.val + 1), P5 V c s :=
  (final3_gen V c t₀ h₀ _ (after_3 V c t₀)).trans (funext fun y => acc5 V c t₀.val t₀.isLt y)

theorem final4_n (c : Dev nD) (t₀ : Fin cfg0.N) (h₀ : t₀.val = 63) :
    (dat0 V c).arrAt 4 cfg0.N = fun _ => 0 + ∑ s ∈ Finset.range (t₀.val + 1), P6 V c s :=
  (final4_gen V c t₀ h₀ _ (after_4 V c t₀)).trans (funext fun y => acc6 V c t₀.val t₀.isLt y)

/-- The first result array after the run: zero plus the sum of distance terms times weights over the whole index space. -/
theorem final3 (c : Dev nD) :
    (dat0 V c).arrAt 3 cfg0.N = fun _ => 0 + ∑ i : I3 8 2048 2048, HK5 (V c main_v19) (V c main_v20) i := by
  rw [final3_n V c ⟨63, last_lt⟩ rfl, ← sum_P5 V c]

/-- The second result array after the run: zero plus the sum of the weights over the whole index space. -/
theorem final4 (c : Dev nD) :
    (dat0 V c).arrAt 4 cfg0.N = fun _ => 0 + ∑ i : I3 8 2048 2048, HK6 (V c main_v19) (V c main_v20) i := by
  rw [final4_n V c ⟨63, last_lt⟩ rfl, ← sum_P6 V c]

end Final

end Cert.KernelIdeal.Hand

end
-- ==== Proof.KI.Arrays.lean ====
/-
  The windows' arrays when two windows read ONE array. The pipeline has five windows on four buffers: the mask, the
  sigmoid row array (read by the row window and by the column window), and the two 1x1 results. At the region's
  entry the four buffers, whole at the full share, are dealt to the five windows — the shared array half to each of
  its two windows —, and at its exit the two halves (both still at the entry contents: an input array is never
  written) are joined again.
-/
import proofs.«176159_j6562710028536_1_alg».proof.Proof.KI.Data
import Idealize.ShloMosaic.Lib.Pipeline.Regions
import Idealize.ShloMosaic.Lib.Pipeline.FrameSuffix

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.Pipeline (arrRef arrBufs unscopedRest)

variable (V : (c : Dev nD) → (b : Ref sig .tc) → Buf (Elt F) ((c : Thread nD τ).loc b))

/-- The buffers behind the five windows: four. -/
theorem image_arrRef : (Finset.univ.image (arrRef spec0) : Finset (Ref sig .tc)) = {main_v20, main_v19, main_v21_0, main_v21_1} := by decide

/-- The pipeline's arrays at contents `A`, window by window, each at its share. -/
theorem arrays_chain (c : Dev nD) (A : (w : Fin cfg0.W) → Buf (Elt F) ((cfg0.win w).arr.view.loc (c : Thread nD τ))) :
    ((dat0 V c).arrays A : sProp 𝕄)
      = iprop((((c : Thread nD τ).loc main_v20) ↦{fullShare} A 0) ∗ (((c : Thread nD τ).loc main_v19) ↦{fullShare.left} A 1)
          ∗ (((c : Thread nD τ).loc main_v19) ↦{fullShare.right} A 2) ∗ (((c : Thread nD τ).loc main_v21_0) ↦{fullShare} A 3)
          ∗ (((c : Thread nD τ).loc main_v21_1) ↦{fullShare} A 4)) := by
  unfold Dat.arrays
  rw [bigSep_W0, (arr_whole0 0).set_eq_univ, (arr_whole0 1).set_eq_univ, (arr_whole0 3).set_eq_univ, (arr_whole0 4).set_eq_univ]
  rfl

/-- The four buffers at a valuation, one by one. -/
theorem arrBufs_chain (c : Dev nD) (W : (b : Ref sig .tc) → Buf (Elt F) ((c : Thread nD τ).loc b)) :
    (arrBufs (Ix := Unit) (Name := ℕ) (U := UR sig nD τ) (Lvl := ℕ) spec0 c W : sProp 𝕄)
      = iprop((((c : Thread nD τ).loc main_v20) ↦{fullShare} W main_v20) ∗ (((c : Thread nD τ).loc main_v19) ↦{fullShare} W main_v19)
          ∗ (((c : Thread nD τ).loc main_v21_0) ↦{fullShare} W main_v21_0) ∗ (((c : Thread nD τ).loc main_v21_1) ↦{fullShare} W main_v21_1)) := by
  unfold arrBufs
  rw [image_arrRef, bigSep_insert (by decide), bigSep_insert (by decide), bigSep_insert (by decide), bigSep_singleton]
  rfl

/-- ENTRY: the four buffers at the entry contents are the five windows' arrays at the proof data's entry contents. -/
theorem arrays_of_arrBufs (c : Dev nD) :
    (arrBufs (Ix := Unit) (Name := ℕ) (U := UR sig nD τ) (Lvl := ℕ) spec0 c (V c) : sProp 𝕄) ⊢ (dat0 V c).arrays ((dat0 V c).arrAt · 0) := by
  rw [arrBufs_chain c (V c), arrays_chain V c]
  iintro ⟨H0, H1, H3, H4⟩
  ihave H := (pointsTo_share (PosShare.mem_left_op_right fullShare)).1 $$ H1
  icases H with ⟨Hl, Hr⟩
  isplitl [H0]; · iexact H0
  isplitl [Hl]; · iexact Hl
  isplitl [Hr]; · iexact Hr
  isplitl [H3]; · iexact H3
  iexact H4

/-- EXIT: the five windows' arrays at their final contents are the four buffers at any valuation that has the two
    results at their final contents and the two input arrays at their entry contents. -/
theorem arrBufs_of_arrays (c : Dev nD) (W' : (b : Ref sig .tc) → Buf (Elt F) ((c : Thread nD τ).loc b))
    (h0 : W' main_v20 = V c main_v20) (h1 : W' main_v19 = V c main_v19)
    (h3 : W' main_v21_0 = (dat0 V c).arrAt 3 cfg0.N) (h4 : W' main_v21_1 = (dat0 V c).arrAt 4 cfg0.N) :
    ((dat0 V c).arrays ((dat0 V c).arrAt · cfg0.N) : sProp 𝕄) ⊢ arrBufs (Ix := Unit) (Name := ℕ) (U := UR sig nD τ) (Lvl := ℕ) spec0 c W' := by
  rw [arrBufs_chain c W', arrays_chain V c, h0, h1, h3, h4,
    show (dat0 V c).arrAt 0 cfg0.N = V c main_v20 from ((dat0 V c).arrAt_in 0 rfl _).trans (A_eq V c 0),
    show (dat0 V c).arrAt 1 cfg0.N = V c main_v19 from ((dat0 V c).arrAt_in 1 rfl _).trans (A_eq V c 1),
    show (dat0 V c).arrAt 2 cfg0.N = V c main_v19 from ((dat0 V c).arrAt_in 2 rfl _).trans (A_eq V c 2)]
  iintro ⟨H0, Hl, Hr, H3, H4⟩
  isplitl [H0]; · iexact H0
  isplitl [Hl Hr]
  · iapply (pointsTo_share (PosShare.mem_left_op_right fullShare)).2
    isplitl [Hl] <;> iassumption
  isplitl [H3]; · iexact H3
  iexact H4

end Cert.KernelIdeal.Hand

end
-- ==== Proof.KI.Frame.lean ====
/-
  The run of @main as a list of segments: four stretches of host operations (the pull term, the sigmoid row array,
  the mask widened to 32-bit words), the one kernel region, three stretches of host operations (the two 1x1 results
  reshaped, the guarded quotient, the two unit factors). Between two segments a core holds every unscoped buffer whole at
  the contents the segments so far leave; the region takes its four arrays out of them and puts them back with the two
  results at what its last grid point wrote. The run's post names the two result buffers' contents and says the five
  argument arrays end as launched.
-/
import proofs.«176159_j6562710028536_1_alg».proof.Proof.KI.Arrays
import Idealize.ShloMosaic.Lib.Pipeline.RegionsLoop

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.Pipeline (arrRef arrBufs unscopedRest)

variable (m : (ℓ : Loc nD τ sig) → Buf (Elt F) ℓ) (ρ : Dev nD → PrngReg)

/-! ## The buffers' contents at each segment boundary -/

abbrev W0 : Dev nD → Valuation τ sig (Elt F) := fun c b => (s₀ m ρ).mem ((c : Dev nD), b)
abbrev W1 : Dev nD → Valuation τ sig (Elt F) := fun c => StableHlo.after hostOps0 (W0 m ρ c)
abbrev W2 : Dev nD → Valuation τ sig (Elt F) := fun c => StableHlo.after hostOps0_1 (W1 m ρ c)
abbrev W3 : Dev nD → Valuation τ sig (Elt F) := fun c => StableHlo.after hostOps0_2 (W2 m ρ c)
abbrev W4 : Dev nD → Valuation τ sig (Elt F) := fun c => StableHlo.after hostOps0_3 (W3 m ρ c)
/-- The same read at the TensorCore's references: what the region's proof data take. -/
abbrev V4 : (c : Dev nD) → (b : Ref sig .tc) → Buf (Elt F) ((c : Thread nD τ).loc b) := fun c b => W4 m ρ c b
/-- At the region's exit: the two results at what the pipeline leaves, every other buffer as entered. -/
def W5 (c : Dev nD) : Valuation τ sig (Elt F) :=
  Function.update (Function.update (W4 m ρ c) (Proc.devRef .tc main_v21_0) ((dat0 (V4 m ρ) c).arrAt 3 cfg0.N))
    (Proc.devRef .tc main_v21_1) ((dat0 (V4 m ρ) c).arrAt 4 cfg0.N)
abbrev V5 : (c : Dev nD) → (b : Ref sig .tc) → Buf (Elt F) ((c : Thread nD τ).loc b) := fun c b => W5 m ρ c b
abbrev W6 : Dev nD → Valuation τ sig (Elt F) := fun c => StableHlo.after hostOps1 (W5 m ρ c)
abbrev W7 : Dev nD → Valuation τ sig (Elt F) := fun c => StableHlo.after hostOps1_1 (W6 m ρ c)
abbrev W8 : Dev nD → Valuation τ sig (Elt F) := fun c => StableHlo.after hostOps1_2 (W7 m ρ c)

theorem W5_v4 (c : Dev nD) : W5 m ρ c (Proc.devRef .tc main_v21_1) = (dat0 (V4 m ρ) c).arrAt 4 cfg0.N := by
  unfold W5; exact Function.update_self ..
theorem W5_v3 (c : Dev nD) : W5 m ρ c (Proc.devRef .tc main_v21_0) = (dat0 (V4 m ρ) c).arrAt 3 cfg0.N := by
  unfold W5
  rw [Function.update_of_ne (StableHlo.devRef_ne_of_ne (by decide) : (Proc.devRef .tc main_v21_0 : DevRef τ sig) ≠ Proc.devRef .tc main_v21_1)]
  exact Function.update_self ..
theorem W5_of_ne (c : Dev nD) (b : Ref sig .tc) (h3 : b ≠ main_v21_0) (h4 : b ≠ main_v21_1) :
    W5 m ρ c (Proc.devRef .tc b) = W4 m ρ c (Proc.devRef .tc b) := by
  unfold W5
  rw [Function.update_of_ne (StableHlo.devRef_ne_of_ne h4), Function.update_of_ne (StableHlo.devRef_ne_of_ne h3)]

/-! ## No stretch writes an argument -/

theorem not_written (b : Ref sig .tc) (ops : List (HloOp τ sig (Elt F))) (W : List (Ref sig .tc))
    (hW : ops.Forall fun op => op.writes ⊆ (W.map (Proc.devRef (τ := τ) .tc)).toFinset) (hb : b ∉ W) (V : Valuation τ sig (Elt F)) :
    StableHlo.after ops V (Proc.devRef .tc b) = V (Proc.devRef .tc b) :=
  StableHlo.after_of_writes_sub ops V hW hb

abbrev hostOps0_W : List (Ref sig .tc) := [main_v0, main_v1, main_cst, main_v2, main_v3, main_cst_0, main_v4, main_v5]
abbrev hostOps0_1_W : List (Ref sig .tc) := [main_v6]
abbrev hostOps0_2_W : List (Ref sig .tc) := [main_call1_cst, main_call1_v0, main_call1_v1, main_call1_v2, main_call1_v3, main_call1_v4, main_call1_v5, main_call1_v6, main_call1_v7, main_call1_v8, main_call1_v9, main_call1_v10, main_call1_v11, main_v7]
abbrev hostOps0_3_W : List (Ref sig .tc) := [main_v8, main_v9, main_v10, main_cst_1, main_v11, main_cst_2, main_v12, main_v13, main_v14, main_v15, main_cst_3, main_v16, main_v17, main_cst_4, main_v18, main_v19, main_v20]
abbrev hostOps1_W : List (Ref sig .tc) := [main_v22, main_v23, main_cst_5, main_v24, main_v25, main_cst_6]
abbrev hostOps1_1_W : List (Ref sig .tc) := [main_v26]
abbrev hostOps1_2_W : List (Ref sig .tc) := [main_cst_7, main_v27, main_cst_8, main_v28]

macro "writes_tac" : tactic => `(tactic| (simp only [List.Forall]; (repeat' apply And.intro) <;> (first | exact (by simp only [StableHlo.nullary_writes, StableHlo.unary_writes, StableHlo.binary_writes, StableHlo.ternary_writes, StableHlo.reshape_writes, Finset.singleton_subset_iff, List.mem_toFinset]; exact List.mem_map_of_mem (by decide)) | exact (by show ({_} : Finset _) ⊆ _; simp only [Finset.singleton_subset_iff, List.mem_toFinset]; exact List.mem_map_of_mem (by decide)))))

theorem hostOps0_writes : (hostOps0 : List (HloOp τ sig (Elt F))).Forall fun op => op.writes ⊆ (hostOps0_W.map (Proc.devRef (τ := τ) .tc)).toFinset := by writes_tac
theorem hostOps0_1_writes : (hostOps0_1 : List (HloOp τ sig (Elt F))).Forall fun op => op.writes ⊆ (hostOps0_1_W.map (Proc.devRef (τ := τ) .tc)).toFinset := by writes_tac
theorem hostOps0_2_writes : (hostOps0_2 : List (HloOp τ sig (Elt F))).Forall fun op => op.writes ⊆ (hostOps0_2_W.map (Proc.devRef (τ := τ) .tc)).toFinset := by writes_tac
theorem hostOps0_3_writes : (hostOps0_3 : List (HloOp τ sig (Elt F))).Forall fun op => op.writes ⊆ (hostOps0_3_W.map (Proc.devRef (τ := τ) .tc)).toFinset := by writes_tac
theorem hostOps1_writes : (hostOps1 : List (HloOp τ sig (Elt F))).Forall fun op => op.writes ⊆ (hostOps1_W.map (Proc.devRef (τ := τ) .tc)).toFinset := by writes_tac
theorem hostOps1_1_writes : (hostOps1_1 : List (HloOp τ sig (Elt F))).Forall fun op => op.writes ⊆ (hostOps1_1_W.map (Proc.devRef (τ := τ) .tc)).toFinset := by writes_tac
theorem hostOps1_2_writes : (hostOps1_2 : List (HloOp τ sig (Elt F))).Forall fun op => op.writes ⊆ (hostOps1_2_W.map (Proc.devRef (τ := τ) .tc)).toFinset := by writes_tac

/-- A buffer no stretch writes and the region does not return holds at the end what it held at launch. -/
theorem W8_kept (c : Dev nD) (b : Ref sig .tc) (h0 : b ∉ hostOps0_W) (h1 : b ∉ hostOps0_1_W) (h2 : b ∉ hostOps0_2_W) (h3 : b ∉ hostOps0_3_W)
    (h5a : b ≠ main_v21_0) (h5b : b ≠ main_v21_1) (h6 : b ∉ hostOps1_W) (h7 : b ∉ hostOps1_1_W) (h8 : b ∉ hostOps1_2_W) :
    W8 m ρ c (Proc.devRef .tc b) = m ((c : Thread nD τ).loc b) :=
  calc W8 m ρ c (Proc.devRef .tc b)
    _ = W7 m ρ c (Proc.devRef .tc b) := not_written b _ _ hostOps1_2_writes h8 _
    _ = W6 m ρ c (Proc.devRef .tc b) := not_written b _ _ hostOps1_1_writes h7 _
    _ = W5 m ρ c (Proc.devRef .tc b) := not_written b _ _ hostOps1_writes h6 _
    _ = W4 m ρ c (Proc.devRef .tc b) := W5_of_ne m ρ c b h5a h5b
    _ = W3 m ρ c (Proc.devRef .tc b) := not_written b _ _ hostOps0_3_writes h3 _
    _ = W2 m ρ c (Proc.devRef .tc b) := not_written b _ _ hostOps0_2_writes h2 _
    _ = W1 m ρ c (Proc.devRef .tc b) := not_written b _ _ hostOps0_1_writes h1 _
    _ = W0 m ρ c (Proc.devRef .tc b) := not_written b _ _ hostOps0_writes h0 _
    _ = m ((c : Thread nD τ).loc b) := rfl

/-! ## The proof data family and the thread state -/

abbrev adm : (p : Fin 1) → (pcfgs (F := F) p).Adm := fun p => (cfgs p).toPCfg_adm
def pdats : (p : Fin 1) → (c : Dev nD) → Dat τ (Elt F) Unit ℕ (UR sig nD τ) ℕ (Pipeline.pin (pcfgs (F := F)) adm p) c
  | ⟨0, _⟩ => fun c => dat0 (V4 m ρ) c
abbrev 𝒱₀ : Variants := Variants.none
abbrev L : GSem nD τ sig → Finset Unit := fun _ => ∅
abbrev lv : GSem nD τ sig → Unit → ℕ := fun _ _ => 0
/-- What rides beside the buffers through every segment: the generator register at some state and the core's dues, none. -/
abbrev R (c : Dev nD) : sProp 𝕄 := iprop((∃ r, prngReg c r) ∗ ∃ W, owes (c : Thread nD τ) (0 : CellTallies nD τ sig Unit) W)

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

abbrev Tₙ (c : Dev nD) : sProp 𝕄 := iprop(StableHlo.held (c : Thread nD τ) (Pipeline.ucRefs τ sig) (W8 m ρ c) ∗ ∃ r, prngReg c r)

/-! ## The region's entry and exit over the unscoped buffers -/

/-- ENTRY: every unscoped buffer at the entry contents is the windows' arrays at the proof data's entry contents and
    the unscoped rest. -/
theorem entry_split (c : Dev nD) :
    (StableHlo.held (c : Thread nD τ) (Pipeline.ucRefs τ sig) (W4 m ρ c) : sProp 𝕄)
      ⊢ iprop((dat0 (V4 m ρ) c).arrays ((dat0 (V4 m ρ) c).arrAt · 0)
          ∗ unscopedRest (Ix := Unit) (Name := ℕ) (U := UR sig nD τ) (Lvl := ℕ) spec0 c (V4 m ρ c)) := by
  rw [← Pipeline.unscopedBufs_held (Ix := Unit) (Name := ℕ) (U := UR sig nD τ) (Lvl := ℕ) c (W4 m ρ c),
    Pipeline.unscopedBufs_split₀ cfgs (0 : Fin 1) winFacts₀0.arr_unscoped c]
  exact sep_mono (arrays_of_arrBufs (V4 m ρ) c) .rfl

/-- Off the four arrays the exit contents are the entry contents. -/
theorem rest_eq (c : Dev nD) :
    (unscopedRest (Ix := Unit) (Name := ℕ) (U := UR sig nD τ) (Lvl := ℕ) spec0 c (V4 m ρ c) : sProp 𝕄)
      = unscopedRest (Ix := Unit) (Name := ℕ) (U := UR sig nD τ) (Lvl := ℕ) spec0 c (V5 m ρ c) := by
  unfold unscopedRest
  refine bigSep_congr fun b hb => ?_
  have hb' : b ∉ ({main_v20, main_v19, main_v21_0, main_v21_1} : Finset (Ref sig .tc)) := by
    rw [← image_arrRef]; exact (Finset.mem_sdiff.mp hb).2
  simp only [Finset.mem_insert, Finset.mem_singleton, not_or] at hb'
  exact congrArg (fun x => (((c : Thread nD τ).loc b) ↦{fullShare} x : sProp 𝕄)) (W5_of_ne m ρ c b hb'.2.2.1 hb'.2.2.2).symm

/-- The five windows' arrays at their final contents are the four buffers at the exit contents. -/
theorem arr_exit (c : Dev nD) :
    ((dat0 (V4 m ρ) c).arrays ((dat0 (V4 m ρ) c).arrAt · cfg0.N) : sProp 𝕄)
      ⊢ arrBufs (Ix := Unit) (Name := ℕ) (U := UR sig nD τ) (Lvl := ℕ) spec0 c (V5 m ρ c) :=
  arrBufs_of_arrays (V4 m ρ) c (V5 m ρ c) (W5_of_ne m ρ c main_v20 (by decide) (by decide)) (W5_of_ne m ρ c main_v19 (by decide) (by decide))
    (W5_v3 m ρ c) (W5_v4 m ρ c)

/-- EXIT: the arrays at their final contents and the unscoped rest are every unscoped buffer at the exit contents. -/
theorem exit_join (c : Dev nD) :
    iprop((dat0 (V4 m ρ) c).arrays ((dat0 (V4 m ρ) c).arrAt · cfg0.N)
        ∗ unscopedRest (Ix := Unit) (Name := ℕ) (U := UR sig nD τ) (Lvl := ℕ) spec0 c (V4 m ρ c))
      ⊢ (StableHlo.held (c : Thread nD τ) (Pipeline.ucRefs τ sig) (W5 m ρ c) : sProp 𝕄) := by
  rw [← Pipeline.unscopedBufs_held (Ix := Unit) (Name := ℕ) (U := UR sig nD τ) (Lvl := ℕ) c (W5 m ρ c),
    Pipeline.unscopedBufs_split₀ cfgs (0 : Fin 1) winFacts₀0.arr_unscoped c, rest_eq m ρ c]
  exact sep_mono (arr_exit m ρ c) .rfl

/-! ## The region as a segment -/

set_option backward.isDefEq.respectTransparency.types false in
def reg0 : Pipeline.RegionSeg (pcfgs (F := F)) adm (pdats m ρ) () defs₀ 𝒱₀ L lv 0 where
  win := winFacts₀0
  block_pos := block_pos0
  stage_whole := stage_whole0
  K := PEmpty
  osem k := k.elim
  ho := Pipeline.OwnSemFacts.none _
  hbody c := (body_obligation (V4 m ρ) c).loose
  hwaits := Pipeline.hwaits_of_owed_zero _ _ _ _ L lv 0 fun _ _ => rfl
  pre c := iprop(StableHlo.held (c : Thread nD τ) (Pipeline.ucRefs τ sig) (W4 m ρ c) ∗ R c)
  post c := iprop(StableHlo.held (c : Thread nD τ) (Pipeline.ucRefs τ sig) (W5 m ρ c) ∗ R c)
  X c := iprop(∃ r, prngReg c r)
  Y c := iprop(∃ r, prngReg c r)
  Z c := unscopedRest (Ix := Unit) (Name := ℕ) (U := UR sig nD τ) (Lvl := ℕ) spec0 c (V4 m ρ c)
  hentry c := by
    rw [Pipeline.ownSems0_none]
    iintro ⟨⟨Hub, Hp, HO⟩, -, -⟩
    ihave H := (entry_split m ρ c) $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    iintro ⟨Ha, HO, HY, Hrest⟩
    imodintro
    isplitl [Ha Hrest]
    · iapply (exit_join m ρ c)
      isplitl [Ha]; · iexact Ha
      iexact Hrest
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .host (hseg hostOps0_3 hostOps0_3_sub hostOps0_3_fresh (W3 m ρ)),
    .region (reg0 m ρ),
    .host (hseg hostOps1 hostOps1_sub hostOps1_fresh (W5 m ρ)),
    .host (hseg hostOps1_1 hostOps1_1_sub hostOps1_1_fresh (W6 m ρ)),
    .host (hseg hostOps1_2 hostOps1_2_sub hostOps1_2_fresh (W7 m ρ)) ]

theorem main_run (c : Dev nD) : main (F := F) c = Pipeline.Seg.run (segs m ρ) := (main_chain c).trans (by chain_rfl)

/-- What the run ends with: the two results at the last boundary's contents, the five arguments as launched. -/
def QC : PUnit × MemSt nD τ sig (Elt F) → Prop := fun r => ∀ c : Dev nD,
  r.2.mem ((c.tc : Thread nD τ).loc main_v27) = W8 m ρ c (Proc.devRef .tc main_v27)
  ∧ r.2.mem ((c.tc : Thread nD τ).loc main_v28) = W8 m ρ c (Proc.devRef .tc main_v28)
  ∧ r.2.mem ((c.tc : Thread nD τ).loc main_arg0) = m ((c.tc : Thread nD τ).loc main_arg0)
  ∧ r.2.mem ((c.tc : Thread nD τ).loc main_arg1) = m ((c.tc : Thread nD τ).loc main_arg1)
  ∧ r.2.mem ((c.tc : Thread nD τ).loc main_arg2) = m ((c.tc : Thread nD τ).loc main_arg2)
  ∧ r.2.mem ((c.tc : Thread nD τ).loc main_arg3) = m ((c.tc : Thread nD τ).loc main_arg3)
  ∧ r.2.mem ((c.tc : Thread nD τ).loc main_arg4) = m ((c.tc : Thread nD τ).loc main_arg4)

set_option backward.isDefEq.respectTransparency.types false in
/-- THE RUN: from any memory with zero counters every weakly fair execution of @main terminates, nothing faulting, in
    a state holding the two results at the last boundary's contents and the arguments as launched. -/
theorem run_main : θ_run defs (onTc (τ := τ) (main (F := F))) ⟨m, fun _ => 0, ρ⟩ (QC m ρ) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl,
      fun c => by
        show iprop(StableHlo.held (c : Thread nD τ) (Pipeline.ucRefs τ sig) (W8 m ρ c) ∗ R c)
          ⊢ iprop(Tₙ m ρ c ∗ ∃ W, owes (c : Thread nD τ) (0 : CellTallies nD τ sig Unit) W)
        iintro ⟨Hh, ⟨Hp, HO⟩⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v27 (by decide)), h c _ (mem_uc main_v28 (by decide)),
       (h c _ (mem_uc main_arg0 (by decide))).trans (W8_kept m ρ c main_arg0 (by decide) (by decide) (by decide) (by decide) (by decide) (by decide) (by decide) (by decide) (by decide)),
       (h c _ (mem_uc main_arg1 (by decide))).trans (W8_kept m ρ c main_arg1 (by decide) (by decide) (by decide) (by decide) (by decide) (by decide) (by decide) (by decide) (by decide)),
       (h c _ (mem_uc main_arg2 (by decide))).trans (W8_kept m ρ c main_arg2 (by decide) (by decide) (by decide) (by decide) (by decide) (by decide) (by decide) (by decide) (by decide)),
       (h c _ (mem_uc main_arg3 (by decide))).trans (W8_kept m ρ c main_arg3 (by decide) (by decide) (by decide) (by decide) (by decide) (by decide) (by decide) (by decide) (by decide)),
       (h c _ (mem_uc main_arg4 (by decide))).trans (W8_kept m ρ c main_arg4 (by decide) (by decide) (by decide) (by decide) (by decide) (by decide) (by decide) (by decide) (by decide))⟩)

end Cert.KernelIdeal.Hand

end
-- ==== Proof.KI.KTail.lean ====
/-
  The host lines after the region: the two result arrays reshaped to scalars, the guarded quotient, the unit factors.
-/
import proofs.«176159_j6562710028536_1_alg».proof.Proof.KI.Frame
import Idealize.ShloMosaic.PureOps.Ideal.Laws

set_option maxRecDepth 16384

noncomputable section

open scoped BigOperators

namespace Cert.KernelIdeal.Hand

open Cert.KernelIdeal Cert.KernelIdeal.Gen
open Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The guarded quotient of the host lines after the region, as a function of the two 1x1 result arrays. -/
def pushTail (p q : FVec Ideal S1x1 .f32) : FVec Ideal S_ .f32 :=
  mulf (constant (F := Ideal) S_ .f32 0x3F800000#32)
    (select (cmpf .ogt (shapeCast S_ q shapeCasts_S1x1_S_) (constant (F := Ideal) S_ .f32 0x00000000#32))
      (Host.divf (shapeCast S_ p shapeCasts_S1x1_S_) (shapeCast S_ q shapeCasts_S1x1_S_)) (constant (F := Ideal) S_ .f32 0x00000000#32))

set_option maxHeartbeats 1600000 in
/-- The second result buffer at the last boundary. -/
theorem tail28 (c : Dev nD) :
    W8 m ρ c (Proc.devRef .tc main_v28) = pushTail (W5 m ρ c (Proc.devRef .tc main_v21_0)) (W5 m ρ c (Proc.devRef .tc main_v21_1)) := by
  show StableHlo.after hostOps1_2 (StableHlo.after hostOps1_1 (StableHlo.after hostOps1 (W5 m ρ c))) (Proc.devRef .tc main_v28) = _
  generalize W5 m ρ c = W
  dsimp only [hostOps1, hostOps1_1, hostOps1_2]
  after_results
  rfl

set_option maxHeartbeats 1600000 in
/-- The first result buffer at the last boundary: the unit factor times the pull quotient the lines before the region left. -/
theorem tail27 (c : Dev nD) :
    W8 m ρ c (Proc.devRef .tc main_v27) = mulf (constant (F := Ideal) S_ .f32 0x3F800000#32) (W4 m ρ c (Proc.devRef .tc main_v13)) := by
  have h13 : W7 m ρ c (Proc.devRef .tc main_v13) = W4 m ρ c (Proc.devRef .tc main_v13) :=
    (not_written main_v13 _ _ hostOps1_1_writes (by decide) _).trans ((not_written main_v13 _ _ hostOps1_writes (by decide) _).trans
      (W5_of_ne m ρ c main_v13 (by decide) (by decide)))
  generalize W4 m ρ c (Proc.devRef .tc main_v13) = X at h13 ⊢
  show StableHlo.after hostOps1_2 (W7 m ρ c) (Proc.devRef .tc main_v27) = _
  generalize W7 m ρ c = W at h13 ⊢
  dsimp only [hostOps1_2]
  after_results
  rw [h13]

/-- The guarded quotient of two extended reals with the unit factor. -/
def pushVal (A B : EReal) : EReal :=
  FloatOps.mulf (F := Ideal) (φ := .f32) (Ideal.ofBits .f32 0x3F800000#32)
    (Scalar.select (FloatOps.cmpf (F := Ideal) (φ := .f32) .ogt B (Ideal.ofBits .f32 0x00000000#32)) (FloatOps.hostDivf (F := Ideal) (φ := .f32) A B)
      (Ideal.ofBits .f32 0x00000000#32))

/-- The host lines after the region on two constant 1x1 arrays. -/
theorem tail_apply (A B : EReal) (j : S_.Idx) : pushTail (fun _ => A) (fun _ => B) j = pushVal A B := rfl

end Cert.KernelIdeal.Hand

end
-- ==== Proof.KI.KArgs.lean ====
/-
  The two arrays the region reads, as the host lines before it compute them from the arguments: the sigmoid array and the mask bits widened to words.
-/
import proofs.«176159_j6562710028536_1_alg».proof.Proof.KI.Frame
import proofs.«176159_j6562710028536_1_alg».proof.Proof.ReadP
import Idealize.ShloMosaic.PureOps.Ideal.Laws

set_option maxRecDepth 16384

noncomputable section

open scoped BigOperators

namespace Cert.KernelIdeal.Hand

open Cert.KernelIdeal Cert.KernelIdeal.Gen
open Idealize.ShloMosaic Idealize.ShloMosaic.TcCoe Idealize.SL.Sem
open Idealize.ShloMosaic.Pipeline (Dat)

variable (m : (ℓ : Loc nD τ sig) → Buf (Elt Ideal) ℓ) (ρ : Dev nD → PrngReg)

set_option maxHeartbeats 1600000 in
/-- The sigmoid array the region reads is the sigmoid of the second argument. -/
theorem V4_v19 (c : Dev nD) :
    V4 m ρ c main_v19 = Cert.ReferenceIdeal.ReadP.val_main_v15 (F := Ideal) (m ((c : Thread nD τ).loc main_arg1)) := by
  show StableHlo.after hostOps0_3 (W3 m ρ c) (Proc.devRef .tc main_v19) = _
  have hA : W3 m ρ c (Proc.devRef .tc main_arg1) = m ((c : Thread nD τ).loc main_arg1) :=
    (not_written main_arg1 _ _ hostOps0_2_writes (by decide) _).trans ((not_written main_arg1 _ _ hostOps0_1_writes (by decide) _).trans
      ((not_written main_arg1 _ _ hostOps0_writes (by decide) _).trans rfl))
  generalize W3 m ρ c = W at hA ⊢
  dsimp only [hostOps0_3]
  after_results
  rw [hA]
  rfl

set_option maxHeartbeats 1600000 in
/-- The mask words the region reads are the fourth argument's bits widened to 32 bits. -/
theorem V4_v20 (c : Dev nD) :
    V4 m ρ c main_v20 = extui 32 (m ((c : Thread nD τ).loc main_arg3)) natLt_1_32 := by
  show StableHlo.after hostOps0_3 (W3 m ρ c) (Proc.devRef .tc main_v20) = _
  have hA : W3 m ρ c (Proc.devRef .tc main_arg3) = m ((c : Thread nD τ).loc main_arg3) :=
    (not_written main_arg3 _ _ hostOps0_2_writes (by decide) _).trans ((not_written main_arg3 _ _ hostOps0_1_writes (by decide) _).trans
      ((not_written main_arg3 _ _ hostOps0_writes (by decide) _).trans rfl))
  generalize W3 m ρ c = W at hA ⊢
  dsimp only [hostOps0_3]
  after_results
  rw [hA]

end Cert.KernelIdeal.Hand

end
-- ==== Proof.KI.KPull.lean ====
/-
  The pull quotient the host lines before the region leave, as the reference's stage of the same three arguments.
-/
import proofs.«176159_j6562710028536_1_alg».proof.Proof.KI.Frame
import proofs.«176159_j6562710028536_1_alg».proof.Proof.ReadP
import Idealize.ShloMosaic.PureOps.Ideal.Laws

set_option maxRecDepth 16384

noncomputable section

open scoped BigOperators

namespace Cert.KernelIdeal.Hand

open Cert.KernelIdeal Cert.KernelIdeal.Gen
open Idealize.ShloMosaic Idealize.ShloMosaic.TcCoe Idealize.SL.Sem
open Idealize.ShloMosaic.Pipeline (Dat)

variable (m : (ℓ : Loc nD τ sig) → Buf (Elt Ideal) ℓ) (ρ : Dev nD → PrngReg)

set_option maxHeartbeats 4000000 in
/-- The pull quotient the lines before the region leave is the reference's, of the same three arguments. -/
theorem V4_v13 (c : Dev nD) :
    W4 m ρ c (Proc.devRef .tc main_v13)
      = Cert.ReferenceIdeal.ReadP.val_main_v36 (F := Ideal) (m ((c : Thread nD τ).loc main_arg0)) (m ((c : Thread nD τ).loc main_arg2))
          (m ((c : Thread nD τ).loc main_arg4)) := by
  dsimp only [W4, W3, W2, W1, W0, hostOps0, hostOps0_1, hostOps0_2, hostOps0_3]
  after_results_simp
  rfl

end Cert.KernelIdeal.Hand

end
-- ==== Proof.Bridge.lean ====
/-
  The reference's push term, read at an index, against the kernel's whole-array summands. With sg the sigmoid array and
  x3 the mask bits:
    the reference's distance term is thr − |sg(b,q) − sg(b,r)|, the kernel's thr − |sg(b,r) − sg(b,q)|: one number,
      since |x − y| = |y − x| on the extended reals (also at the infinities);
    the reference's "some batch entry is below the threshold" is a 32-bit sum of eight widened bits compared with 0, the
      kernel's a maximum from −inf of eight 0/1 reals compared with 0: one bit;
    the reference sums "distance term where the bit (any ∧ mask) is set, else 0", the kernel "distance term times the
      0/1 weight": equal element by element;
    the reference counts the set bits with a 32-bit integer sum (2^25 terms: no wrap) converted to a float, the kernel
      sums the 0/1 weights: equal.
-/
import proofs.«176159_j6562710028536_1_alg».proof.Proof.ReadP
import proofs.«176159_j6562710028536_1_alg».proof.Proof.KI.Blocks
import proofs.«176159_j6562710028536_1_alg».proof.Proof.KI.KTail

set_option maxRecDepth 16384

noncomputable section

open scoped BigOperators

namespace Cert.Bridge

open Cert.ReferenceIdeal Cert.ReferenceIdeal.Gen Cert.ReferenceIdeal.ReadP
open Idealize.ShloMosaic Idealize.ShloMosaic.ValueIdx
open Cert.LibTile3 Cert.LibBits Cert.KernelIdeal.Hand Cert.KernelIdeal.Pay

/-! ## Two facts about the extended reals and about bits -/

/-- |x − y| = |y − x| on the extended reals. -/
theorem abs_sub_symm (x y : EReal) : max (x - y) (-(x - y)) = max (y - x) (-(y - x)) := by
  by_cases h : x = y
  · subst h; rfl
  · have h1 : x ≠ ⊥ ∨ y ≠ ⊥ := by
      by_contra hh
      obtain ⟨hx, hy⟩ := not_or.mp hh
      exact h ((not_not.mp hx).trans (not_not.mp hy).symm)
    have h2 : x ≠ ⊤ ∨ y ≠ ⊤ := by
      by_contra hh
      obtain ⟨hx, hy⟩ := not_or.mp hh
      exact h ((not_not.mp hx).trans (not_not.mp hy).symm)
    have e1 : -(x - y) = y - x := by rw [EReal.neg_sub h1 h2, add_comm, sub_eq_add_neg]
    have e2 : -(y - x) = x - y := by rw [EReal.neg_sub h1.symm h2.symm, add_comm, sub_eq_add_neg]
    rw [e1, e2, max_comm]

/-- The product of two bits as reals is their conjunction as a real. -/
theorem and_bits (u w : BitVec 1) : (((IntOp.andi u w).toNat : ℝ) : EReal) = ((u.toNat : ℝ) : EReal) * ((w.toNat : ℝ) : EReal) := by
  rcases bit_cases u with rfl | rfl <;> rcases bit_cases w with rfl | rfl <;> simp [IntOp.andi]

/-- A value kept where a bit is set, else the zero word: the value times the bit as a real. -/
theorem select_bit (u : BitVec 1) (d z : EReal) (hz : z = 0) : Scalar.select u d z = d * ((u.toNat : ℝ) : EReal) := by
  subst hz
  rcases bit_cases u with rfl | rfl
  · rw [show Scalar.select 0#1 d (0 : EReal) = 0 from if_neg (by decide)]; simp
  · rw [show Scalar.select 1#1 d (0 : EReal) = d from if_pos rfl]; simp

/-! ## The reference, read at an index -/

variable (x1 : (⟨S8x2048, .f32⟩ : BufTy).Contents (Elt Ideal)) (x3 : (⟨S8x2048x2048, .i1⟩ : BufTy).Contents (Elt Ideal))

/-- The reference's sigmoid array. -/
abbrev sg : (⟨2, ![8, 2048]⟩ : Shape).Idx → EReal := val_main_v15 (F := Ideal) x1

theorem v18_apply (b : Fin 8) (r q : Fin 2048) : val_main_v18 (F := Ideal) x1 (ix3 b r q) = sg x1 (ix2 b q) := by
  rw [val_main_v18_apply, val_main_v16_apply]
  refine congrArg (val_main_v15 (F := Ideal) x1) (funext fun d => ?_)
  match d with
  | ⟨0, _⟩ => rfl
  | ⟨1, _⟩ => rfl

theorem v19_apply (b : Fin 8) (r q : Fin 2048) : val_main_v19 (F := Ideal) x1 (ix3 b r q) = sg x1 (ix2 b r) := by
  rw [val_main_v19_apply, val_main_v17_apply]
  refine congrArg (val_main_v15 (F := Ideal) x1) (funext fun d => ?_)
  match d with
  | ⟨0, _⟩ => rfl
  | ⟨1, _⟩ => rfl

/-- The reference's distance term is the kernel's. -/
theorem v23_apply (b : Fin 8) (r q : Fin 2048) : val_main_v23 (F := Ideal) x1 (ix3 b r q) = distF (sg x1) b r q := by
  rw [val_main_v23_apply, val_main_v22_apply, val_main_cst_3_apply, val_main_v21_apply, val_main_v20_apply, v18_apply, v19_apply]
  unfold distF
  show thrW - max (sg x1 (ix2 b q) - sg x1 (ix2 b r)) (-(sg x1 (ix2 b q) - sg x1 (ix2 b r))) = _
  rw [abs_sub_symm]

theorem v25_apply (b : Fin 8) (r q : Fin 2048) : val_main_v25 (F := Ideal) x1 (ix3 b r q) = lessF (sg x1) b r q := by
  rw [val_main_v25_apply, v23_apply, val_main_v24_apply, val_main_cst_4_apply]
  rfl

theorem red0 : S8x2048x2048.Reduces [0] S2048x2048 := by decide

theorem lift0R (r q : Fin 2048) (k : Fin 8) : (red0).lift (ix2 r q) k = ix3 k r q := by
  funext d
  match d with
  | ⟨0, _⟩ => rfl
  | ⟨1, _⟩ => rfl
  | ⟨2, _⟩ => rfl

/-- The 32-bit sum over the batch axis of the widened "below the threshold" bits. -/
theorem v27_apply (r q : Fin 2048) :
    val_main_v27 (F := Ideal) x1 (ix2 r q)
      = (Finset.univ : Finset (Fin 8)).fold IntOp.addi 0#32 (fun k => (lessF (sg x1) k r q).setWidth 32) := by
  unfold val_main_v27
  refine (Host.reduce_eq_fold_single IntOp.addi (val_main_v26 (F := Ideal) x1) (val_main_c (F := Ideal))
    reducesTo_S8x2048x2048_S2048x2048_d0 red0 h_S_ (ix2 r q)).trans ?_
  refine congrArg (fun g => (Finset.univ : Finset (Fin 8)).fold IntOp.addi 0#32 g) (funext fun k => ?_)
  exact (congrArg (val_main_v26 (F := Ideal) x1) (lift0R r q k)).trans
    ((val_main_v26_apply x1 _).trans (congrArg (fun w : BitVec 1 => w.setWidth 32) (v25_apply x1 k r q)))

/-- The reference's "some batch entry is below the threshold" bit is the kernel's. -/
theorem v31_apply (b : Fin 8) (r q : Fin 2048) : val_main_v31 (F := Ideal) x1 (ix3 b r q) = anyF (sg x1) r q := by
  rw [val_main_v31_apply, val_main_v30_apply, val_main_v28_apply, val_main_v29_apply, val_main_c_5_apply]
  have e : idx_main_v28 (idx_main_v31 (ix3 b r q)) = ix2 r q := by
    funext d
    match d with
    | ⟨0, _⟩ => rfl
    | ⟨1, _⟩ => rfl
  rw [e, v27_apply]
  unfold anyF
  exact cmpi_sgt_fold_addi_bits Finset.univ (fun k : Fin 8 => lessF (sg x1) k r q) (by decide)

theorem v32_apply (b : Fin 8) (r q : Fin 2048) :
    val_main_v32 (F := Ideal) x1 x3 (ix3 b r q) = IntOp.andi (anyF (sg x1) r q) (x3 (ix3 b r q)) := by
  rw [val_main_v32_apply, v31_apply]

/-! ## Element by element -/

/-- The mask words the kernel reads. -/
abbrev mw : I3 8 2048 2048 → BitVec 32 := fun i => (x3 i).setWidth 32

theorem coords (i : I3 8 2048 2048) : i = ix3 (c0 i) (c1 i) (c2 i) := ext3 _ _ rfl rfl rfl

theorem weight_eq (i : I3 8 2048 2048) :
    HK6 (sg x1) (mw x3) i = (((val_main_v32 (F := Ideal) x1 x3 i).toNat : ℝ) : EReal) := by
  unfold HK6 weightF maskF
  conv_rhs => rw [coords i, v32_apply, and_bits]
  rw [show mw x3 (ix3 (c0 i) (c1 i) (c2 i)) = (x3 (ix3 (c0 i) (c1 i) (c2 i))).setWidth 32 from rfl, cmpi_ne_bit]

theorem summand_eq (i : I3 8 2048 2048) : HK5 (sg x1) (mw x3) i = val_main_v40 (F := Ideal) x1 x3 i := by
  have hw := weight_eq x1 x3 i
  unfold HK6 at hw
  unfold HK5
  rw [hw, val_main_v40_apply, val_main_call2_v1_apply, val_main_call2_v0_apply, val_main_cst_9_apply]
  rw [show (FloatOps.ofBits (F := Ideal) .f32 0x00000000#32 : EReal) = 0 from zero_word, select_bit _ _ _ rfl]
  conv_rhs => rw [coords i, v23_apply]
  rw [← coords i]

/-! ## The two sums -/

/-- The reference's sum of kept distance terms is the kernel's sum of distance terms times weights. -/
theorem sum_eq (j : S_.Idx) :
    val_main_v41 (F := Ideal) x1 x3 j = 0 + ∑ i : I3 8 2048 2048, HK5 (sg x1) (mw x3) i := by
  rw [val_main_v41_apply, val_main_cst_10_apply]
  show Ideal.ofBits .f32 0x00000000#32 + _ = _
  rw [zero_word]
  exact congrArg (fun s => (0 : EReal) + s) (Finset.sum_congr rfl fun i _ => (summand_eq x1 x3 i).symm)

/-- A tile has at most 8·256·256 elements. -/
theorem card_tile : Fintype.card (I3 8 256 256) ≤ 524288 := by
  have h := Fintype.card_le_of_injective
    (fun i : I3 8 256 256 => ((⟨(i 0).val, lt0 i⟩ : Fin 8), (⟨(i 1).val, lt1 i⟩ : Fin 256), (⟨(i 2).val, lt2 i⟩ : Fin 256)))
    (fun i j h => by
      simp only [Prod.mk.injEq, Fin.mk.injEq] at h
      exact ext3 i j h.1 h.2.1 h.2.2)
  simpa [Fintype.card_prod, Fintype.card_fin] using h

/-- The index space has at most 2^25 elements. -/
theorem card_idx : (Finset.univ : Finset (I3 8 2048 2048)).card < 2147483648 := by
  rw [Finset.card_univ, ← Fintype.card_congr tileEquiv, Fintype.card_prod, Fintype.card_fin]
  have := card_tile
  omega

/-- The reference's count (an integer sum converted to a float) is the kernel's sum of weights. -/
theorem count_eq (j : S_.Idx) :
    val_main_v39 (F := Ideal) x1 x3 j = 0 + ∑ i : I3 8 2048 2048, HK6 (sg x1) (mw x3) i := by
  rw [val_main_v39_apply]
  unfold val_main_v38
  rw [Host.reduce_eq_fold IntOp.addi (val_main_v37 (F := Ideal) x1 x3) (val_main_c_8 (F := Ideal)) reducesTo_S8x2048x2048_S_d0_1_2 h_S_ j]
  rw [Finset.filter_true_of_mem (fun i _ => funext fun a => a.elim0)]
  show FloatOps.sitofp (F := Ideal) .f32 ((Finset.univ : Finset (I3 8 2048 2048)).fold IntOp.addi 0#32
    (fun i => (val_main_v32 (F := Ideal) x1 x3 i).setWidth 32)) = _
  rw [sitofp_fold_addi_bits _ _ card_idx, zero_add]
  exact Finset.sum_congr rfl fun i _ => (weight_eq x1 x3 i).symm

/-- The reference's push result at its one index: the guarded quotient of its sum and its count. -/
theorem ref46_apply (j : S_.Idx) :
    val_main_v46 (F := Ideal) x1 x3 j = pushVal (val_main_v41 (F := Ideal) x1 x3 j) (val_main_v39 (F := Ideal) x1 x3 j) := by
  rw [val_main_v46_apply, val_main_v44_apply, val_main_v42_apply, val_main_v43_apply, val_main_call3_v0_apply, val_main_cst_12_apply,
    val_main_cst_11_apply, val_main_cst_14_apply]
  rfl

end Cert.Bridge

end
-- ==== Proof.lean ====
/-
  The pull/push embedding loss: a Pallas kernel against its jnp reference, on the extended reals.

  Both programs return two scalars. The pull term, Σ (softplus(x) − x·round(sigmoid(g)))·w / Σ w, is computed by the
  same host operations in both, so its two values are one term of the arguments. The push term is a guarded quotient
  P / C (0 when C is not positive) of two sums over the index space [8, 2048, 2048]: with s the sigmoid of the second
  argument, d(b,i,j) = thr − |s(b,i) − s(b,j)|, any(i,j) = "d(b,i,j) < thr for some b" and m(b,i,j) = any(i,j) ∧ mask(b,i,j),
  P = Σ d·m and C = Σ m. The reference computes them with whole-array operations (any as an integer sum over b compared
  with 0, C as an integer count converted to a float, P as a sum of d where m holds and 0 elsewhere). The kernel walks
  the 8 x 8 tiles of the last two axes, 256 x 256 each: the first grid point zeroes two 1x1 accumulators, every point
  adds its tile's two partial sums (any as a maximum over b of 0/1 values, m as a product of 0/1 values), and the last
  point writes them back; the host then forms the quotient.

  The two agree because (i) |x − y| = |y − x| on the extended reals, also at the infinities; (ii) "some bit is set" read
  through a maximum of 0/1 reals or through a non-wrapping 32-bit sum of bits is one bit; (iii) d·m with m ∈ {0, 1} is
  "d where m, else 0", and the count of 2^25 bits does not wrap in 32 bits; (iv) every element lies in exactly one
  tile, and sums on the extended reals may be regrouped (addition is commutative and associative there), so the 64
  partial sums add up to the whole sums. No step needs the inputs to be finite. The frames (each program runs to the
  end, faults nowhere and leaves its arguments unchanged) come from the same run of the kernel program, at both
  instances, and from the reference's run.
-/
import proofs.«176159_j6562710028536_1_alg».proof.Defs
import proofs.«176159_j6562710028536_1_alg».proof.Proof.Gen.Kernel
import proofs.«176159_j6562710028536_1_alg».proof.Proof.Gen.KernelIdeal
import proofs.«176159_j6562710028536_1_alg».proof.Proof.Gen.ReferenceIdeal
import proofs.«176159_j6562710028536_1_alg».proof.Proof.Gen.Pre_finite_inputs
import proofs.«176159_j6562710028536_1_alg».proof.Proof.K.Frame
import proofs.«176159_j6562710028536_1_alg».proof.Proof.KI.KFinal
import proofs.«176159_j6562710028536_1_alg».proof.Proof.KI.KTail
import proofs.«176159_j6562710028536_1_alg».proof.Proof.KI.KArgs
import proofs.«176159_j6562710028536_1_alg».proof.Proof.KI.KPull
import proofs.«176159_j6562710028536_1_alg».proof.Proof.Bridge
import Idealize.ShloMosaic.Adequacy
import Idealize.ShloMosaic.Init

set_option maxRecDepth 16384

noncomputable section

namespace Cert.Proof

open Idealize.ShloMosaic Idealize.ShloMosaic.TcCoe Idealize.SL.Sem
open Cert.KernelIdeal Cert.KernelIdeal.Gen Cert.KernelIdeal.Hand

variable (m : (ℓ : Loc nD τ sig) → Buf (Elt Ideal) ℓ) (ρ : Dev nD → PrngReg)

/-- The kernel program's pull result is the reference's pull stage of the same arguments. -/
theorem kernel_pull (c : Dev nD) :
    W8 m ρ c (Proc.devRef .tc main_v27)
      = Cert.ReferenceIdeal.ReadP.val_main_v45 (F := Ideal) (m ((c : Thread nD τ).loc main_arg0)) (m ((c : Thread nD τ).loc main_arg2))
          (m ((c : Thread nD τ).loc main_arg4)) := by
  rw [tail27, V4_v13]
  rfl

/-- The kernel program's push result is the reference's push stage of the same arguments. -/
theorem kernel_push (c : Dev nD) :
    W8 m ρ c (Proc.devRef .tc main_v28)
      = Cert.ReferenceIdeal.ReadP.val_main_v46 (F := Ideal) (m ((c : Thread nD τ).loc main_arg1)) (m ((c : Thread nD τ).loc main_arg3)) := by
  rw [tail28, W5_v3, W5_v4, final3, final4, V4_v19, V4_v20,
    show (extui 32 (m ((c : Thread nD τ).loc main_arg3)) natLt_1_32) = Cert.Bridge.mw (m ((c : Thread nD τ).loc main_arg3)) from rfl]
  funext j
  refine (tail_apply _ _ j).trans ?_
  rw [Cert.Bridge.ref46_apply, Cert.Bridge.sum_eq, Cert.Bridge.count_eq]

end Cert.Proof

namespace Cert.Proof

open Idealize.ShloMosaic Idealize.SL.Sem

theorem frame_k : Cert.frame_Kernel := fun m ρ _ =>
  (θ_run Cert.Kernel.defs _ _).mono (fun _ h c => (h c).2.2) (Cert.Kernel.Hand.run_main (F := Bits) m ρ)

theorem frame_ki : Cert.frame_KernelIdeal := fun m ρ _ =>
  (θ_run Cert.KernelIdeal.defs _ _).mono (fun _ h c => (h c).2.2) (Cert.KernelIdeal.Hand.run_main (F := Ideal) m ρ)

theorem frame_ri : Cert.frame_ReferenceIdeal := fun m ρ _ =>
  (θ_run Cert.ReferenceIdeal.defs _ _).mono (fun _ h c => (h c).2.2) (Cert.ReferenceIdeal.ValueP.run (F := Ideal) m ρ)

/-- The two programs, from memories agreeing on the arguments, end with equal results. -/
theorem algebraic : Cert.algebraic_KernelIdeal_ReferenceIdeal := by
  intro m ρ m' ρ' _ hagree
  refine ⟨fun c => Cert.KernelIdeal.Hand.W8 m ρ c (Proc.devRef .tc Cert.KernelIdeal.main_v27),
    fun c => Cert.KernelIdeal.Hand.W8 m ρ c (Proc.devRef .tc Cert.KernelIdeal.main_v28), ?_, ?_⟩
  · exact (θ_run Cert.KernelIdeal.defs _ _).mono (fun _ h c => h c) (Cert.KernelIdeal.Hand.run_main (F := Ideal) m ρ)
  · refine (θ_run Cert.ReferenceIdeal.defs _ _).mono (fun _ h c => ⟨?_, ?_, (h c).2.2⟩) (Cert.ReferenceIdeal.ValueP.run (F := Ideal) m' ρ')
    · refine (h c).1.trans ?_
      rw [Cert.ReferenceIdeal.ReadP.val_main_v45_eq, (hagree c).1, (hagree c).2.2.1, (hagree c).2.2.2.2, ← kernel_pull m ρ c]
    · refine (h c).2.1.trans ?_
      rw [Cert.ReferenceIdeal.ReadP.val_main_v46_eq, (hagree c).2.1, (hagree c).2.2.2.1, ← kernel_push m ρ c]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
